-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)) →
    ∃ (v0 : (c : Dev Cert.KernelIdeal.nD) → Buf (Elt Ideal) ((c.tc : Thread Cert.KernelIdeal.nD Cert.KernelIdeal.τ).loc Cert.KernelIdeal.main_v49)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v49) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v98) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S800000 : Shape := ⟨1, ![800000]⟩
abbrev S524288 : Shape := ⟨1, ![524288]⟩
abbrev S50000x256 : Shape := ⟨2, ![50000, 256]⟩
abbrev S256x256 : Shape := ⟨2, ![256, 256]⟩
abbrev S256 : Shape := ⟨1, ![256]⟩
abbrev S2x256 : Shape := ⟨2, ![2, 256]⟩
abbrev S2 : Shape := ⟨1, ![2]⟩
abbrev S_ : Shape := ⟨0, ![]⟩

class Facts : Prop where
  bcast_S_S800000 : S_.BroadcastsInDim S800000 (![] : Fin 0 → Fin S800000.rank)
  reducesTo_S800000_S_d0 : S800000.ReducesTo [0] S_
  h_S_ : 0 < S_.numel
  bcast_S_S524288 : S_.BroadcastsInDim S524288 (![] : Fin 0 → Fin S524288.rank)
  reducesTo_S524288_S_d0 : S524288.ReducesTo [0] S_
  bcast_S_S50000x256 : S_.BroadcastsInDim S50000x256 (![] : Fin 0 → Fin S50000x256.rank)
  reducesTo_S50000x256_S_d0_1 : S50000x256.ReducesTo [0, 1] S_
  bcast_S_S256x256 : S_.BroadcastsInDim S256x256 (![] : Fin 0 → Fin S256x256.rank)
  reducesTo_S256x256_S_d0_1 : S256x256.ReducesTo [0, 1] S_
  bcast_S_S256 : S_.BroadcastsInDim S256 (![] : Fin 0 → Fin S256.rank)
  reducesTo_S256_S_d0 : S256.ReducesTo [0] S_
  bcast_S_S2x256 : S_.BroadcastsInDim S2x256 (![] : Fin 0 → Fin S2x256.rank)
  reducesTo_S2x256_S_d0_1 : S2x256.ReducesTo [0, 1] S_
  bcast_S_S2 : S_.BroadcastsInDim S2 (![] : Fin 0 → Fin S2.rank)
  reducesTo_S2_S_d0 : S2.ReducesTo [0] S_

variable [Facts]

def fn_part3 {F : FTy → Type} [FloatOps F] (main_v48 : IVec S_ 1) (main_v49 : FVec F S2 .f32) (main_v50 : FVec F S2 .f32) : IVec S_ 1 :=
  let main_v51 : IVec S2 1 := cmpf .olt main_v49 main_v50
  let main_c_19 : IVec S_ 1 := constantI S_ 1 1#1
  let main_v52 : IVec S_ 1 := (fun x v => Host.reduce IntOp.andi x v reducesTo_S2_S_d0 h_S_) main_v51 main_c_19
  let main_v53 : IVec S_ 1 := andi main_v48 main_v52
  main_v53

def fn_part2 {F : FTy → Type} [FloatOps F] (main_arg11 : FVec F S256x256 .f32) (main_arg12 : FVec F S256 .f32) (main_arg13 : FVec F S2x256 .f32) (main_arg14 : FVec F S2 .f32) (main_v33 : IVec S_ 1) : IVec S_ 1 :=
  let main_v34 : FVec F S256x256 .f32 := Host.absf main_arg11
  let main_cst_12 : FVec F S_ .f32 := constant S_ .f32 0x7F800000#32
  let main_v35 : FVec F S256x256 .f32 := broadcastInDim S256x256 ![] bcast_S_S256x256 main_cst_12
  let main_v36 : IVec S256x256 1 := cmpf .olt main_v34 main_v35
  let main_c_13 : IVec S_ 1 := constantI S_ 1 1#1
  let main_v37 : IVec S_ 1 := (fun x v => Host.reduce IntOp.andi x v reducesTo_S256x256_S_d0_1 h_S_) main_v36 main_c_13
  let main_v38 : IVec S_ 1 := andi main_v33 main_v37
  let main_v39 : FVec F S256 .f32 := Host.absf main_arg12
  let main_cst_14 : FVec F S_ .f32 := constant S_ .f32 0x7F800000#32
  let main_v40 : FVec F S256 .f32 := broadcastInDim S256 ![] bcast_S_S256 main_cst_14
  let main_v41 : IVec S256 1 := cmpf .olt main_v39 main_v40
  let main_c_15 : IVec S_ 1 := constantI S_ 1 1#1
  let main_v42 : IVec S_ 1 := (fun x v => Host.reduce IntOp.andi x v reducesTo_S256_S_d0 h_S_) main_v41 main_c_15
  let main_v43 : IVec S_ 1 := andi main_v38 main_v42
  let main_v44 : FVec F S2x256 .f32 := Host.absf main_arg13
  let main_cst_16 : FVec F S_ .f32 := constant S_ .f32 0x7F800000#32
  let main_v45 : FVec F S2x256 .f32 := broadcastInDim S2x256 ![] bcast_S_S2x256 main_cst_16
  let main_v46 : IVec S2x256 1 := cmpf .olt main_v44 main_v45
  let main_c_17 : IVec S_ 1 := constantI S_ 1 1#1
  let main_v47 : IVec S_ 1 := (fun x v => Host.reduce IntOp.andi x v reducesTo_S2x256_S_d0_1 h_S_) main_v46 main_c_17
  let main_v48 : IVec S_ 1 := andi main_v43 main_v47
  let main_v49 : FVec F S2 .f32 := Host.absf main_arg14
  let main_cst_18 : FVec F S_ .f32 := constant S_ .f32 0x7F800000#32
  let main_v50 : FVec F S2 .f32 := broadcastInDim S2 ![] bcast_S_S2 main_cst_18
  fn_part3 (F := F) main_v48 main_v49 main_v50

def fn_part1 {F : FTy → Type} [FloatOps F] (main_arg8 : FVec F S256x256 .f32) (main_arg9 : FVec F S256 .f32) (main_arg10 : FVec F S256 .f32) (main_arg11 : FVec F S256x256 .f32) (main_arg12 : FVec F S256 .f32) (main_arg13 : FVec F S2x256 .f32) (main_arg14 : FVec F S2 .f32) (main_v13 : IVec S_ 1) (main_v16 : IVec S256x256 1) : IVec S_ 1 :=
  let main_c_5 : IVec S_ 1 := constantI S_ 1 1#1
  let main_v17 : IVec S_ 1 := (fun x v => Host.reduce IntOp.andi x v reducesTo_S256x256_S_d0_1 h_S_) main_v16 main_c_5
  let main_v18 : IVec S_ 1 := andi main_v13 main_v17
  let main_v19 : FVec F S256x256 .f32 := Host.absf main_arg8
  let main_cst_6 : FVec F S_ .f32 := constant S_ .f32 0x7F800000#32
  let main_v20 : FVec F S256x256 .f32 := broadcastInDim S256x256 ![] bcast_S_S256x256 main_cst_6
  let main_v21 : IVec S256x256 1 := cmpf .olt main_v19 main_v20
  let main_c_7 : IVec S_ 1 := constantI S_ 1 1#1
  let main_v22 : IVec S_ 1 := (fun x v => Host.reduce IntOp.andi x v reducesTo_S256x256_S_d0_1 h_S_) main_v21 main_c_7
  let main_v23 : IVec S_ 1 := andi main_v18 main_v22
  let main_v24 : FVec F S256 .f32 := Host.absf main_arg9
  let main_cst_8 : FVec F S_ .f32 := constant S_ .f32 0x7F800000#32
  let main_v25 : FVec F S256 .f32 := broadcastInDim S256 ![] bcast_S_S256 main_cst_8
  let main_v26 : IVec S256 1 := cmpf .olt main_v24 main_v25
  let main_c_9 : IVec S_ 1 := constantI S_ 1 1#1
  let main_v27 : IVec S_ 1 := (fun x v => Host.reduce IntOp.andi x v reducesTo_S256_S_d0 h_S_) main_v26 main_c_9
  let main_v28 : IVec S_ 1 := andi main_v23 main_v27
  let main_v29 : FVec F S256 .f32 := Host.absf main_arg10
  let main_cst_10 : FVec F S_ .f32 := constant S_ .f32 0x7F800000#32
  let main_v30 : FVec F S256 .f32 := broadcastInDim S256 ![] bcast_S_S256 main_cst_10
  let main_v31 : IVec S256 1 := cmpf .olt main_v29 main_v30
  let main_c_11 : IVec S_ 1 := constantI S_ 1 1#1
  let main_v32 : IVec S_ 1 := (fun x v => Host.reduce IntOp.andi x v reducesTo_S256_S_d0 h_S_) main_v31 main_c_11
  let main_v33 : IVec S_ 1 := andi main_v28 main_v32
  fn_part2 (F := F) main_arg11 main_arg12 main_arg13 main_arg14 main_v33

def fn {F : FTy → Type} [FloatOps F] (main_arg0 : IVec S800000 32) (main_arg1 : IVec S800000 32) (main_arg2 : FVec F S800000 .f32) (main_arg3 : IVec S524288 32) (main_arg4 : IVec S524288 32) (main_arg5 : FVec F S524288 .f32) (main_arg6 : FVec F S50000x256 .f32) (main_arg7 : FVec F S256x256 .f32) (main_arg8 : FVec F S256x256 .f32) (main_arg9 : FVec F S256 .f32) (main_arg10 : FVec F S256 .f32) (main_arg11 : FVec F S256x256 .f32) (main_arg12 : FVec F S256 .f32) (main_arg13 : FVec F S2x256 .f32) (main_arg14 : FVec F S2 .f32) : IVec S_ 1 :=
  let main_v0 : FVec F S800000 .f32 := Host.absf main_arg2
  let main_cst : FVec F S_ .f32 := constant S_ .f32 0x7F800000#32
  let main_v1 : FVec F S800000 .f32 := broadcastInDim S800000 ![] bcast_S_S800000 main_cst
  let main_v2 : IVec S800000 1 := cmpf .olt main_v0 main_v1
  let main_c : IVec S_ 1 := constantI S_ 1 1#1
  let main_v3 : IVec S_ 1 := (fun x v => Host.reduce IntOp.andi x v reducesTo_S800000_S_d0 h_S_) main_v2 main_c
  let main_v4 : FVec F S524288 .f32 := Host.absf main_arg5
  let main_cst_0 : FVec F S_ .f32 := constant S_ .f32 0x7F800000#32
  let main_v5 : FVec F S524288 .f32 := broadcastInDim S524288 ![] bcast_S_S524288 main_cst_0
  let main_v6 : IVec S524288 1 := cmpf .olt main_v4 main_v5
  let main_c_1 : IVec S_ 1 := constantI S_ 1 1#1
  let main_v7 : IVec S_ 1 := (fun x v => Host.reduce IntOp.andi x v reducesTo_S524288_S_d0 h_S_) main_v6 main_c_1
  let main_v8 : IVec S_ 1 := andi main_v3 main_v7
  let main_v9 : FVec F S50000x256 .f32 := Host.absf main_arg6
  let main_cst_2 : FVec F S_ .f32 := constant S_ .f32 0x7F800000#32
  let main_v10 : FVec F S50000x256 .f32 := broadcastInDim S50000x256 ![] bcast_S_S50000x256 main_cst_2
  let main_v11 : IVec S50000x256 1 := cmpf .olt main_v9 main_v10
  let main_c_3 : IVec S_ 1 := constantI S_ 1 1#1
  let main_v12 : IVec S_ 1 := (fun x v => Host.reduce IntOp.andi x v reducesTo_S50000x256_S_d0_1 h_S_) main_v11 main_c_3
  let main_v13 : IVec S_ 1 := andi main_v8 main_v12
  let main_v14 : FVec F S256x256 .f32 := Host.absf main_arg7
  let main_cst_4 : FVec F S_ .f32 := constant S_ .f32 0x7F800000#32
  let main_v15 : FVec F S256x256 .f32 := broadcastInDim S256x256 ![] bcast_S_S256x256 main_cst_4
  let main_v16 : IVec S256x256 1 := cmpf .olt main_v14 main_v15
  fn_part1 (F := F) main_arg8 main_arg9 main_arg10 main_arg11 main_arg12 main_arg13 main_arg14 main_v13 main_v16
-- ==== Kernel.lean ====
abbrev S800000 : Shape := ⟨1, ![800000]⟩
abbrev S524288 : Shape := ⟨1, ![524288]⟩
abbrev S50000x256 : Shape := ⟨2, ![50000, 256]⟩
abbrev S256x256 : Shape := ⟨2, ![256, 256]⟩
abbrev S256 : Shape := ⟨1, ![256]⟩
abbrev S2x256 : Shape := ⟨2, ![2, 256]⟩
abbrev S2 : Shape := ⟨1, ![2]⟩
abbrev S800000x1 : Shape := ⟨2, ![800000, 1]⟩
abbrev S_ : Shape := ⟨0, ![]⟩
abbrev S800000x256 : Shape := ⟨2, ![800000, 256]⟩
abbrev S5000x256 : Shape := ⟨2, ![5000, 256]⟩
abbrev S1x256 : Shape := ⟨2, ![1, 256]⟩
abbrev S5000 : Shape := ⟨1, ![5000]⟩
abbrev S5000x1 : Shape := ⟨2, ![5000, 1]⟩
abbrev S524288x1 : Shape := ⟨2, ![524288, 1]⟩
abbrev S524288x256 : Shape := ⟨2, ![524288, 256]⟩
abbrev S16384x256 : Shape := ⟨2, ![16384, 256]⟩
abbrev S256x2 : Shape := ⟨2, ![256, 2]⟩
abbrev S1x2 : Shape := ⟨2, ![1, 2]⟩
abbrev S16384x2 : Shape := ⟨2, ![16384, 2]⟩
abbrev S4096x256 : Shape := ⟨2, ![4096, 256]⟩
abbrev S4096x2 : Shape := ⟨2, ![4096, 2]⟩

abbrev nBuf : Space → Nat
  | .hbm => 74
  | .vmem => 22
  | .smem => 0
  | _ => 0

abbrev bufTy : (tb : Table) → Fin (tcTables nBuf tb) → BufTy
  | .hbm, ⟨0, _⟩ => ⟨S800000, .i32⟩
  | .hbm, ⟨1, _⟩ => ⟨S800000, .i32⟩
  | .hbm, ⟨2, _⟩ => ⟨S800000, .f32⟩
  | .hbm, ⟨3, _⟩ => ⟨S524288, .i32⟩
  | .hbm, ⟨4, _⟩ => ⟨S524288, .i32⟩
  | .hbm, ⟨5, _⟩ => ⟨S524288, .f32⟩
  | .hbm, ⟨6, _⟩ => ⟨S50000x256, .f32⟩
  | .hbm, ⟨7, _⟩ => ⟨S256x256, .f32⟩
  | .hbm, ⟨8, _⟩ => ⟨S256x256, .f32⟩
  | .hbm, ⟨9, _⟩ => ⟨S256, .f32⟩
  | .hbm, ⟨10, _⟩ => ⟨S256, .f32⟩
  | .hbm, ⟨11, _⟩ => ⟨S256x256, .f32⟩
  | .hbm, ⟨12, _⟩ => ⟨S256, .f32⟩
  | .hbm, ⟨13, _⟩ => ⟨S2x256, .f32⟩
  | .hbm, ⟨14, _⟩ => ⟨S2, .f32⟩
  | .hbm, ⟨15, _⟩ => ⟨S800000x1, .f32⟩
  | .hbm, ⟨16, _⟩ => ⟨S_, .i32⟩
  | .hbm, ⟨17, _⟩ => ⟨S800000, .i32⟩
  | .hbm, ⟨18, _⟩ => ⟨S800000, .i1⟩
  | .hbm, ⟨19, _⟩ => ⟨S_, .i32⟩
  | .hbm, ⟨20, _⟩ => ⟨S800000, .i32⟩
  | .hbm, ⟨21, _⟩ => ⟨S800000, .i32⟩
  | .hbm, ⟨22, _⟩ => ⟨S800000, .i32⟩
  | .hbm, ⟨23, _⟩ => ⟨S800000x1, .i32⟩
  | .hbm, ⟨24, _⟩ => ⟨S800000x256, .f32⟩
  | .hbm, ⟨25, _⟩ => ⟨S800000x256, .f32⟩
  | .hbm, ⟨26, _⟩ => ⟨S800000x256, .f32⟩
  | .hbm, ⟨27, _⟩ => ⟨S_, .f32⟩
  | .hbm, ⟨28, _⟩ => ⟨S50000x256, .f32⟩
  | .hbm, ⟨29, _⟩ => ⟨S800000x1, .i32⟩
  | .hbm, ⟨30, _⟩ => ⟨S50000x256, .f32⟩
  | .hbm, ⟨31, _⟩ => ⟨S256x256, .f32⟩
  | .hbm, ⟨32, _⟩ => ⟨S50000x256, .f32⟩
  | .hbm, ⟨33, _⟩ => ⟨S800000x1, .f32⟩
  | .hbm, ⟨34, _⟩ => ⟨S_, .i32⟩
  | .hbm, ⟨35, _⟩ => ⟨S800000, .i32⟩
  | .hbm, ⟨36, _⟩ => ⟨S800000, .i1⟩
  | .hbm, ⟨37, _⟩ => ⟨S_, .i32⟩
  | .hbm, ⟨38, _⟩ => ⟨S800000, .i32⟩
  | .hbm, ⟨39, _⟩ => ⟨S800000, .i32⟩
  | .hbm, ⟨40, _⟩ => ⟨S800000, .i32⟩
  | .hbm, ⟨41, _⟩ => ⟨S800000x1, .i32⟩
  | .hbm, ⟨42, _⟩ => ⟨S800000x256, .f32⟩
  | .hbm, ⟨43, _⟩ => ⟨S800000x256, .f32⟩
  | .hbm, ⟨44, _⟩ => ⟨S800000x256, .f32⟩
  | .hbm, ⟨45, _⟩ => ⟨S_, .f32⟩
  | .hbm, ⟨46, _⟩ => ⟨S50000x256, .f32⟩
  | .hbm, ⟨47, _⟩ => ⟨S800000x1, .i32⟩
  | .hbm, ⟨48, _⟩ => ⟨S50000x256, .f32⟩
  | .hbm, ⟨49, _⟩ => ⟨S256x256, .f32⟩
  | .hbm, ⟨50, _⟩ => ⟨S1x256, .f32⟩
  | .hbm, ⟨51, _⟩ => ⟨S1x256, .f32⟩
  | .hbm, ⟨52, _⟩ => ⟨S50000x256, .f32⟩
  | .hbm, ⟨53, _⟩ => ⟨S524288x1, .f32⟩
  | .hbm, ⟨54, _⟩ => ⟨S_, .i32⟩
  | .hbm, ⟨55, _⟩ => ⟨S524288, .i32⟩
  | .hbm, ⟨56, _⟩ => ⟨S524288, .i1⟩
  | .hbm, ⟨57, _⟩ => ⟨S_, .i32⟩
  | .hbm, ⟨58, _⟩ => ⟨S524288, .i32⟩
  | .hbm, ⟨59, _⟩ => ⟨S524288, .i32⟩
  | .hbm, ⟨60, _⟩ => ⟨S524288, .i32⟩
  | .hbm, ⟨61, _⟩ => ⟨S524288x1, .i32⟩
  | .hbm, ⟨62, _⟩ => ⟨S524288x256, .f32⟩
  | .hbm, ⟨63, _⟩ => ⟨S524288x256, .f32⟩
  | .hbm, ⟨64, _⟩ => ⟨S524288x256, .f32⟩
  | .hbm, ⟨65, _⟩ => ⟨S_, .f32⟩
  | .hbm, ⟨66, _⟩ => ⟨S16384x256, .f32⟩
  | .hbm, ⟨67, _⟩ => ⟨S524288x1, .i32⟩
  | .hbm, ⟨68, _⟩ => ⟨S16384x256, .f32⟩
  | .hbm, ⟨69, _⟩ => ⟨S256x256, .f32⟩
  | .hbm, ⟨70, _⟩ => ⟨S256x2, .f32⟩
  | .hbm, ⟨71, _⟩ => ⟨S1x256, .f32⟩
  | .hbm, ⟨72, _⟩ => ⟨S1x2, .f32⟩
  | .hbm, ⟨73, _⟩ => ⟨S16384x2, .f32⟩
  | .local _ .vmem, ⟨0, _⟩ => ⟨S5000x256, .f32⟩
  | .local _ .vmem, ⟨1, _⟩ => ⟨S5000x256, .f32⟩
  | .local _ .vmem, ⟨2, _⟩ => ⟨S256x256, .f32⟩
  | .local _ .vmem, ⟨3, _⟩ => ⟨S5000x256, .f32⟩
  | .local _ .vmem, ⟨4, _⟩ => ⟨S5000x256, .f32⟩
  | .local _ .vmem, ⟨5, _⟩ => ⟨S5000x256, .f32⟩
  | .local _ .vmem, ⟨6, _⟩ => ⟨S5000x256, .f32⟩
  | .local _ .vmem, ⟨7, _⟩ => ⟨S5000x256, .f32⟩
  | .local _ .vmem, ⟨8, _⟩ => ⟨S5000x256, .f32⟩
  | .local _ .vmem, ⟨9, _⟩ => ⟨S256x256, .f32⟩
  | .local _ .vmem, ⟨10, _⟩ => ⟨S1x256, .f32⟩
  | .local _ .vmem, ⟨11, _⟩ => ⟨S1x256, .f32⟩
  | .local _ .vmem, ⟨12, _⟩ => ⟨S5000x256, .f32⟩
  | .local _ .vmem, ⟨13, _⟩ => ⟨S5000x256, .f32⟩
  | .local _ .vmem, ⟨14, _⟩ => ⟨S4096x256, .f32⟩
  | .local _ .vmem, ⟨15, _⟩ => ⟨S4096x256, .f32⟩
  | .local _ .vmem, ⟨16, _⟩ => ⟨S256x256, .f32⟩
  | .local _ .vmem, ⟨17, _⟩ => ⟨S1x256, .f32⟩
  | .local _ .vmem, ⟨18, _⟩ => ⟨S256x2, .f32⟩
  | .local _ .vmem, ⟨19, _⟩ => ⟨S1x2, .f32⟩
  | .local _ .vmem, ⟨20, _⟩ => ⟨S4096x2, .f32⟩
  | .local _ .vmem, ⟨21, _⟩ => ⟨S4096x2, .f32⟩
  | _, _ => ⟨S800000, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_c : Ref sig .tc := ⟨.hbm, 16, rfl⟩
abbrev main_v1 : Ref sig .tc := ⟨.hbm, 17, rfl⟩
abbrev main_v2 : Ref sig .tc := ⟨.hbm, 18, rfl⟩
abbrev main_c_0 : Ref sig .tc := ⟨.hbm, 19, rfl⟩
abbrev main_v3 : Ref sig .tc := ⟨.hbm, 20, rfl⟩
abbrev main_v4 : Ref sig .tc := ⟨.hbm, 21, rfl⟩
abbrev main_v5 : Ref sig .tc := ⟨.hbm, 22, rfl⟩
abbrev main_v6 : Ref sig .tc := ⟨.hbm, 23, rfl⟩
abbrev main_v7 : Ref sig .tc := ⟨.hbm, 24, rfl⟩
abbrev main_v8 : Ref sig .tc := ⟨.hbm, 25, rfl⟩
abbrev main_v9 : Ref sig .tc := ⟨.hbm, 26, rfl⟩
abbrev main_cst : Ref sig .tc := ⟨.hbm, 27, rfl⟩
abbrev main_v10 : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_c_1 : Ref sig .tc := ⟨.hbm, 34, rfl⟩
abbrev main_v16 : Ref sig .tc := ⟨.hbm, 35, rfl⟩
abbrev main_v17 : Ref sig .tc := ⟨.hbm, 36, rfl⟩
abbrev main_c_2 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_cst_3 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_c_4 : Ref sig .tc := ⟨.hbm, 54, rfl⟩
abbrev main_v33 : Ref sig .tc := ⟨.hbm, 55, rfl⟩
abbrev main_v34 : Ref sig .tc := ⟨.hbm, 56, rfl⟩
abbrev main_c_5 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_cst_6 : Ref sig .tc := ⟨.hbm, 65, rfl⟩
abbrev main_v42 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩
abbrev main_v48 : Ref sig .tc := ⟨.hbm, 72, rfl⟩
abbrev main_v49 : Ref sig .tc := ⟨.hbm, 73, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg4_0 : Ref sig .tc := ⟨.vmem, 11, rfl⟩
abbrev cc1_stg5_0 : Ref sig .tc := ⟨.vmem, 12, rfl⟩
abbrev cc1_stg5_1 : Ref sig .tc := ⟨.vmem, 13, rfl⟩
abbrev cc2_stg0_0 : Ref sig .tc := ⟨.vmem, 14, rfl⟩
abbrev cc2_stg0_1 : Ref sig .tc := ⟨.vmem, 15, rfl⟩
abbrev cc2_stg1_0 : Ref sig .tc := ⟨.vmem, 16, rfl⟩
abbrev cc2_stg2_0 : Ref sig .tc := ⟨.vmem, 17, rfl⟩
abbrev cc2_stg3_0 : Ref sig .tc := ⟨.vmem, 18, rfl⟩
abbrev cc2_stg4_0 : Ref sig .tc := ⟨.vmem, 19, rfl⟩
abbrev cc2_stg5_0 : Ref sig .tc := ⟨.vmem, 20, rfl⟩
abbrev cc2_stg5_1 : Ref sig .tc := ⟨.vmem, 21, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem3_0 : DmaSem sig := 10
abbrev cc1_sem4_0 : DmaSem sig := 11
abbrev cc1_sem5_0 : DmaSem sig := 12
abbrev cc1_sem5_1 : DmaSem sig := 13
abbrev cc2_sem0_0 : DmaSem sig := 14
abbrev cc2_sem0_1 : DmaSem sig := 15
abbrev cc2_sem1_0 : DmaSem sig := 16
abbrev cc2_sem2_0 : DmaSem sig := 17
abbrev cc2_sem3_0 : DmaSem sig := 18
abbrev cc2_sem4_0 : DmaSem sig := 19
abbrev cc2_sem5_0 : DmaSem sig := 20
abbrev cc2_sem5_1 : DmaSem sig := 21

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x256 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S256x256 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x256 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x256 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S5000x256 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![4], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S4096x256 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S256x256 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x256 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S256x2 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x2 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S4096x2 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

class Facts₀ : Prop where
  bcast_S800000_S800000x1_0 : S800000.BroadcastsInDim S800000x1 (![0] : Fin 1 → Fin S800000x1.rank)
  bcast_S_S800000 : S_.BroadcastsInDim S800000 (![] : Fin 0 → Fin S800000.rank)
  bcast_S800000x1_S800000x256_0_1 : S800000x1.BroadcastsInDim S800000x256 (![0, 1] : Fin 2 → Fin S800000x256.rank)
  bcast_S_S50000x256 : S_.BroadcastsInDim S50000x256 (![] : Fin 0 → Fin S50000x256.rank)
  transposes_S256x256_S256x256_1_0 : S256x256.Transposes [1, 0] S256x256
  inb_S5000x256_S5000x256_0_0 : ∀ a, (![0, 0] : Fin 2 → Nat) a + S5000x256.size a ≤ S5000x256.size a
  h_S5000x256 : 0 < S5000x256.numel
  shapeCasts_S5000x256_S5000x256 : S5000x256.ShapeCasts S5000x256
  inb_S256x256_S256x256_0_0 : ∀ a, (![0, 0] : Fin 2 → Nat) a + S256x256.size a ≤ S256x256.size a
  h_S256x256 : 0 < S256x256.numel
  shapeCasts_S256x256_S256x256 : S256x256.ShapeCasts S256x256
  shapeCasts_S256_S1x256 : S256.ShapeCasts S1x256
  reduces_S5000x256_S5000 : S5000x256.Reduces [1] S5000
  shapeCasts_S5000_S5000x1 : S5000.ShapeCasts S5000x1
  broadcasts_S5000x1_S5000x256 : S5000x1.Broadcasts S5000x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S5000x256 : S1x256.Broadcasts S5000x256
  bcast_S524288_S524288x1_0 : S524288.BroadcastsInDim S524288x1 (![0] : Fin 1 → Fin S524288x1.rank)
  bcast_S_S524288 : S_.BroadcastsInDim S524288 (![] : Fin 0 → Fin S524288.rank)
  bcast_S524288x1_S524288x256_0_1 : S524288x1.BroadcastsInDim S524288x256 (![0, 1] : Fin 2 → Fin S524288x256.rank)
  bcast_S_S16384x256 : S_.BroadcastsInDim S16384x256 (![] : Fin 0 → Fin S16384x256.rank)
  transposes_S2x256_S256x2_1_0 : S2x256.Transposes [1, 0] S256x2
  shapeCasts_S2_S1x2 : S2.ShapeCasts S1x2
  inb_S4096x256_S4096x256_0_0 : ∀ a, (![0, 0] : Fin 2 → Nat) a + S4096x256.size a ≤ S4096x256.size a
  h_S4096x256 : 0 < S4096x256.numel
  shapeCasts_S4096x256_S4096x256 : S4096x256.ShapeCasts S4096x256
  broadcasts_S1x256_S4096x256 : S1x256.Broadcasts S4096x256
  inb_S256x2_S256x2_0_0 : ∀ a, (![0, 0] : Fin 2 → Nat) a + S256x2.size a ≤ S256x2.size a
  h_S256x2 : 0 < S256x2.numel
  shapeCasts_S256x2_S256x2 : S256x2.ShapeCasts S256x2
  inb_S1x2_S1x2_0_0 : ∀ a, (![0, 0] : Fin 2 → Nat) a + S1x2.size a ≤ S1x2.size a
  h_S1x2 : 0 < S1x2.numel
  shapeCasts_S1x2_S1x2 : S1x2.ShapeCasts S1x2
  broadcasts_S1x2_S4096x2 : S1x2.Broadcasts S4096x2
  inb_S4096x2_S4096x2_0_0 : ∀ a, (![0, 0] : Fin 2 → Nat) a + S4096x2.size a ≤ S4096x2.size a
  h_S4096x2 : 0 < S4096x2.numel
  gather_S50000x256_S800000x1_S800000x256_1_0_n_n_0_1_1256_wf : GatherDims.WF S50000x256 S800000x1 S800000x256 [1] [0] [] [0] [] 1 ![1, 256]
  scatter_S50000x256_S800000x1_S800000x256_1_0_0_1_wf : ScatterDims.WF S50000x256 S800000x1 S800000x256 [1] [0] [0] 1
  dot_S5000x256_S256x256_S5000x256_1_0_0_1_n_n_wf : DotDims.WF S5000x256 S256x256 S5000x256 [1] [0] [0] [1] [] []
  gather_S50000x256_S524288x1_S524288x256_1_0_n_n_0_1_1256_wf : GatherDims.WF S50000x256 S524288x1 S524288x256 [1] [0] [] [0] [] 1 ![1, 256]
  scatter_S16384x256_S524288x1_S524288x256_1_0_0_1_wf : ScatterDims.WF S16384x256 S524288x1 S524288x256 [1] [0] [0] 1
  dot_S4096x256_S256x256_S4096x256_1_0_0_1_n_n_wf : DotDims.WF S4096x256 S256x256 S4096x256 [1] [0] [0] [1] [] []
  dot_S4096x256_S256x2_S4096x2_1_0_0_1_n_n_wf : DotDims.WF S4096x256 S256x2 S4096x2 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x256.size a ≤ S50000x256.size a
  hwx0_0 : ∀ i : grid0.Coords, EltTy.bits .f32 = 32 ∨ (Rect.block (s := S50000x256) S5000x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x256.size a ≤ S256x256.size a
  hwx0_1 : ∀ i : grid0.Coords, EltTy.bits .f32 = 32 ∨ (Rect.block (s := S256x256) S256x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x256.size a ≤ S50000x256.size a
  hwx0_2 : ∀ i : grid0.Coords, EltTy.bits .f32 = 32 ∨ (Rect.block (s := S50000x256) S5000x256.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x256.size a ≤ S50000x256.size a
  hwx1_0 : ∀ i : grid1.Coords, EltTy.bits .f32 = 32 ∨ (Rect.block (s := S50000x256) S5000x256.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x256.size a ≤ S50000x256.size a
  hwx1_1 : ∀ i : grid1.Coords, EltTy.bits .f32 = 32 ∨ (Rect.block (s := S50000x256) S5000x256.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S256x256.size a ≤ S256x256.size a
  hwx1_2 : ∀ i : grid1.Coords, EltTy.bits .f32 = 32 ∨ (Rect.block (s := S256x256) S256x256.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x256.size a ≤ S1x256.size a
  hwx1_3 : ∀ i : grid1.Coords, EltTy.bits .f32 = 32 ∨ (Rect.block (s := S1x256) S1x256.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x256.size a ≤ S1x256.size a
  hwx1_4 : ∀ i : grid1.Coords, EltTy.bits .f32 = 32 ∨ (Rect.block (s := S1x256) S1x256.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S5000x256.size a ≤ S50000x256.size a
  hwx1_5 : ∀ i : grid1.Coords, EltTy.bits .f32 = 32 ∨ (Rect.block (s := S50000x256) S5000x256.size (cc1_transform_5 i) (hinb1_5 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S4096x256.size a ≤ S16384x256.size a
  hwx2_0 : ∀ i : grid2.Coords, EltTy.bits .f32 = 32 ∨ (Rect.block (s := S16384x256) S4096x256.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S256x256.size a ≤ S256x256.size a
  hwx2_1 : ∀ i : grid2.Coords, EltTy.bits .f32 = 32 ∨ (Rect.block (s := S256x256) S256x256.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x256.size a ≤ S1x256.size a
  hwx2_2 : ∀ i : grid2.Coords, EltTy.bits .f32 = 32 ∨ (Rect.block (s := S1x256) S1x256.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S256x2.size a ≤ S256x2.size a
  hwx2_3 : ∀ i : grid2.Coords, EltTy.bits .f32 = 32 ∨ (Rect.block (s := S256x2) S256x2.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x2.size a ≤ S1x2.size a
  hwx2_4 : ∀ i : grid2.Coords, EltTy.bits .f32 = 32 ∨ (Rect.block (s := S1x2) S1x2.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S4096x2.size a ≤ S16384x2.size a
  hwx2_5 : ∀ i : grid2.Coords, EltTy.bits .f32 = 32 ∨ (Rect.block (s := S16384x2) S4096x2.size (cc2_transform_5 i) (hinb2_5 i)).WholeWords (EltTy.packing .f32)

variable [Facts₀]

def gather_S50000x256_S800000x1_S800000x256_1_0_n_n_0_1_1256 : GatherDims S50000x256 S800000x1 S800000x256 where
  offsetDims := [1]
  collapsedSliceDims := [0]
  operandBatchingDims := []
  startIndicesBatchingDims := []
  startIndexMap := [0]
  indexVectorDim := 1
  sliceSizes := ![1, 256]
  wf := gather_S50000x256_S800000x1_S800000x256_1_0_n_n_0_1_1256_wf
def scatter_S50000x256_S800000x1_S800000x256_1_0_0_1 : ScatterDims S50000x256 S800000x1 S800000x256 where
  updateWindowDims := [1]
  insertedWindowDims := [0]
  scatterDimsToOperandDims := [0]
  indexVectorDim := 1
  wf := scatter_S50000x256_S800000x1_S800000x256_1_0_0_1_wf
def dot_S5000x256_S256x256_S5000x256_1_0_0_1_n_n : DotDims S5000x256 S256x256 S5000x256 where
  lhsContracting := [1]
  rhsContracting := [0]
  lhsNonContracting := [0]
  rhsNonContracting := [1]
  lhsBatch := []
  rhsBatch := []
  wf := dot_S5000x256_S256x256_S5000x256_1_0_0_1_n_n_wf
def gather_S50000x256_S524288x1_S524288x256_1_0_n_n_0_1_1256 : GatherDims S50000x256 S524288x1 S524288x256 where
  offsetDims := [1]
  collapsedSliceDims := [0]
  operandBatchingDims := []
  startIndicesBatchingDims := []
  startIndexMap := [0]
  indexVectorDim := 1
  sliceSizes := ![1, 256]
  wf := gather_S50000x256_S524288x1_S524288x256_1_0_n_n_0_1_1256_wf
def scatter_S16384x256_S524288x1_S524288x256_1_0_0_1 : ScatterDims S16384x256 S524288x1 S524288x256 where
  updateWindowDims := [1]
  insertedWindowDims := [0]
  scatterDimsToOperandDims := [0]
  indexVectorDim := 1
  wf := scatter_S16384x256_S524288x1_S524288x256_1_0_0_1_wf
def dot_S4096x256_S256x256_S4096x256_1_0_0_1_n_n : DotDims S4096x256 S256x256 S4096x256 where
  lhsContracting := [1]
  rhsContracting := [0]
  lhsNonContracting := [0]
  rhsNonContracting := [1]
  lhsBatch := []
  rhsBatch := []
  wf := dot_S4096x256_S256x256_S4096x256_1_0_0_1_n_n_wf
def dot_S4096x256_S256x2_S4096x2_1_0_0_1_n_n : DotDims S4096x256 S256x2 S4096x2 where
  lhsContracting := [1]
  rhsContracting := [0]
  lhsNonContracting := [0]
  rhsNonContracting := [1]
  lhsBatch := []
  rhsBatch := []
  wf := dot_S4096x256_S256x2_S4096x2_1_0_0_1_n_n_wf

abbrev win0_0 : Pipeline.Window sig grid0 :=
  Pipeline.Window.ofSpec (Memref.whole main_v12) S5000x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v13) S256x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v14) S5000x256.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v27) S5000x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg6) S5000x256.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v28) S256x256.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v29) S1x256.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v30) S1x256.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v31) S5000x256.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_v44) S4096x256.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v45) S256x256.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v47) S1x256.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v46) S256x2.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v48) S1x2.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v49) S4096x2.size cc2_transform_5 reads2_5 true false 2 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

class Facts : Prop extends Facts₀ where

variable [Facts]
-- ==== ReferenceIdeal.lean ====
abbrev S800000 : Shape := ⟨1, ![800000]⟩
abbrev S524288 : Shape := ⟨1, ![524288]⟩
abbrev S50000x256 : Shape := ⟨2, ![50000, 256]⟩
abbrev S256x256 : Shape := ⟨2, ![256, 256]⟩
abbrev S256 : Shape := ⟨1, ![256]⟩
abbrev S2x256 : Shape := ⟨2, ![2, 256]⟩
abbrev S2 : Shape := ⟨1, ![2]⟩
abbrev S800000x1 : Shape := ⟨2, ![800000, 1]⟩
abbrev S_ : Shape := ⟨0, ![]⟩
abbrev S800000x256 : Shape := ⟨2, ![800000, 256]⟩
abbrev S50000 : Shape := ⟨1, ![50000]⟩
abbrev S50000x1 : Shape := ⟨2, ![50000, 1]⟩
abbrev S1x256 : Shape := ⟨2, ![1, 256]⟩
abbrev S524288x1 : Shape := ⟨2, ![524288, 1]⟩
abbrev S524288x256 : Shape := ⟨2, ![524288, 256]⟩
abbrev S16384x256 : Shape := ⟨2, ![16384, 256]⟩
abbrev S256x2 : Shape := ⟨2, ![256, 2]⟩
abbrev S16384x2 : Shape := ⟨2, ![16384, 2]⟩
abbrev S1x2 : Shape := ⟨2, ![1, 2]⟩

abbrev nBuf : Space → Nat
  | .hbm => 139
  | .vmem => 0
  | .smem => 0
  | _ => 0

abbrev hbmTy0_0 (i : Nat) : BufTy := match i % 128 with
  | 0 => ⟨S800000, .i32⟩
  | 1 => ⟨S800000, .i32⟩
  | 2 => ⟨S800000, .f32⟩
  | 3 => ⟨S524288, .i32⟩
  | 4 => ⟨S524288, .i32⟩
  | 5 => ⟨S524288, .f32⟩
  | 6 => ⟨S50000x256, .f32⟩
  | 7 => ⟨S256x256, .f32⟩
  | 8 => ⟨S256x256, .f32⟩
  | 9 => ⟨S256, .f32⟩
  | 10 => ⟨S256, .f32⟩
  | 11 => ⟨S256x256, .f32⟩
  | 12 => ⟨S256, .f32⟩
  | 13 => ⟨S2x256, .f32⟩
  | 14 => ⟨S2, .f32⟩
  | 15 => ⟨S800000x1, .f32⟩
  | 16 => ⟨S_, .i32⟩
  | 17 => ⟨S800000, .i32⟩
  | 18 => ⟨S800000, .i1⟩
  | 19 => ⟨S_, .i32⟩
  | 20 => ⟨S800000, .i32⟩
  | 21 => ⟨S800000, .i32⟩
  | 22 => ⟨S800000, .i32⟩
  | 23 => ⟨S800000x1, .i32⟩
  | 24 => ⟨S800000x256, .f32⟩
  | 25 => ⟨S800000x256, .f32⟩
  | 26 => ⟨S800000x256, .f32⟩
  | 27 => ⟨S_, .f32⟩
  | 28 => ⟨S50000x256, .f32⟩
  | 29 => ⟨S800000x1, .i32⟩
  | 30 => ⟨S50000x256, .f32⟩
  | 31 => ⟨S256x256, .f32⟩
  | 32 => ⟨S50000x256, .f32⟩
  | 33 => ⟨S_, .f32⟩
  | 34 => ⟨S50000x256, .f32⟩
  | 35 => ⟨S50000x256, .f32⟩
  | 36 => ⟨S800000x1, .f32⟩
  | 37 => ⟨S_, .i32⟩
  | 38 => ⟨S800000, .i32⟩
  | 39 => ⟨S800000, .i1⟩
  | 40 => ⟨S_, .i32⟩
  | 41 => ⟨S800000, .i32⟩
  | 42 => ⟨S800000, .i32⟩
  | 43 => ⟨S800000, .i32⟩
  | 44 => ⟨S800000x1, .i32⟩
  | 45 => ⟨S800000x256, .f32⟩
  | 46 => ⟨S800000x256, .f32⟩
  | 47 => ⟨S800000x256, .f32⟩
  | 48 => ⟨S_, .f32⟩
  | 49 => ⟨S50000x256, .f32⟩
  | 50 => ⟨S800000x1, .i32⟩
  | 51 => ⟨S50000x256, .f32⟩
  | 52 => ⟨S256x256, .f32⟩
  | 53 => ⟨S50000x256, .f32⟩
  | 54 => ⟨S_, .f32⟩
  | 55 => ⟨S50000x256, .f32⟩
  | 56 => ⟨S50000x256, .f32⟩
  | 57 => ⟨S_, .f32⟩
  | 58 => ⟨S50000x256, .f32⟩
  | 59 => ⟨S50000x256, .f32⟩
  | 60 => ⟨S_, .f32⟩
  | 61 => ⟨S50000x256, .f32⟩
  | 62 => ⟨S50000x256, .f32⟩
  | 63 => ⟨S50000x256, .f32⟩
  | 64 => ⟨S_, .f32⟩
  | 65 => ⟨S50000, .f32⟩
  | 66 => ⟨S50000x1, .f32⟩
  | 67 => ⟨S_, .f32⟩
  | 68 => ⟨S50000x1, .f32⟩
  | 69 => ⟨S50000x1, .f32⟩
  | 70 => ⟨S50000x256, .f32⟩
  | 71 => ⟨S50000x256, .f32⟩
  | 72 => ⟨S50000x256, .f32⟩
  | 73 => ⟨S_, .f32⟩
  | 74 => ⟨S50000, .f32⟩
  | 75 => ⟨S50000x1, .f32⟩
  | 76 => ⟨S_, .f32⟩
  | 77 => ⟨S50000x1, .f32⟩
  | 78 => ⟨S50000x1, .f32⟩
  | 79 => ⟨S50000x256, .f32⟩
  | 80 => ⟨S50000x256, .f32⟩
  | 81 => ⟨S_, .f32⟩
  | 82 => ⟨S50000x1, .f32⟩
  | 83 => ⟨S50000x1, .f32⟩
  | 84 => ⟨S50000x1, .f32⟩
  | 85 => ⟨S50000x256, .f32⟩
  | 86 => ⟨S50000x256, .f32⟩
  | 87 => ⟨S1x256, .f32⟩
  | 88 => ⟨S50000x256, .f32⟩
  | 89 => ⟨S50000x256, .f32⟩
  | 90 => ⟨S1x256, .f32⟩
  | 91 => ⟨S50000x256, .f32⟩
  | 92 => ⟨S50000x256, .f32⟩
  | 93 => ⟨S524288x1, .f32⟩
  | 94 => ⟨S_, .i32⟩
  | 95 => ⟨S524288, .i32⟩
  | 96 => ⟨S524288, .i1⟩
  | 97 => ⟨S_, .i32⟩
  | 98 => ⟨S524288, .i32⟩
  | 99 => ⟨S524288, .i32⟩
  | 100 => ⟨S524288, .i32⟩
  | 101 => ⟨S524288x1, .i32⟩
  | 102 => ⟨S524288x256, .f32⟩
  | 103 => ⟨S524288x256, .f32⟩
  | 104 => ⟨S524288x256, .f32⟩
  | 105 => ⟨S_, .f32⟩
  | 106 => ⟨S16384x256, .f32⟩
  | 107 => ⟨S524288x1, .i32⟩
  | 108 => ⟨S16384x256, .f32⟩
  | 109 => ⟨S524288x1, .f32⟩
  | 110 => ⟨S_, .i32⟩
  | 111 => ⟨S524288, .i32⟩
  | 112 => ⟨S524288, .i1⟩
  | 113 => ⟨S_, .i32⟩
  | 114 => ⟨S524288, .i32⟩
  | 115 => ⟨S524288, .i32⟩
  | 116 => ⟨S524288, .i32⟩
  | 117 => ⟨S524288x1, .i32⟩
  | 118 => ⟨S524288x256, .f32⟩
  | 119 => ⟨S524288x256, .f32⟩
  | 120 => ⟨S524288x256, .f32⟩
  | 121 => ⟨S_, .f32⟩
  | 122 => ⟨S16384x256, .f32⟩
  | 123 => ⟨S524288x1, .i32⟩
  | 124 => ⟨S16384x256, .f32⟩
  | 125 => ⟨S16384x256, .f32⟩
  | 126 => ⟨S256x256, .f32⟩
  | 127 => ⟨S16384x256, .f32⟩
  | _ => ⟨S800000, .i32⟩

abbrev hbmTy0_1 (i : Nat) : BufTy := match i % 128 with
  | 0 => ⟨S1x256, .f32⟩
  | 1 => ⟨S16384x256, .f32⟩
  | 2 => ⟨S16384x256, .f32⟩
  | 3 => ⟨S_, .f32⟩
  | 4 => ⟨S16384x256, .f32⟩
  | 5 => ⟨S16384x256, .f32⟩
  | 6 => ⟨S256x2, .f32⟩
  | 7 => ⟨S16384x2, .f32⟩
  | 8 => ⟨S1x2, .f32⟩
  | 9 => ⟨S16384x2, .f32⟩
  | 10 => ⟨S16384x2, .f32⟩
  | _ => ⟨S800000, .i32⟩

abbrev hbmTy (i : Nat) : BufTy := match i / 128 with
  | 0 => hbmTy0_0 i
  | 1 => hbmTy0_1 i
  | _ => ⟨S800000, .i32⟩

abbrev bufTy : (tb : Table) → Fin (tcTables nBuf tb) → BufTy
  | .hbm, ⟨i, _⟩ => hbmTy i
  | _, _ => ⟨S800000, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_c : Ref sig .tc := ⟨.hbm, 16, rfl⟩
abbrev main_v1 : Ref sig .tc := ⟨.hbm, 17, rfl⟩
abbrev main_v2 : Ref sig .tc := ⟨.hbm, 18, rfl⟩
abbrev main_c_0 : Ref sig .tc := ⟨.hbm, 19, rfl⟩
abbrev main_v3 : Ref sig .tc := ⟨.hbm, 20, rfl⟩
abbrev main_v4 : Ref sig .tc := ⟨.hbm, 21, rfl⟩
abbrev main_v5 : Ref sig .tc := ⟨.hbm, 22, rfl⟩
abbrev main_v6 : Ref sig .tc := ⟨.hbm, 23, rfl⟩
abbrev main_v7 : Ref sig .tc := ⟨.hbm, 24, rfl⟩
abbrev main_v8 : Ref sig .tc := ⟨.hbm, 25, rfl⟩
abbrev main_v9 : Ref sig .tc := ⟨.hbm, 26, rfl⟩
abbrev main_cst : Ref sig .tc := ⟨.hbm, 27, rfl⟩
abbrev main_v10 : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev main_call0_cst : Ref sig .tc := ⟨.hbm, 33, rfl⟩
abbrev main_call0_v0 : Ref sig .tc := ⟨.hbm, 34, rfl⟩
abbrev main_v15 : Ref sig .tc := ⟨.hbm, 35, rfl⟩
abbrev main_v16 : Ref sig .tc := ⟨.hbm, 36, rfl⟩
abbrev main_c_1 : Ref sig .tc := ⟨.hbm, 37, rfl⟩
abbrev main_v17 : Ref sig .tc := ⟨.hbm, 38, rfl⟩
abbrev main_v18 : Ref sig .tc := ⟨.hbm, 39, rfl⟩
abbrev main_c_2 : Ref sig .tc := ⟨.hbm, 40, rfl⟩
abbrev main_v19 : Ref sig .tc := ⟨.hbm, 41, rfl⟩
abbrev main_v20 : Ref sig .tc := ⟨.hbm, 42, rfl⟩
abbrev main_v21 : Ref sig .tc := ⟨.hbm, 43, rfl⟩
abbrev main_v22 : Ref sig .tc := ⟨.hbm, 44, rfl⟩
abbrev main_v23 : Ref sig .tc := ⟨.hbm, 45, rfl⟩
abbrev main_v24 : Ref sig .tc := ⟨.hbm, 46, rfl⟩
abbrev main_v25 : Ref sig .tc := ⟨.hbm, 47, rfl⟩
abbrev main_cst_3 : Ref sig .tc := ⟨.hbm, 48, rfl⟩
abbrev main_v26 : Ref sig .tc := ⟨.hbm, 49, rfl⟩
abbrev main_v27 : Ref sig .tc := ⟨.hbm, 50, rfl⟩
abbrev main_v28 : Ref sig .tc := ⟨.hbm, 51, rfl⟩
abbrev main_v29 : Ref sig .tc := ⟨.hbm, 52, rfl⟩
abbrev main_v30 : Ref sig .tc := ⟨.hbm, 53, rfl⟩
abbrev main_call1_cst : Ref sig .tc := ⟨.hbm, 54, rfl⟩
abbrev main_call1_v0 : Ref sig .tc := ⟨.hbm, 55, rfl⟩
abbrev main_v31 : Ref sig .tc := ⟨.hbm, 56, rfl⟩
abbrev main_cst_4 : Ref sig .tc := ⟨.hbm, 57, rfl⟩
abbrev main_v32 : Ref sig .tc := ⟨.hbm, 58, rfl⟩
abbrev main_v33 : Ref sig .tc := ⟨.hbm, 59, rfl⟩
abbrev main_cst_5 : Ref sig .tc := ⟨.hbm, 60, rfl⟩
abbrev main_v34 : Ref sig .tc := ⟨.hbm, 61, rfl⟩
abbrev main_v35 : Ref sig .tc := ⟨.hbm, 62, rfl⟩
abbrev main_v36 : Ref sig .tc := ⟨.hbm, 63, rfl⟩
abbrev main_cst_6 : Ref sig .tc := ⟨.hbm, 64, rfl⟩
abbrev main_v37 : Ref sig .tc := ⟨.hbm, 65, rfl⟩
abbrev main_v38 : Ref sig .tc := ⟨.hbm, 66, rfl⟩
abbrev main_cst_7 : Ref sig .tc := ⟨.hbm, 67, rfl⟩
abbrev main_v39 : Ref sig .tc := ⟨.hbm, 68, rfl⟩
abbrev main_v40 : Ref sig .tc := ⟨.hbm, 69, rfl⟩
abbrev main_v41 : Ref sig .tc := ⟨.hbm, 70, rfl⟩
abbrev main_v42 : Ref sig .tc := ⟨.hbm, 71, rfl⟩
abbrev main_v43 : Ref sig .tc := ⟨.hbm, 72, rfl⟩
abbrev main_cst_8 : Ref sig .tc := ⟨.hbm, 73, rfl⟩
abbrev main_v44 : Ref sig .tc := ⟨.hbm, 74, rfl⟩
abbrev main_v45 : Ref sig .tc := ⟨.hbm, 75, rfl⟩
abbrev main_cst_9 : Ref sig .tc := ⟨.hbm, 76, rfl⟩
abbrev main_v46 : Ref sig .tc := ⟨.hbm, 77, rfl⟩
abbrev main_v47 : Ref sig .tc := ⟨.hbm, 78, rfl⟩
abbrev main_v48 : Ref sig .tc := ⟨.hbm, 79, rfl⟩
abbrev main_v49 : Ref sig .tc := ⟨.hbm, 80, rfl⟩
abbrev main_cst_10 : Ref sig .tc := ⟨.hbm, 81, rfl⟩
abbrev main_v50 : Ref sig .tc := ⟨.hbm, 82, rfl⟩
abbrev main_v51 : Ref sig .tc := ⟨.hbm, 83, rfl⟩
abbrev main_v52 : Ref sig .tc := ⟨.hbm, 84, rfl⟩
abbrev main_v53 : Ref sig .tc := ⟨.hbm, 85, rfl⟩
abbrev main_v54 : Ref sig .tc := ⟨.hbm, 86, rfl⟩
abbrev main_v55 : Ref sig .tc := ⟨.hbm, 87, rfl⟩
abbrev main_v56 : Ref sig .tc := ⟨.hbm, 88, rfl⟩
abbrev main_v57 : Ref sig .tc := ⟨.hbm, 89, rfl⟩
abbrev main_v58 : Ref sig .tc := ⟨.hbm, 90, rfl⟩
abbrev main_v59 : Ref sig .tc := ⟨.hbm, 91, rfl⟩
abbrev main_v60 : Ref sig .tc := ⟨.hbm, 92, rfl⟩
abbrev main_v61 : Ref sig .tc := ⟨.hbm, 93, rfl⟩
abbrev main_c_11 : Ref sig .tc := ⟨.hbm, 94, rfl⟩
abbrev main_v62 : Ref sig .tc := ⟨.hbm, 95, rfl⟩
abbrev main_v63 : Ref sig .tc := ⟨.hbm, 96, rfl⟩
abbrev main_c_12 : Ref sig .tc := ⟨.hbm, 97, rfl⟩
abbrev main_v64 : Ref sig .tc := ⟨.hbm, 98, rfl⟩
abbrev main_v65 : Ref sig .tc := ⟨.hbm, 99, rfl⟩
abbrev main_v66 : Ref sig .tc := ⟨.hbm, 100, rfl⟩
abbrev main_v67 : Ref sig .tc := ⟨.hbm, 101, rfl⟩
abbrev main_v68 : Ref sig .tc := ⟨.hbm, 102, rfl⟩
abbrev main_v69 : Ref sig .tc := ⟨.hbm, 103, rfl⟩
abbrev main_v70 : Ref sig .tc := ⟨.hbm, 104, rfl⟩
abbrev main_cst_13 : Ref sig .tc := ⟨.hbm, 105, rfl⟩
abbrev main_v71 : Ref sig .tc := ⟨.hbm, 106, rfl⟩
abbrev main_v72 : Ref sig .tc := ⟨.hbm, 107, rfl⟩
abbrev main_v73 : Ref sig .tc := ⟨.hbm, 108, rfl⟩
abbrev main_v74 : Ref sig .tc := ⟨.hbm, 109, rfl⟩
abbrev main_c_14 : Ref sig .tc := ⟨.hbm, 110, rfl⟩
abbrev main_v75 : Ref sig .tc := ⟨.hbm, 111, rfl⟩
abbrev main_v76 : Ref sig .tc := ⟨.hbm, 112, rfl⟩
abbrev main_c_15 : Ref sig .tc := ⟨.hbm, 113, rfl⟩
abbrev main_v77 : Ref sig .tc := ⟨.hbm, 114, rfl⟩
abbrev main_v78 : Ref sig .tc := ⟨.hbm, 115, rfl⟩
abbrev main_v79 : Ref sig .tc := ⟨.hbm, 116, rfl⟩
abbrev main_v80 : Ref sig .tc := ⟨.hbm, 117, rfl⟩
abbrev main_v81 : Ref sig .tc := ⟨.hbm, 118, rfl⟩
abbrev main_v82 : Ref sig .tc := ⟨.hbm, 119, rfl⟩
abbrev main_v83 : Ref sig .tc := ⟨.hbm, 120, rfl⟩
abbrev main_cst_16 : Ref sig .tc := ⟨.hbm, 121, rfl⟩
abbrev main_v84 : Ref sig .tc := ⟨.hbm, 122, rfl⟩
abbrev main_v85 : Ref sig .tc := ⟨.hbm, 123, rfl⟩
abbrev main_v86 : Ref sig .tc := ⟨.hbm, 124, rfl⟩
abbrev main_v87 : Ref sig .tc := ⟨.hbm, 125, rfl⟩
abbrev main_v88 : Ref sig .tc := ⟨.hbm, 126, rfl⟩
abbrev main_v89 : Ref sig .tc := ⟨.hbm, 127, rfl⟩
abbrev main_v90 : Ref sig .tc := ⟨.hbm, 128, rfl⟩
abbrev main_v91 : Ref sig .tc := ⟨.hbm, 129, rfl⟩
abbrev main_v92 : Ref sig .tc := ⟨.hbm, 130, rfl⟩
abbrev main_call2_cst : Ref sig .tc := ⟨.hbm, 131, rfl⟩
abbrev main_call2_v0 : Ref sig .tc := ⟨.hbm, 132, rfl⟩
abbrev main_v93 : Ref sig .tc := ⟨.hbm, 133, rfl⟩
abbrev main_v94 : Ref sig .tc := ⟨.hbm, 134, rfl⟩
abbrev main_v95 : Ref sig .tc := ⟨.hbm, 135, rfl⟩
abbrev main_v96 : Ref sig .tc := ⟨.hbm, 136, rfl⟩
abbrev main_v97 : Ref sig .tc := ⟨.hbm, 137, rfl⟩
abbrev main_v98 : Ref sig .tc := ⟨.hbm, 138, rfl⟩

abbrev nD : Nat := 1
abbrev τ : Topo := Topo.v7x

variable {F : FTy → Type} [FloatOps F]

class Facts₀ : Prop where
  bcast_S800000_S800000x1_0 : S800000.BroadcastsInDim S800000x1 (![0] : Fin 1 → Fin S800000x1.rank)
  bcast_S_S800000 : S_.BroadcastsInDim S800000 (![] : Fin 0 → Fin S800000.rank)
  bcast_S800000x1_S800000x256_0_1 : S800000x1.BroadcastsInDim S800000x256 (![0, 1] : Fin 2 → Fin S800000x256.rank)
  bcast_S_S50000x256 : S_.BroadcastsInDim S50000x256 (![] : Fin 0 → Fin S50000x256.rank)
  transposes_S256x256_S256x256_1_0 : S256x256.Transposes [1, 0] S256x256
  reducesTo_S50000x256_S50000_d1 : S50000x256.ReducesTo [1] S50000
  h_S_ : 0 < S_.numel
  bcast_S50000_S50000x1_0 : S50000.BroadcastsInDim S50000x1 (![0] : Fin 1 → Fin S50000x1.rank)
  bcast_S_S50000x1 : S_.BroadcastsInDim S50000x1 (![] : Fin 0 → Fin S50000x1.rank)
  bcast_S50000x1_S50000x256_0_1 : S50000x1.BroadcastsInDim S50000x256 (![0, 1] : Fin 2 → Fin S50000x256.rank)
  bcast_S256_S1x256_1 : S256.BroadcastsInDim S1x256 (![1] : Fin 1 → Fin S1x256.rank)
  bcast_S1x256_S50000x256_0_1 : S1x256.BroadcastsInDim S50000x256 (![0, 1] : Fin 2 → Fin S50000x256.rank)
  bcast_S524288_S524288x1_0 : S524288.BroadcastsInDim S524288x1 (![0] : Fin 1 → Fin S524288x1.rank)
  bcast_S_S524288 : S_.BroadcastsInDim S524288 (![] : Fin 0 → Fin S524288.rank)
  bcast_S524288x1_S524288x256_0_1 : S524288x1.BroadcastsInDim S524288x256 (![0, 1] : Fin 2 → Fin S524288x256.rank)
  bcast_S_S16384x256 : S_.BroadcastsInDim S16384x256 (![] : Fin 0 → Fin S16384x256.rank)
  bcast_S1x256_S16384x256_0_1 : S1x256.BroadcastsInDim S16384x256 (![0, 1] : Fin 2 → Fin S16384x256.rank)
  transposes_S2x256_S256x2_1_0 : S2x256.Transposes [1, 0] S256x2
  bcast_S2_S1x2_1 : S2.BroadcastsInDim S1x2 (![1] : Fin 1 → Fin S1x2.rank)
  bcast_S1x2_S16384x2_0_1 : S1x2.BroadcastsInDim S16384x2 (![0, 1] : Fin 2 → Fin S16384x2.rank)
  gather_S50000x256_S800000x1_S800000x256_1_0_n_n_0_1_1256_wf : GatherDims.WF S50000x256 S800000x1 S800000x256 [1] [0] [] [0] [] 1 ![1, 256]
  scatter_S50000x256_S800000x1_S800000x256_1_0_0_1_wf : ScatterDims.WF S50000x256 S800000x1 S800000x256 [1] [0] [0] 1
  dot_S50000x256_S256x256_S50000x256_1_0_0_1_n_n_wf : DotDims.WF S50000x256 S256x256 S50000x256 [1] [0] [0] [1] [] []
  gather_S50000x256_S524288x1_S524288x256_1_0_n_n_0_1_1256_wf : GatherDims.WF S50000x256 S524288x1 S524288x256 [1] [0] [] [0] [] 1 ![1, 256]
  scatter_S16384x256_S524288x1_S524288x256_1_0_0_1_wf : ScatterDims.WF S16384x256 S524288x1 S524288x256 [1] [0] [0] 1
  dot_S16384x256_S256x256_S16384x256_1_0_0_1_n_n_wf : DotDims.WF S16384x256 S256x256 S16384x256 [1] [0] [0] [1] [] []
  dot_S16384x256_S256x2_S16384x2_1_0_0_1_n_n_wf : DotDims.WF S16384x256 S256x2 S16384x2 [1] [0] [0] [1] [] []

variable [Facts₀]

def gather_S50000x256_S800000x1_S800000x256_1_0_n_n_0_1_1256 : GatherDims S50000x256 S800000x1 S800000x256 where
  offsetDims := [1]
  collapsedSliceDims := [0]
  operandBatchingDims := []
  startIndicesBatchingDims := []
  startIndexMap := [0]
  indexVectorDim := 1
  sliceSizes := ![1, 256]
  wf := gather_S50000x256_S800000x1_S800000x256_1_0_n_n_0_1_1256_wf
def scatter_S50000x256_S800000x1_S800000x256_1_0_0_1 : ScatterDims S50000x256 S800000x1 S800000x256 where
  updateWindowDims := [1]
  insertedWindowDims := [0]
  scatterDimsToOperandDims := [0]
  indexVectorDim := 1
  wf := scatter_S50000x256_S800000x1_S800000x256_1_0_0_1_wf
def dot_S50000x256_S256x256_S50000x256_1_0_0_1_n_n : DotDims S50000x256 S256x256 S50000x256 where
  lhsContracting := [1]
  rhsContracting := [0]
  lhsNonContracting := [0]
  rhsNonContracting := [1]
  lhsBatch := []
  rhsBatch := []
  wf := dot_S50000x256_S256x256_S50000x256_1_0_0_1_n_n_wf
def gather_S50000x256_S524288x1_S524288x256_1_0_n_n_0_1_1256 : GatherDims S50000x256 S524288x1 S524288x256 where
  offsetDims := [1]
  collapsedSliceDims := [0]
  operandBatchingDims := []
  startIndicesBatchingDims := []
  startIndexMap := [0]
  indexVectorDim := 1
  sliceSizes := ![1, 256]
  wf := gather_S50000x256_S524288x1_S524288x256_1_0_n_n_0_1_1256_wf
def scatter_S16384x256_S524288x1_S524288x256_1_0_0_1 : ScatterDims S16384x256 S524288x1 S524288x256 where
  updateWindowDims := [1]
  insertedWindowDims := [0]
  scatterDimsToOperandDims := [0]
  indexVectorDim := 1
  wf := scatter_S16384x256_S524288x1_S524288x256_1_0_0_1_wf
def dot_S16384x256_S256x256_S16384x256_1_0_0_1_n_n : DotDims S16384x256 S256x256 S16384x256 where
  lhsContracting := [1]
  rhsContracting := [0]
  lhsNonContracting := [0]
  rhsNonContracting := [1]
  lhsBatch := []
  rhsBatch := []
  wf := dot_S16384x256_S256x256_S16384x256_1_0_0_1_n_n_wf
def dot_S16384x256_S256x2_S16384x2_1_0_0_1_n_n : DotDims S16384x256 S256x2 S16384x2 where
  lhsContracting := [1]
  rhsContracting := [0]
  lhsNonContracting := [0]
  rhsNonContracting := [1]
  lhsBatch := []
  rhsBatch := []
  wf := dot_S16384x256_S256x2_S16384x2_1_0_0_1_n_n_wf

class Facts : Prop extends Facts₀ where

variable [Facts]
-- ==== Proof.KRun.lean ====
/-
  The kernel program's run with its result named: every weakly fair execution ends with the result array at the
  contents the last region's write-backs leave (`Gen.W6` at the result's buffer) and the arguments as launched.
-/
import proofs.«161495_j41652592836980_2_alg».proof.Proof.Gen.KernelIdeal.Frame

set_option maxRecDepth 16384

noncomputable section

namespace Cert.KernelIdeal.KValue

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The launch over the program's segments, the last thread state read against the final state: the result's buffer is
    an unscoped one, so it ends at the last boundary's contents. -/
theorem run_main : θ_run defs (onTc (τ := τ) (main (F := F))) ⟨m, fun _ => 0, ρ⟩ (fun r => ∀ c : Dev nD,
      r.2.mem ((c.tc : Thread nD τ).loc main_v49) = W6 m ρ c (Proc.devRef .tc main_v49)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h c =>
      ⟨h c _ (mem_uc main_v49 (by decide)),
       (h c _ (mem_uc main_arg0 (by decide))).trans (W6_main_arg0 m ρ c),
       (h c _ (mem_uc main_arg1 (by decide))).trans (W6_main_arg1 m ρ c),
       (h c _ (mem_uc main_arg2 (by decide))).trans (W6_main_arg2 m ρ c),
       (h c _ (mem_uc main_arg3 (by decide))).trans (W6_main_arg3 m ρ c),
       (h c _ (mem_uc main_arg4 (by decide))).trans (W6_main_arg4 m ρ c),
       (h c _ (mem_uc main_arg5 (by decide))).trans (W6_main_arg5 m ρ c),
       (h c _ (mem_uc main_arg6 (by decide))).trans (W6_main_arg6 m ρ c),
       (h c _ (mem_uc main_arg7 (by decide))).trans (W6_main_arg7 m ρ c),
       (h c _ (mem_uc main_arg8 (by decide))).trans (W6_main_arg8 m ρ c),
       (h c _ (mem_uc main_arg9 (by decide))).trans (W6_main_arg9 m ρ c),
       (h c _ (mem_uc main_arg10 (by decide))).trans (W6_main_arg10 m ρ c),
       (h c _ (mem_uc main_arg11 (by decide))).trans (W6_main_arg11 m ρ c),
       (h c _ (mem_uc main_arg12 (by decide))).trans (W6_main_arg12 m ρ c),
       (h c _ (mem_uc main_arg13 (by decide))).trans (W6_main_arg13 m ρ c),
       (h c _ (mem_uc main_arg14 (by decide))).trans (W6_main_arg14 m ρ c)⟩)

end Cert.KernelIdeal.KValue

end
-- ==== Proof.Spec.lean ====
/-
  The word-graph network as functions of whole arrays, entry by entry, over the extended reals.

  Three dense stages, each a function of whole arrays read at an entry:
  * `linRelu A Wt`: entry (p,q) is max (Σ_k A(p,k)·Wt(k,q), 0);
  * `ln A E Wt g b`: with h(p,k) = c₃·E(p,k) + c₇·max (Σ_l A(p,l)·Wt(l,k), 0), mean μ(p) = (Σ_k h(p,k)) / 256 and
    variance σ²(p) = (Σ_k (h(p,k) − μ(p))²) / 256, entry (p,q) is (h(p,q) − μ(p)) · rsqrt (σ²(p) + ε) · g(q) + b(q);
  * `mlpCls D Mt mb Ct cb`: with r(d,k) = max (Σ_l D(d,l)·Mt(l,k) + mb(k), 0), entry (d,j) is Σ_k r(d,k)·Ct(k,j) + cb(j).
  The float literals stay as their words: the same word stands on both sides of every equation they meet.
-/
import Idealize.ShloMosaic.PureOps.Ideal
import Idealize.ShloMosaic.PureOps.Ideal.Laws
import Idealize.ShloMosaic.Lib.ValueIdx

noncomputable section

namespace Cert.Spec

open Idealize.ShloMosaic Idealize.ShloMosaic.ValueIdx

/-- words × features -/
abbrev Sw : Shape := ⟨2, ![50000, 256]⟩
/-- documents × features -/
abbrev Sd : Shape := ⟨2, ![16384, 256]⟩
/-- a square weight matrix -/
abbrev Sm : Shape := ⟨2, ![256, 256]⟩
/-- the classifier's weight, features × classes -/
abbrev Sc : Shape := ⟨2, ![256, 2]⟩
/-- documents × classes -/
abbrev So : Shape := ⟨2, ![16384, 2]⟩
/-- a feature vector -/
abbrev Sv : Shape := ⟨1, ![256]⟩
/-- a class vector -/
abbrev Sk : Shape := ⟨1, ![2]⟩

/-- n rows of features (the whole word table, or a block of its rows). -/
abbrev Rows (n : Nat) : Shape := ⟨2, ![n, 256]⟩

/-- The relu of a matrix product at entry (p,q). -/
def linReluAt {n : Nat} (A : FVec Ideal (Rows n) .f32) (Wt : FVec Ideal Sm .f32) (p : Fin n) (q : Fin 256) : EReal :=
  max (∑ k : Fin 256, A (ix2 p k) * Wt (ix2 k q)) (Ideal.ofBits .f32 0x00000000#32)

/-- The relu of a matrix product, as an array. -/
def linRelu (A : FVec Ideal Sw .f32) (Wt : FVec Ideal Sm .f32) : FVec Ideal Sw .f32 :=
  fun i => linReluAt A Wt (i 0) (i 1)

/-- The residual mix h(p,k) = c₃·E(p,k) + c₇·max (Σ_l A(p,l)·Wt(l,k), 0). -/
def hres {n : Nat} (A E : FVec Ideal (Rows n) .f32) (Wt : FVec Ideal Sm .f32) (p : Fin n) (k : Fin 256) : EReal :=
  Ideal.ofBits .f32 0x3E99999A#32 * E (ix2 p k) + Ideal.ofBits .f32 0x3F333333#32 * linReluAt A Wt p k

/-- The mean of row p of h. -/
def mu {n : Nat} (A E : FVec Ideal (Rows n) .f32) (Wt : FVec Ideal Sm .f32) (p : Fin n) : EReal :=
  Ideal.div (∑ k : Fin 256, hres A E Wt p k) (Ideal.ofBits .f32 0x43800000#32)

/-- The variance of row p of h. -/
def var {n : Nat} (A E : FVec Ideal (Rows n) .f32) (Wt : FVec Ideal Sm .f32) (p : Fin n) : EReal :=
  Ideal.div (∑ k : Fin 256, (hres A E Wt p k - mu A E Wt p) * (hres A E Wt p k - mu A E Wt p)) (Ideal.ofBits .f32 0x43800000#32)

/-- The normalised row entry scaled by `gq` and shifted by `bq`. -/
def lnAt {n : Nat} (A E : FVec Ideal (Rows n) .f32) (Wt : FVec Ideal Sm .f32) (gq bq : EReal) (p : Fin n) (q : Fin 256) : EReal :=
  (hres A E Wt p q - mu A E Wt p) * Ideal.rsqrt (var A E Wt p + Ideal.ofBits .f32 0x3727C5AC#32) * gq + bq

/-- The layer-normalised residual mix, as an array. -/
def ln (A E : FVec Ideal Sw .f32) (Wt : FVec Ideal Sm .f32) (g b : FVec Ideal Sv .f32) : FVec Ideal Sw .f32 :=
  fun i => lnAt A E Wt (g (ix1 (i 1))) (b (ix1 (i 1))) (i 0) (i 1)

/-- The hidden layer r(d,k) = max (Σ_l D(d,l)·Mt(l,k) + mb(k), 0), the bias given as a number. -/
def hidAt {n : Nat} (D : FVec Ideal (Rows n) .f32) (Mt : FVec Ideal Sm .f32) (mbk : EReal) (d : Fin n) (k : Fin 256) : EReal :=
  max ((∑ l : Fin 256, D (ix2 d l) * Mt (ix2 l k)) + mbk) (Ideal.ofBits .f32 0x00000000#32)

/-- The classifier's entry (d,j) over a hidden layer given entry by entry. -/
def clsAt (r : Fin 256 → EReal) (Ct : FVec Ideal Sc .f32) (cbj : EReal) (j : Fin 2) : EReal :=
  (∑ k : Fin 256, r k * Ct (ix2 k j)) + cbj

/-- The document head, as an array. -/
def mlpCls (D : FVec Ideal Sd .f32) (Mt : FVec Ideal Sm .f32) (mb : FVec Ideal Sv .f32) (Ct : FVec Ideal Sc .f32)
    (cb : FVec Ideal Sk .f32) : FVec Ideal So .f32 :=
  fun i => clsAt (fun k => hidAt D Mt (mb (ix1 k)) (i 0) k) Ct (cb (ix1 (i 1))) (i 1)

/-- Entry (p,·) of the relu product reads row p of A only. -/
theorem linReluAt_row {n n' : Nat} (A : FVec Ideal (Rows n) .f32) (A' : FVec Ideal (Rows n') .f32) (Wt : FVec Ideal Sm .f32)
    (p : Fin n) (p' : Fin n') (hA : ∀ k : Fin 256, A (ix2 p k) = A' (ix2 p' k)) (q : Fin 256) :
    linReluAt A Wt p q = linReluAt A' Wt p' q := by
  unfold linReluAt
  exact congrArg (fun s => max s _) (Finset.sum_congr rfl fun k _ => by rw [hA k])

/-- Row p of the residual mix reads rows p of A and of E only. -/
theorem hres_row {n n' : Nat} (A E : FVec Ideal (Rows n) .f32) (A' E' : FVec Ideal (Rows n') .f32) (Wt : FVec Ideal Sm .f32)
    (p : Fin n) (p' : Fin n') (hA : ∀ k : Fin 256, A (ix2 p k) = A' (ix2 p' k)) (hE : ∀ k : Fin 256, E (ix2 p k) = E' (ix2 p' k))
    (k : Fin 256) : hres A E Wt p k = hres A' E' Wt p' k := by
  unfold hres
  rw [hE k, linReluAt_row A A' Wt p p' hA k]

theorem mu_row {n n' : Nat} (A E : FVec Ideal (Rows n) .f32) (A' E' : FVec Ideal (Rows n') .f32) (Wt : FVec Ideal Sm .f32)
    (p : Fin n) (p' : Fin n') (hA : ∀ k : Fin 256, A (ix2 p k) = A' (ix2 p' k)) (hE : ∀ k : Fin 256, E (ix2 p k) = E' (ix2 p' k)) :
    mu A E Wt p = mu A' E' Wt p' := by
  unfold mu
  exact congrArg (fun s => Ideal.div s _) (Finset.sum_congr rfl fun k _ => hres_row A E A' E' Wt p p' hA hE k)

theorem var_row {n n' : Nat} (A E : FVec Ideal (Rows n) .f32) (A' E' : FVec Ideal (Rows n') .f32) (Wt : FVec Ideal Sm .f32)
    (p : Fin n) (p' : Fin n') (hA : ∀ k : Fin 256, A (ix2 p k) = A' (ix2 p' k)) (hE : ∀ k : Fin 256, E (ix2 p k) = E' (ix2 p' k)) :
    var A E Wt p = var A' E' Wt p' := by
  unfold var
  exact congrArg (fun s => Ideal.div s _) (Finset.sum_congr rfl fun k _ => by
    rw [hres_row A E A' E' Wt p p' hA hE k, mu_row A E A' E' Wt p p' hA hE])

/-- Entry (p,·) of the normalised mix reads rows p of A and of E only. -/
theorem lnAt_row {n n' : Nat} (A E : FVec Ideal (Rows n) .f32) (A' E' : FVec Ideal (Rows n') .f32) (Wt : FVec Ideal Sm .f32)
    (gq bq : EReal) (p : Fin n) (p' : Fin n') (hA : ∀ k : Fin 256, A (ix2 p k) = A' (ix2 p' k))
    (hE : ∀ k : Fin 256, E (ix2 p k) = E' (ix2 p' k)) (q : Fin 256) :
    lnAt A E Wt gq bq p q = lnAt A' E' Wt gq bq p' q := by
  unfold lnAt
  rw [hres_row A E A' E' Wt p p' hA hE q, mu_row A E A' E' Wt p p' hA hE, var_row A E A' E' Wt p p' hA hE]

/-- Entry (d,·) of the hidden layer reads row d of D only. -/
theorem hidAt_row {n n' : Nat} (D : FVec Ideal (Rows n) .f32) (D' : FVec Ideal (Rows n') .f32) (Mt : FVec Ideal Sm .f32)
    (mbk : EReal) (d : Fin n) (d' : Fin n') (hD : ∀ l : Fin 256, D (ix2 d l) = D' (ix2 d' l)) (k : Fin 256) :
    hidAt D Mt mbk d k = hidAt D' Mt mbk d' k := by
  unfold hidAt
  exact congrArg (fun s => max (s + mbk) _) (Finset.sum_congr rfl fun l _ => by rw [hD l])

theorem linRelu_ix2 (A : FVec Ideal Sw .f32) (Wt : FVec Ideal Sm .f32) (p : Fin 50000) (q : Fin 256) :
    linRelu A Wt (ix2 p q) = linReluAt A Wt p q := rfl

theorem ln_ix2 (A E : FVec Ideal Sw .f32) (Wt : FVec Ideal Sm .f32) (g b : FVec Ideal Sv .f32) (p : Fin 50000) (q : Fin 256) :
    ln A E Wt g b (ix2 p q) = lnAt A E Wt (g (ix1 q)) (b (ix1 q)) p q := rfl

theorem mlpCls_ix2 (D : FVec Ideal Sd .f32) (Mt : FVec Ideal Sm .f32) (mb : FVec Ideal Sv .f32) (Ct : FVec Ideal Sc .f32)
    (cb : FVec Ideal Sk .f32) (d : Fin 16384) (j : Fin 2) :
    mlpCls D Mt mb Ct cb (ix2 d j) = clsAt (fun k => hidAt D Mt (mb (ix1 k)) d k) Ct (cb (ix1 j)) j := rfl

end Cert.Spec

end
-- ==== Proof.Region0.lean ====
/-
  Region 0 of the kernel program (the first linear layer): from blocks to the array.

  The grid has ten points; point t reads rows 5000·t … 5000·t+4999 of the aggregated features A (its whole row
  block) and the whole transposed weight, and writes back the same rows of the result. Entry (r,q) of the block a point
  writes is max (Σ_k blockA(r,k)·Wt(k,q), 0), which reads row 5000·t+r of A only; so the ten blocks are the
  restrictions of ONE function of the whole arrays, `Cert.Spec.linRelu A Wt`, and since they tile the result array it
  ends holding that function. Stated at any contents `V` the region is entered from.
-/
import proofs.«161495_j41652592836980_2_alg».proof.Proof.Gen.KernelIdeal.Frame
import proofs.«161495_j41652592836980_2_alg».proof.Proof.Spec
import Idealize.ShloMosaic.Lib.Pipeline.Value
import Idealize.ShloMosaic.Lib.ValueIdx

noncomputable section

namespace Cert.KernelIdeal.KValue

open Idealize.ShloMosaic Idealize.ShloMosaic.TcCoe Idealize.ShloMosaic.ValueIdx Idealize.SL.Sem
open Cert.KernelIdeal Cert.KernelIdeal.Gen
open Idealize.ShloMosaic.Pipeline (Dat Cfg Window)

variable (V : (c : Dev nD) → (b : Ref sig .tc) → Buf (Elt Ideal) ((c : Thread nD τ).loc b))

theorem hz2 : (![0, 0] : Fin 2 → Nat) = fun _ => 0 := funext fun a => by fin_cases a <;> rfl

/-- The printed index maps over the grid: the row-blocked windows are at block (t,0), the weight at block (0,0). -/
theorem idx_facts0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- Row 5000·t + r of the array, as an index. -/
abbrev row0 (t : Fin cfg0.N) (r : Fin 5000) : Fin 50000 :=
  ⟨t.val * 5000 + r.val, by have ht : t.val < 10 := N_0 ▸ t.isLt; have hr := r.isLt; omega⟩

theorem emb0_0 (t : Fin cfg0.N) (r : Fin 5000) (k : Fin 256) :
    ((cfg0.win 0).blk t).view.emb (ix2 r k) = ix2 (row0 t r) k := by
  obtain ⟨e0, e1, -⟩ := idx_facts0 t
  funext a; apply Fin.ext
  match a with
  | ⟨0, _⟩ => show win0_0.index t (0 : Fin 2) * 5000 + 1 * r.val = t.val * 5000 + r.val; rw [e0]; omega
  | ⟨1, _⟩ => show win0_0.index t (1 : Fin 2) * 256 + 1 * k.val = k.val; rw [e1]; omega

theorem emb0_1 (t : Fin cfg0.N) (y : S256x256.Idx) :
    ((cfg0.win 1).blk t).view.emb y = y := by
  obtain ⟨-, -, e2, e3, -⟩ := idx_facts0 t
  funext a; apply Fin.ext
  match a with
  | ⟨0, _⟩ => show win0_1.index t (0 : Fin 2) * 256 + 1 * (y 0).val = (y 0).val; rw [e2]; omega
  | ⟨1, _⟩ => show win0_1.index t (1 : Fin 2) * 256 + 1 * (y 1).val = (y 1).val; rw [e3]; omega

theorem emb0_2 (t : Fin cfg0.N) (r : Fin 5000) (k : Fin 256) :
    ((cfg0.win 2).blk t).view.emb (ix2 r k) = ix2 (row0 t r) k := by
  obtain ⟨-, -, -, -, e4, e5⟩ := idx_facts0 t
  funext a; apply Fin.ext
  match a with
  | ⟨0, _⟩ => show win0_2.index t (0 : Fin 2) * 5000 + 1 * r.val = t.val * 5000 + r.val; rw [e4]; omega
  | ⟨1, _⟩ => show win0_2.index t (1 : Fin 2) * 256 + 1 * k.val = k.val; rw [e5]; omega

/-- The block of the aggregated features at point t, entry (r,k), is the array's entry (5000·t+r, k). -/
theorem iblk0_0_at (c : Dev nD) (t : Fin cfg0.N) (r : Fin 5000) (k : Fin 256) :
    iblk0 V c 0 t (ix2 r k) = V c main_v12 (ix2 (row0 t r) k) := by
  show V c main_v12 (((cfg0.win 0).blk t).view.emb (ix2 r k)) = _
  rw [emb0_0]

/-- The weight's block at every point is the whole weight. -/
theorem iblk0_1_eq (c : Dev nD) (t : Fin cfg0.N) : iblk0 V c 1 t = V c main_v13 := by
  funext y
  show V c main_v13 (((cfg0.win 1).blk t).view.emb y) = _
  rw [emb0_1]

/-- What point t writes back is block t of the relu product of the whole arrays. -/
theorem flushed0_eq
    (hpay : ∀ (x0 : Vec Ideal S5000x256 .f32) (x1 : Vec Ideal S256x256 .f32) (r : Fin 5000) (q : Fin 256),
      k0_pay1 (F := Ideal) x0 x1 (ix2 r q) = Cert.Spec.linReluAt (n := 5000) x0 x1 r q)
    (c : Dev nD) (t : Fin cfg0.N) :
    (dat0 V c).flushed 2 t
      = ((cfg0.win 2).blk t).view.read (Elt Ideal) (Cert.Spec.linRelu (V c main_v12) (V c main_v13)) := by
  show (cfg0.win 2).cut (grid0.coords t) ((dat0 V c).after 2 t) = _
  rw [after0_2]
  unfold out0_2
  rw [View.canon_unit_zero hz2]
  simp only [View.ld_unit_zero (S := S5000x256) hz2, View.ld_unit_zero (S := S256x256) hz2]
  rw [iblk0_1_eq]
  funext y
  obtain ⟨r, q, rfl⟩ : ∃ (r : Fin 5000) (q : Fin 256), y = ix2 r q := ⟨y 0, y 1, eq_ix2 y⟩
  refine (hpay _ _ r q).trans ?_
  show _ = Cert.Spec.linRelu (V c main_v12) (V c main_v13) (((cfg0.win 2).blk t).view.emb (ix2 r q))
  rw [emb0_2]
  show _ = Cert.Spec.linReluAt (V c main_v12) (V c main_v13) (row0 t r) q
  exact Cert.Spec.linReluAt_row _ _ _ r (row0 t r) (fun k => iblk0_0_at V c t r k) q

theorem mem_blk0 (t : Fin cfg0.N) (i : S50000x256.Idx) :
    i ∈ ((cfg0.win 2).blk t).view.set ↔ ∀ a : Fin 2, win0_2.index t a * S5000x256.size a ≤ (i a).val ∧ (i a).val < win0_2.index t a * S5000x256.size a + S5000x256.size a := by
  show i ∈ ((View.whole main_v14).slice (win0_2.rect t)).set ↔ _
  rw [View.set_slice_whole, Rect.mem_set_unit]
  exact Iff.rfl

/-- Every entry of the result is in the block of the point its row falls in. -/
theorem cover0 (i : S50000x256.Idx) :
    ∃ t : Fin cfg0.N, (cfg0.win 2).flush t = true ∧ i ∈ ((cfg0.win 2).blk t).view.set := by
  have hi0 : (i 0).val < 50000 := (i 0).isLt
  have hi1 : (i 1).val < 256 := (i 1).isLt
  let t : Fin cfg0.N := ⟨(i 0).val / 5000, by rw [show cfg0.N = 10 from N_0]; omega⟩
  obtain ⟨-, -, -, -, e4, e5⟩ := idx_facts0 t
  have e4' : win0_2.index t (0 : Fin 2) = (i 0).val / 5000 := e4
  refine ⟨t, flush0_2 t, ?_⟩
  rw [mem_blk0]
  intro a
  match a with
  | ⟨0, _⟩ => show win0_2.index t (0 : Fin 2) * 5000 ≤ (i 0).val ∧ (i 0).val < win0_2.index t (0 : Fin 2) * 5000 + 5000; rw [e4']; omega
  | ⟨1, _⟩ => show win0_2.index t (1 : Fin 2) * 256 ≤ (i 1).val ∧ (i 1).val < win0_2.index t (1 : Fin 2) * 256 + 256; rw [e5]; omega

/-- The result array after region 0: the relu product of the arrays the region was entered with. -/
theorem final0
    (hpay : ∀ (x0 : Vec Ideal S5000x256 .f32) (x1 : Vec Ideal S256x256 .f32) (r : Fin 5000) (q : Fin 256),
      k0_pay1 (F := Ideal) x0 x1 (ix2 r q) = Cert.Spec.linReluAt (n := 5000) x0 x1 r q)
    (c : Dev nD) :
    (dat0 V c).arrAt 2 cfg0.N = Cert.Spec.linRelu (V c main_v12) (V c main_v13) :=
  (dat0 V c).arrAt_eq_of_cover 2 _ (fun t _ => flushed0_eq V hpay c t) cover0

end Cert.KernelIdeal.KValue

end
-- ==== Proof.Region1.lean ====
/-
  Region 1 of the kernel program (second linear layer, residual mix, layer normalisation, plus the embeddings): from
  blocks to the array.

  Point t of the ten reads rows 5000·t … 5000·t+4999 of the aggregated features A and of the embeddings E, the whole
  transposed weight and the scale and shift rows, and writes back the same rows of the result. Entry (r,q) of the block it
  writes is the normalised residual mix of row r of the two blocks, scaled by g(q), shifted by b(q), plus the embedding's
  entry: it reads row 5000·t+r of A and of E only, so the blocks are the restrictions of ONE function of the whole arrays
  and, tiling the result array, leave it holding that function. Stated at any contents `V` the region is entered from.
-/
import proofs.«161495_j41652592836980_2_alg».proof.Proof.Gen.KernelIdeal.Frame
import proofs.«161495_j41652592836980_2_alg».proof.Proof.Spec
import Idealize.ShloMosaic.Lib.Pipeline.Value
import Idealize.ShloMosaic.Lib.ValueIdx

noncomputable section

namespace Cert.KernelIdeal.KValue

open Idealize.ShloMosaic Idealize.ShloMosaic.TcCoe Idealize.ShloMosaic.ValueIdx Idealize.SL.Sem
open Cert.KernelIdeal Cert.KernelIdeal.Gen
open Idealize.ShloMosaic.Pipeline (Dat Cfg Window)

variable (V : (c : Dev nD) → (b : Ref sig .tc) → Buf (Elt Ideal) ((c : Thread nD τ).loc b))

/-- The printed index maps over the grid, one record field per window and axis. -/
structure IdxFacts1 (t : Fin cfg1.N) : Prop where
  w00 : win1_0.index t (0 : Fin 2) = t.val
  w01 : win1_0.index t (1 : Fin 2) = 0
  w10 : win1_1.index t (0 : Fin 2) = t.val
  w11 : win1_1.index t (1 : Fin 2) = 0
  w20 : win1_2.index t (0 : Fin 2) = 0
  w21 : win1_2.index t (1 : Fin 2) = 0
  w30 : win1_3.index t (0 : Fin 2) = 0
  w31 : win1_3.index t (1 : Fin 2) = 0
  w40 : win1_4.index t (0 : Fin 2) = 0
  w41 : win1_4.index t (1 : Fin 2) = 0
  w50 : win1_5.index t (0 : Fin 2) = t.val
  w51 : win1_5.index t (1 : Fin 2) = 0

theorem idx_facts1 : ∀ t : Fin cfg1.N, IdxFacts1 t := fun t =>
  have h : ∀ t : Fin cfg1.N, win1_0.index t (0 : Fin 2) = t.val ∧ win1_0.index t (1 : Fin 2) = 0
      ∧ win1_1.index t (0 : Fin 2) = t.val ∧ win1_1.index t (1 : Fin 2) = 0
      ∧ win1_2.index t (0 : Fin 2) = 0 ∧ win1_2.index t (1 : Fin 2) = 0
      ∧ win1_3.index t (0 : Fin 2) = 0 ∧ win1_3.index t (1 : Fin 2) = 0
      ∧ win1_4.index t (0 : Fin 2) = 0 ∧ win1_4.index t (1 : Fin 2) = 0
      ∧ win1_5.index t (0 : Fin 2) = t.val ∧ win1_5.index t (1 : Fin 2) = 0 :=
    (by decide +kernel : ∀ t : Fin grid1.N, _)
  let ⟨a, b, c, d, e, f, g, i, j, k, l, n⟩ := h t
  ⟨a, b, c, d, e, f, g, i, j, k, l, n⟩

theorem hz1 : (![0, 0] : Fin 2 → Nat) = fun _ => 0 := funext fun a => by fin_cases a <;> rfl

/-- Row 5000·t + r of the array, as an index. -/
abbrev row1 (t : Fin cfg1.N) (r : Fin 5000) : Fin 50000 :=
  ⟨t.val * 5000 + r.val, by have ht : t.val < 10 := N_1 ▸ t.isLt; have hr := r.isLt; omega⟩

theorem emb1_0 (t : Fin cfg1.N) (r : Fin 5000) (k : Fin 256) :
    ((cfg1.win 0).blk t).view.emb (ix2 r k) = ix2 (row1 t r) k := by
  have e := idx_facts1 t
  funext a; apply Fin.ext
  match a with
  | ⟨0, _⟩ => show win1_0.index t (0 : Fin 2) * 5000 + 1 * r.val = t.val * 5000 + r.val; rw [e.w00]; omega
  | ⟨1, _⟩ => show win1_0.index t (1 : Fin 2) * 256 + 1 * k.val = k.val; rw [e.w01]; omega

theorem emb1_1 (t : Fin cfg1.N) (r : Fin 5000) (k : Fin 256) :
    ((cfg1.win 1).blk t).view.emb (ix2 r k) = ix2 (row1 t r) k := by
  have e := idx_facts1 t
  funext a; apply Fin.ext
  match a with
  | ⟨0, _⟩ => show win1_1.index t (0 : Fin 2) * 5000 + 1 * r.val = t.val * 5000 + r.val; rw [e.w10]; omega
  | ⟨1, _⟩ => show win1_1.index t (1 : Fin 2) * 256 + 1 * k.val = k.val; rw [e.w11]; omega

theorem emb1_5 (t : Fin cfg1.N) (r : Fin 5000) (k : Fin 256) :
    ((cfg1.win 5).blk t).view.emb (ix2 r k) = ix2 (row1 t r) k := by
  have e := idx_facts1 t
  funext a; apply Fin.ext
  match a with
  | ⟨0, _⟩ => show win1_5.index t (0 : Fin 2) * 5000 + 1 * r.val = t.val * 5000 + r.val; rw [e.w50]; omega
  | ⟨1, _⟩ => show win1_5.index t (1 : Fin 2) * 256 + 1 * k.val = k.val; rw [e.w51]; omega

theorem emb1_2 (t : Fin cfg1.N) (y : S256x256.Idx) :
    ((cfg1.win 2).blk t).view.emb y = y := by
  have e := idx_facts1 t
  funext a; apply Fin.ext
  match a with
  | ⟨0, _⟩ => show win1_2.index t (0 : Fin 2) * 256 + 1 * (y 0).val = (y 0).val; rw [e.w20]; omega
  | ⟨1, _⟩ => show win1_2.index t (1 : Fin 2) * 256 + 1 * (y 1).val = (y 1).val; rw [e.w21]; omega

theorem iblk1_2_eq (c : Dev nD) (t : Fin cfg1.N) : iblk1 V c 2 t = V c (Pipeline.arrRef spec1 2) := by
  funext y
  show V c (Pipeline.arrRef spec1 2) (((cfg1.win 2).blk t).view.emb y) = _
  rw [emb1_2]

theorem emb1_3 (t : Fin cfg1.N) (y : S1x256.Idx) :
    ((cfg1.win 3).blk t).view.emb y = y := by
  have e := idx_facts1 t
  funext a; apply Fin.ext
  match a with
  | ⟨0, _⟩ => show win1_3.index t (0 : Fin 2) * 1 + 1 * (y 0).val = (y 0).val; rw [e.w30]; omega
  | ⟨1, _⟩ => show win1_3.index t (1 : Fin 2) * 256 + 1 * (y 1).val = (y 1).val; rw [e.w31]; omega

theorem iblk1_3_eq (c : Dev nD) (t : Fin cfg1.N) : iblk1 V c 3 t = V c (Pipeline.arrRef spec1 3) := by
  funext y
  show V c (Pipeline.arrRef spec1 3) (((cfg1.win 3).blk t).view.emb y) = _
  rw [emb1_3]

theorem emb1_4 (t : Fin cfg1.N) (y : S1x256.Idx) :
    ((cfg1.win 4).blk t).view.emb y = y := by
  have e := idx_facts1 t
  funext a; apply Fin.ext
  match a with
  | ⟨0, _⟩ => show win1_4.index t (0 : Fin 2) * 1 + 1 * (y 0).val = (y 0).val; rw [e.w40]; omega
  | ⟨1, _⟩ => show win1_4.index t (1 : Fin 2) * 256 + 1 * (y 1).val = (y 1).val; rw [e.w41]; omega

theorem iblk1_4_eq (c : Dev nD) (t : Fin cfg1.N) : iblk1 V c 4 t = V c (Pipeline.arrRef spec1 4) := by
  funext y
  show V c (Pipeline.arrRef spec1 4) (((cfg1.win 4).blk t).view.emb y) = _
  rw [emb1_4]

theorem iblk1_0_at (c : Dev nD) (t : Fin cfg1.N) (r : Fin 5000) (k : Fin 256) :
    iblk1 V c 0 t (ix2 r k) = V c main_v27 (ix2 (row1 t r) k) := by
  show V c main_v27 (((cfg1.win 0).blk t).view.emb (ix2 r k)) = _
  rw [emb1_0]

theorem iblk1_1_at (c : Dev nD) (t : Fin cfg1.N) (r : Fin 5000) (k : Fin 256) :
    iblk1 V c 1 t (ix2 r k) = V c main_arg6 (ix2 (row1 t r) k) := by
  show V c main_arg6 (((cfg1.win 1).blk t).view.emb (ix2 r k)) = _
  rw [emb1_1]

/-- The result of region 1 as a function of the arrays it is entered with: the normalised residual mix, scaled and
    shifted by the rows `g2`, `b2`, plus the embeddings. -/
def G1 (A E : S50000x256.Idx → EReal) (Wt : S256x256.Idx → EReal) (g2 b2 : S1x256.Idx → EReal) : S50000x256.Idx → EReal :=
  fun i => Cert.Spec.lnAt A E Wt (g2 (ix2 (0 : Fin 1) (i 1))) (b2 (ix2 (0 : Fin 1) (i 1))) (i 0) (i 1) + E i

/-- What point t writes back is block t of that function. -/
theorem flushed1_eq
    (hpay : ∀ (x0 : Vec Ideal S5000x256 .f32) (x2 : Vec Ideal S256x256 .f32) (x7 : Vec Ideal S5000x256 .f32)
      (x31 x35 : Vec Ideal S1x256 .f32) (r : Fin 5000) (q : Fin 256),
      k1_pay1 (F := Ideal) x0 x2 x7 x31 x35 (ix2 r q)
        = Cert.Spec.lnAt (n := 5000) x0 x7 x2 (x31 (ix2 (0 : Fin 1) q)) (x35 (ix2 (0 : Fin 1) q)) r q + x7 (ix2 r q))
    (c : Dev nD) (t : Fin cfg1.N) :
    (dat1 V c).flushed 5 t
      = ((cfg1.win 5).blk t).view.read (Elt Ideal)
          (G1 (V c main_v27) (V c main_arg6) (V c main_v28) (V c main_v29) (V c main_v30)) := by
  show (cfg1.win 5).cut (grid1.coords t) ((dat1 V c).after 5 t) = _
  rw [after1_5]
  unfold out1_5
  rw [View.canon_unit_zero hz1]
  simp only [View.ld_unit_zero (S := S5000x256) hz1, View.ld_unit_zero (S := S256x256) hz1, View.ld_unit_zero (S := S1x256) hz1]
  rw [iblk1_2_eq, iblk1_3_eq, iblk1_4_eq]
  funext y
  obtain ⟨r, q, rfl⟩ : ∃ (r : Fin 5000) (q : Fin 256), y = ix2 r q := ⟨y 0, y 1, eq_ix2 y⟩
  refine (hpay _ _ _ _ _ r q).trans ?_
  show _ = G1 (V c main_v27) (V c main_arg6) (V c main_v28) (V c main_v29) (V c main_v30) (((cfg1.win 5).blk t).view.emb (ix2 r q))
  rw [emb1_5]
  show _ = Cert.Spec.lnAt (V c main_v27) (V c main_arg6) (V c main_v28) (V c main_v29 (ix2 (0 : Fin 1) q)) (V c main_v30 (ix2 (0 : Fin 1) q)) (row1 t r) q
      + V c main_arg6 (ix2 (row1 t r) q)
  rw [← iblk1_1_at V c t r q]
  exact congrArg (· + _) (Cert.Spec.lnAt_row _ _ _ _ _ _ _ r (row1 t r) (fun k => iblk1_0_at V c t r k) (fun k => iblk1_1_at V c t r k) q)

theorem mem_blk1 (t : Fin cfg1.N) (i : S50000x256.Idx) :
    i ∈ ((cfg1.win 5).blk t).view.set ↔ ∀ a : Fin 2, win1_5.index t a * S5000x256.size a ≤ (i a).val ∧ (i a).val < win1_5.index t a * S5000x256.size a + S5000x256.size a := by
  show i ∈ ((View.whole main_v31).slice (win1_5.rect t)).set ↔ _
  rw [View.set_slice_whole, Rect.mem_set_unit]
  exact Iff.rfl

theorem cover1 (i : S50000x256.Idx) :
    ∃ t : Fin cfg1.N, (cfg1.win 5).flush t = true ∧ i ∈ ((cfg1.win 5).blk t).view.set := by
  have hi0 : (i 0).val < 50000 := (i 0).isLt
  have hi1 : (i 1).val < 256 := (i 1).isLt
  let t : Fin cfg1.N := ⟨(i 0).val / 5000, by rw [show cfg1.N = 10 from N_1]; omega⟩
  have e := idx_facts1 t
  have e4' : win1_5.index t (0 : Fin 2) = (i 0).val / 5000 := e.w50
  refine ⟨t, flush1_5 t, ?_⟩
  rw [mem_blk1]
  intro a
  match a with
  | ⟨0, _⟩ => show win1_5.index t (0 : Fin 2) * 5000 ≤ (i 0).val ∧ (i 0).val < win1_5.index t (0 : Fin 2) * 5000 + 5000; rw [e4']; omega
  | ⟨1, _⟩ => show win1_5.index t (1 : Fin 2) * 256 ≤ (i 1).val ∧ (i 1).val < win1_5.index t (1 : Fin 2) * 256 + 256; rw [e.w51]; omega

/-- The result array after region 1. -/
theorem final1
    (hpay : ∀ (x0 : Vec Ideal S5000x256 .f32) (x2 : Vec Ideal S256x256 .f32) (x7 : Vec Ideal S5000x256 .f32)
      (x31 x35 : Vec Ideal S1x256 .f32) (r : Fin 5000) (q : Fin 256),
      k1_pay1 (F := Ideal) x0 x2 x7 x31 x35 (ix2 r q)
        = Cert.Spec.lnAt (n := 5000) x0 x7 x2 (x31 (ix2 (0 : Fin 1) q)) (x35 (ix2 (0 : Fin 1) q)) r q + x7 (ix2 r q))
    (c : Dev nD) :
    (dat1 V c).arrAt 5 cfg1.N = G1 (V c main_v27) (V c main_arg6) (V c main_v28) (V c main_v29) (V c main_v30) :=
  (dat1 V c).arrAt_eq_of_cover 5 _ (fun t _ => flushed1_eq V hpay c t) cover1

end Cert.KernelIdeal.KValue

end
-- ==== Proof.Region2.lean ====
/-
  Region 2 of the kernel program (the document head): from blocks to the array.

  Point t of the four reads rows 4096·t … 4096·t+4095 of the pooled document features D, the two transposed weights
  and the two bias rows, and writes back the same rows of the result. Entry (d,j) of the block it writes is the
  classifier's value on the hidden layer of row d of the block: it reads row 4096·t+d of D only, so the four blocks
  are the restrictions of ONE function of the whole arrays and, tiling the result array, leave it holding that function.
  Stated at any contents `V` the region is entered from.
-/
import proofs.«161495_j41652592836980_2_alg».proof.Proof.Gen.KernelIdeal.Frame
import proofs.«161495_j41652592836980_2_alg».proof.Proof.Spec
import Idealize.ShloMosaic.Lib.Pipeline.Value
import Idealize.ShloMosaic.Lib.ValueIdx

noncomputable section

namespace Cert.KernelIdeal.KValue

open Idealize.ShloMosaic Idealize.ShloMosaic.TcCoe Idealize.ShloMosaic.ValueIdx Idealize.SL.Sem
open Cert.KernelIdeal Cert.KernelIdeal.Gen
open Idealize.ShloMosaic.Pipeline (Dat Cfg Window)

variable (V : (c : Dev nD) → (b : Ref sig .tc) → Buf (Elt Ideal) ((c : Thread nD τ).loc b))

/-- The printed index maps over the grid, one record field per window and axis. -/
structure IdxFacts2 (t : Fin cfg2.N) : Prop where
  w00 : win2_0.index t (0 : Fin 2) = t.val
  w01 : win2_0.index t (1 : Fin 2) = 0
  w10 : win2_1.index t (0 : Fin 2) = 0
  w11 : win2_1.index t (1 : Fin 2) = 0
  w20 : win2_2.index t (0 : Fin 2) = 0
  w21 : win2_2.index t (1 : Fin 2) = 0
  w30 : win2_3.index t (0 : Fin 2) = 0
  w31 : win2_3.index t (1 : Fin 2) = 0
  w40 : win2_4.index t (0 : Fin 2) = 0
  w41 : win2_4.index t (1 : Fin 2) = 0
  w50 : win2_5.index t (0 : Fin 2) = t.val
  w51 : win2_5.index t (1 : Fin 2) = 0

theorem idx_facts2 : ∀ t : Fin cfg2.N, IdxFacts2 t := fun t =>
  have h : ∀ t : Fin cfg2.N, win2_0.index t (0 : Fin 2) = t.val ∧ win2_0.index t (1 : Fin 2) = 0
      ∧ win2_1.index t (0 : Fin 2) = 0 ∧ win2_1.index t (1 : Fin 2) = 0
      ∧ win2_2.index t (0 : Fin 2) = 0 ∧ win2_2.index t (1 : Fin 2) = 0
      ∧ win2_3.index t (0 : Fin 2) = 0 ∧ win2_3.index t (1 : Fin 2) = 0
      ∧ win2_4.index t (0 : Fin 2) = 0 ∧ win2_4.index t (1 : Fin 2) = 0
      ∧ win2_5.index t (0 : Fin 2) = t.val ∧ win2_5.index t (1 : Fin 2) = 0 :=
    (by decide +kernel : ∀ t : Fin grid2.N, _)
  let ⟨a, b, c, d, e, f, g, i, j, k, l, n⟩ := h t
  ⟨a, b, c, d, e, f, g, i, j, k, l, n⟩

theorem hzr2 : (![0, 0] : Fin 2 → Nat) = fun _ => 0 := funext fun a => by fin_cases a <;> rfl

/-- Row 4096·t + r of the array, as an index. -/
abbrev row2 (t : Fin cfg2.N) (r : Fin 4096) : Fin 16384 :=
  ⟨t.val * 4096 + r.val, by have ht : t.val < 4 := N_2 ▸ t.isLt; have hr := r.isLt; omega⟩

theorem emb2_0 (t : Fin cfg2.N) (r : Fin 4096) (k : Fin 256) :
    ((cfg2.win 0).blk t).view.emb (ix2 r k) = ix2 (row2 t r) k := by
  have e := idx_facts2 t
  funext a; apply Fin.ext
  match a with
  | ⟨0, _⟩ => show win2_0.index t (0 : Fin 2) * 4096 + 1 * r.val = t.val * 4096 + r.val; rw [e.w00]; omega
  | ⟨1, _⟩ => show win2_0.index t (1 : Fin 2) * 256 + 1 * k.val = k.val; rw [e.w01]; omega

theorem emb2_5 (t : Fin cfg2.N) (r : Fin 4096) (k : Fin 2) :
    ((cfg2.win 5).blk t).view.emb (ix2 r k) = ix2 (row2 t r) k := by
  have e := idx_facts2 t
  funext a; apply Fin.ext
  match a with
  | ⟨0, _⟩ => show win2_5.index t (0 : Fin 2) * 4096 + 1 * r.val = t.val * 4096 + r.val; rw [e.w50]; omega
  | ⟨1, _⟩ => show win2_5.index t (1 : Fin 2) * 2 + 1 * k.val = k.val; rw [e.w51]; omega

theorem emb2_1 (t : Fin cfg2.N) (y : S256x256.Idx) :
    ((cfg2.win 1).blk t).view.emb y = y := by
  have e := idx_facts2 t
  funext a; apply Fin.ext
  match a with
  | ⟨0, _⟩ => show win2_1.index t (0 : Fin 2) * 256 + 1 * (y 0).val = (y 0).val; rw [e.w10]; omega
  | ⟨1, _⟩ => show win2_1.index t (1 : Fin 2) * 256 + 1 * (y 1).val = (y 1).val; rw [e.w11]; omega

theorem iblk2_1_eq (c : Dev nD) (t : Fin cfg2.N) : iblk2 V c 1 t = V c (Pipeline.arrRef spec2 1) := by
  funext y
  show V c (Pipeline.arrRef spec2 1) (((cfg2.win 1).blk t).view.emb y) = _
  rw [emb2_1]

theorem emb2_2 (t : Fin cfg2.N) (y : S1x256.Idx) :
    ((cfg2.win 2).blk t).view.emb y = y := by
  have e := idx_facts2 t
  funext a; apply Fin.ext
  match a with
  | ⟨0, _⟩ => show win2_2.index t (0 : Fin 2) * 1 + 1 * (y 0).val = (y 0).val; rw [e.w20]; omega
  | ⟨1, _⟩ => show win2_2.index t (1 : Fin 2) * 256 + 1 * (y 1).val = (y 1).val; rw [e.w21]; omega

theorem iblk2_2_eq (c : Dev nD) (t : Fin cfg2.N) : iblk2 V c 2 t = V c (Pipeline.arrRef spec2 2) := by
  funext y
  show V c (Pipeline.arrRef spec2 2) (((cfg2.win 2).blk t).view.emb y) = _
  rw [emb2_2]

theorem emb2_3 (t : Fin cfg2.N) (y : S256x2.Idx) :
    ((cfg2.win 3).blk t).view.emb y = y := by
  have e := idx_facts2 t
  funext a; apply Fin.ext
  match a with
  | ⟨0, _⟩ => show win2_3.index t (0 : Fin 2) * 256 + 1 * (y 0).val = (y 0).val; rw [e.w30]; omega
  | ⟨1, _⟩ => show win2_3.index t (1 : Fin 2) * 2 + 1 * (y 1).val = (y 1).val; rw [e.w31]; omega

theorem iblk2_3_eq (c : Dev nD) (t : Fin cfg2.N) : iblk2 V c 3 t = V c (Pipeline.arrRef spec2 3) := by
  funext y
  show V c (Pipeline.arrRef spec2 3) (((cfg2.win 3).blk t).view.emb y) = _
  rw [emb2_3]

theorem emb2_4 (t : Fin cfg2.N) (y : S1x2.Idx) :
    ((cfg2.win 4).blk t).view.emb y = y := by
  have e := idx_facts2 t
  funext a; apply Fin.ext
  match a with
  | ⟨0, _⟩ => show win2_4.index t (0 : Fin 2) * 1 + 1 * (y 0).val = (y 0).val; rw [e.w40]; omega
  | ⟨1, _⟩ => show win2_4.index t (1 : Fin 2) * 2 + 1 * (y 1).val = (y 1).val; rw [e.w41]; omega

theorem iblk2_4_eq (c : Dev nD) (t : Fin cfg2.N) : iblk2 V c 4 t = V c (Pipeline.arrRef spec2 4) := by
  funext y
  show V c (Pipeline.arrRef spec2 4) (((cfg2.win 4).blk t).view.emb y) = _
  rw [emb2_4]

theorem iblk2_0_at (c : Dev nD) (t : Fin cfg2.N) (r : Fin 4096) (k : Fin 256) :
    iblk2 V c 0 t (ix2 r k) = V c main_v44 (ix2 (row2 t r) k) := by
  show V c main_v44 (((cfg2.win 0).blk t).view.emb (ix2 r k)) = _
  rw [emb2_0]

/-- The result of region 2 as a function of the arrays it is entered with. -/
def G2 (D : S16384x256.Idx → EReal) (Mt : S256x256.Idx → EReal) (mb2 : S1x256.Idx → EReal) (Ct : S256x2.Idx → EReal)
    (cb2 : S1x2.Idx → EReal) : S16384x2.Idx → EReal :=
  fun i => Cert.Spec.clsAt (fun k => Cert.Spec.hidAt D Mt (mb2 (ix2 (0 : Fin 1) k)) (i 0) k) Ct (cb2 (ix2 (0 : Fin 1) (i 1))) (i 1)

/-- What point t writes back is block t of that function. -/
theorem flushed2_eq
    (hpay : ∀ (x0 : Vec Ideal S4096x256 .f32) (x2 : Vec Ideal S256x256 .f32) (x5 : Vec Ideal S1x256 .f32)
      (x11 : Vec Ideal S256x2 .f32) (x14 : Vec Ideal S1x2 .f32) (d : Fin 4096) (j : Fin 2),
      k2_pay1 (F := Ideal) x0 x2 x5 x11 x14 (ix2 d j)
        = Cert.Spec.clsAt (fun k => Cert.Spec.hidAt (n := 4096) x0 x2 (x5 (ix2 (0 : Fin 1) k)) d k) x11 (x14 (ix2 (0 : Fin 1) j)) j)
    (c : Dev nD) (t : Fin cfg2.N) :
    (dat2 V c).flushed 5 t
      = ((cfg2.win 5).blk t).view.read (Elt Ideal)
          (G2 (V c main_v44) (V c main_v45) (V c main_v47) (V c main_v46) (V c main_v48)) := by
  show (cfg2.win 5).cut (grid2.coords t) ((dat2 V c).after 5 t) = _
  rw [after2_5]
  unfold out2_5
  rw [View.canon_unit_zero hzr2]
  simp only [View.ld_unit_zero (S := S4096x256) hzr2, View.ld_unit_zero (S := S256x256) hzr2, View.ld_unit_zero (S := S1x256) hzr2,
    View.ld_unit_zero (S := S256x2) hzr2, View.ld_unit_zero (S := S1x2) hzr2]
  rw [iblk2_1_eq, iblk2_2_eq, iblk2_3_eq, iblk2_4_eq]
  funext y
  obtain ⟨d, j, rfl⟩ : ∃ (d : Fin 4096) (j : Fin 2), y = ix2 d j := ⟨y 0, y 1, eq_ix2 y⟩
  refine (hpay _ _ _ _ _ d j).trans ?_
  show _ = G2 (V c main_v44) (V c main_v45) (V c main_v47) (V c main_v46) (V c main_v48) (((cfg2.win 5).blk t).view.emb (ix2 d j))
  rw [emb2_5]
  show _ = Cert.Spec.clsAt (fun k => Cert.Spec.hidAt (V c main_v44) (V c main_v45) (V c main_v47 (ix2 (0 : Fin 1) k)) (row2 t d) k)
      (V c main_v46) (V c main_v48 (ix2 (0 : Fin 1) j)) j
  exact congrArg (fun f => Cert.Spec.clsAt f _ _ j)
    (funext fun k => Cert.Spec.hidAt_row _ _ _ _ d (row2 t d) (fun l => iblk2_0_at V c t d l) k)

theorem mem_blk2 (t : Fin cfg2.N) (i : S16384x2.Idx) :
    i ∈ ((cfg2.win 5).blk t).view.set ↔ ∀ a : Fin 2, win2_5.index t a * S4096x2.size a ≤ (i a).val ∧ (i a).val < win2_5.index t a * S4096x2.size a + S4096x2.size a := by
  show i ∈ ((View.whole main_v49).slice (win2_5.rect t)).set ↔ _
  rw [View.set_slice_whole, Rect.mem_set_unit]
  exact Iff.rfl

theorem cover2 (i : S16384x2.Idx) :
    ∃ t : Fin cfg2.N, (cfg2.win 5).flush t = true ∧ i ∈ ((cfg2.win 5).blk t).view.set := by
  have hi0 : (i 0).val < 16384 := (i 0).isLt
  have hi1 : (i 1).val < 2 := (i 1).isLt
  let t : Fin cfg2.N := ⟨(i 0).val / 4096, by rw [show cfg2.N = 4 from N_2]; omega⟩
  have e := idx_facts2 t
  have e4' : win2_5.index t (0 : Fin 2) = (i 0).val / 4096 := e.w50
  refine ⟨t, flush2_5 t, ?_⟩
  rw [mem_blk2]
  intro a
  match a with
  | ⟨0, _⟩ => show win2_5.index t (0 : Fin 2) * 4096 ≤ (i 0).val ∧ (i 0).val < win2_5.index t (0 : Fin 2) * 4096 + 4096; rw [e4']; omega
  | ⟨1, _⟩ => show win2_5.index t (1 : Fin 2) * 2 ≤ (i 1).val ∧ (i 1).val < win2_5.index t (1 : Fin 2) * 2 + 2; rw [e.w51]; omega

/-- The result array after region 2. -/
theorem final2
    (hpay : ∀ (x0 : Vec Ideal S4096x256 .f32) (x2 : Vec Ideal S256x256 .f32) (x5 : Vec Ideal S1x256 .f32)
      (x11 : Vec Ideal S256x2 .f32) (x14 : Vec Ideal S1x2 .f32) (d : Fin 4096) (j : Fin 2),
      k2_pay1 (F := Ideal) x0 x2 x5 x11 x14 (ix2 d j)
        = Cert.Spec.clsAt (fun k => Cert.Spec.hidAt (n := 4096) x0 x2 (x5 (ix2 (0 : Fin 1) k)) d k) x11 (x14 (ix2 (0 : Fin 1) j)) j)
    (c : Dev nD) :
    (dat2 V c).arrAt 5 cfg2.N = G2 (V c main_v44) (V c main_v45) (V c main_v47) (V c main_v46) (V c main_v48) :=
  (dat2 V c).arrAt_eq_of_cover 5 _ (fun t _ => flushed2_eq V hpay c t) cover2

end Cert.KernelIdeal.KValue

end
-- ==== Proof.Chains.lean ====
/-
  The sparse products as whole-array host chains, and the transposes: functions of whole arrays that both programs
  apply verbatim, so they are carried as names and never opened, except where the document pooling is split into
  its two summands.

  `spmmA rows cols vals H` is the word graph's sparse matrix (800000 entries) applied to a [50000,256] array H:
  row r of the result is the sum over the entries e with rows(e) = r of vals(e) · H(cols(e), ·), a negative column
  counted from the end. `spmmX` is the same for the document/word matrix (524288 entries, 16384 rows).
-/
import proofs.«161495_j41652592836980_2_alg».proof.KernelIdeal
import proofs.«161495_j41652592836980_2_alg».proof.Proof.Gen.KernelIdeal
import Idealize.ShloMosaic.PureOps.Ideal
import proofs.«161495_j41652592836980_2_alg».proof.Proof.Spec

noncomputable section

namespace Cert.Chains

open Idealize.ShloMosaic Cert.KernelIdeal Cert.KernelIdeal.Facts₀

/-- The word graph's column indices, a negative one counted from the end. -/
def wrapA (cols : IVec S800000 32) : IVec S800000 32 :=
  select (cmpi .slt cols (broadcastInDim S800000 ![] bcast_S_S800000 (constantI S_ 32 0#32)))
    (addi cols (broadcastInDim S800000 ![] bcast_S_S800000 (constantI S_ 32 50000#32))) cols

/-- The word graph's sparse matrix applied to H. -/
def spmmA (rows cols : IVec S800000 32) (vals : FVec Ideal S800000 .f32)
    (H : FVec Ideal S50000x256 .f32) : FVec Ideal S50000x256 .f32 :=
  Host.scatterAdd (F := Ideal) scatter_S50000x256_S800000x1_S800000x256_1_0_0_1
    (broadcastInDim S50000x256 ![] bcast_S_S50000x256 (constant (F := Ideal) S_ .f32 0x00000000#32))
    (broadcastInDim S800000x1 ![0] bcast_S800000_S800000x1_0 rows)
    (mulf (broadcastInDim S800000x256 ![0, 1] bcast_S800000x1_S800000x256_0_1 (broadcastInDim S800000x1 ![0] bcast_S800000_S800000x1_0 vals))
      (Host.gather gather_S50000x256_S800000x1_S800000x256_1_0_n_n_0_1_1256 H
        (broadcastInDim S800000x1 ![0] bcast_S800000_S800000x1_0 (wrapA cols))))

/-- The document matrix's column indices, a negative one counted from the end. -/
def wrapX (cols : IVec S524288 32) : IVec S524288 32 :=
  select (cmpi .slt cols (broadcastInDim S524288 ![] bcast_S_S524288 (constantI S_ 32 0#32)))
    (addi cols (broadcastInDim S524288 ![] bcast_S_S524288 (constantI S_ 32 50000#32))) cols

/-- The document/word sparse matrix applied to H. -/
def spmmX (rows cols : IVec S524288 32) (vals : FVec Ideal S524288 .f32)
    (H : FVec Ideal S50000x256 .f32) : FVec Ideal S16384x256 .f32 :=
  Host.scatterAdd (F := Ideal) scatter_S16384x256_S524288x1_S524288x256_1_0_0_1
    (broadcastInDim S16384x256 ![] bcast_S_S16384x256 (constant (F := Ideal) S_ .f32 0x00000000#32))
    (broadcastInDim S524288x1 ![0] bcast_S524288_S524288x1_0 rows)
    (mulf (broadcastInDim S524288x256 ![0, 1] bcast_S524288x1_S524288x256_0_1 (broadcastInDim S524288x1 ![0] bcast_S524288_S524288x1_0 vals))
      (Host.gather gather_S50000x256_S524288x1_S524288x256_1_0_n_n_0_1_1256 H
        (broadcastInDim S524288x1 ![0] bcast_S524288_S524288x1_0 (wrapX cols))))

/-- The transpose of a square weight matrix. -/
def tr256 (W : FVec Ideal S256x256 .f32) : FVec Ideal S256x256 .f32 :=
  transpose S256x256 [1, 0] W transposes_S256x256_S256x256_1_0

/-- The transpose of the classifier's weight. -/
def tr2 (W : FVec Ideal S2x256 .f32) : FVec Ideal S256x2 .f32 :=
  transpose S256x2 [1, 0] W transposes_S2x256_S256x2_1_0

/-- The layer-normalised word features, as a function of the arguments. -/
def wordH (a0 a1 : IVec S800000 32) (a2 : FVec Ideal S800000 .f32)
    (a6 : FVec Ideal S50000x256 .f32) (a7 a8 : FVec Ideal S256x256 .f32)
    (a9 a10 : FVec Ideal S256 .f32) : FVec Ideal S50000x256 .f32 :=
  Cert.Spec.ln (spmmA a0 a1 a2 (Cert.Spec.linRelu (spmmA a0 a1 a2 a6) (tr256 a7))) a6 (tr256 a8) a9 a10

/-- The kernel program's result: ONE pooling of (word features + embeddings). -/
def kerOut (a0 a1 : IVec S800000 32) (a2 : FVec Ideal S800000 .f32)
    (a3 a4 : IVec S524288 32) (a5 : FVec Ideal S524288 .f32)
    (a6 : FVec Ideal S50000x256 .f32) (a7 a8 : FVec Ideal S256x256 .f32)
    (a9 a10 : FVec Ideal S256 .f32) (a11 : FVec Ideal S256x256 .f32)
    (a12 : FVec Ideal S256 .f32) (a13 : FVec Ideal S2x256 .f32)
    (a14 : FVec Ideal S2 .f32) : FVec Ideal S16384x2 .f32 :=
  Cert.Spec.mlpCls (spmmX a3 a4 a5 (addf (wordH a0 a1 a2 a6 a7 a8 a9 a10) a6)) (tr256 a11) a12 (tr2 a13) a14

/-- The reference's result: the poolings of the word features and of the embeddings, added. -/
def refOut (a0 a1 : IVec S800000 32) (a2 : FVec Ideal S800000 .f32)
    (a3 a4 : IVec S524288 32) (a5 : FVec Ideal S524288 .f32)
    (a6 : FVec Ideal S50000x256 .f32) (a7 a8 : FVec Ideal S256x256 .f32)
    (a9 a10 : FVec Ideal S256 .f32) (a11 : FVec Ideal S256x256 .f32)
    (a12 : FVec Ideal S256 .f32) (a13 : FVec Ideal S2x256 .f32)
    (a14 : FVec Ideal S2 .f32) : FVec Ideal S16384x2 .f32 :=
  Cert.Spec.mlpCls (addf (spmmX a3 a4 a5 (wordH a0 a1 a2 a6 a7 a8 a9 a10)) (spmmX a3 a4 a5 a6)) (tr256 a11) a12 (tr2 a13) a14

end Cert.Chains

end
-- ==== Proof.Stretch.lean ====
/-
  The host stretches of the kernel program: what each region's input arrays hold when the region is entered.

  Before region 0 the host forms the sparse product of the word graph with the embeddings and the transpose of the
  first weight; before region 1 the same sparse product of region 0's result, the transpose of the second weight and
  the scale and shift as rows; before region 2 the document pooling of region 1's result, the two transposes of the
  head's weights and its biases as rows. No host operation and no region writes an argument array, so an argument read
  at any boundary is the launch memory's.
-/
import proofs.«161495_j41652592836980_2_alg».proof.Proof.Gen.KernelIdeal.Frame
import proofs.«161495_j41652592836980_2_alg».proof.Proof.Chains
import Idealize.ShloMosaic.Lib.StableHlo.Run
import Idealize.ShloMosaic.Lib.ValueLayout

set_option maxRecDepth 16384

noncomputable section

namespace Cert.KernelIdeal.KValue

open Idealize.ShloMosaic Idealize.ShloMosaic.TcCoe Idealize.ShloMosaic.ValueIdx Idealize.SL.Sem Idealize.ShloMosaic.StableHlo
open Cert.KernelIdeal Cert.KernelIdeal.Gen

variable (m : (ℓ : Loc nD τ sig) → Buf (Elt Ideal) ℓ) (ρ : Dev nD → PrngReg)

/-- A stretch of host operations leaves alone a buffer none of them writes. -/
macro "host_keeps " ops:ident : tactic => `(tactic|
  exact StableHlo.after_of_forall_not_mem _ _ (List.forall_iff_forall_mem.mp (by
    simp only [$ops:ident, List.flatten_cons, List.flatten_nil, List.append_nil, List.cons_append, List.nil_append, List.Forall,
      StableHlo.nullary_writes, StableHlo.unary_writes, StableHlo.binary_writes, StableHlo.ternary_writes,
      StableHlo.quaternary_writes, StableHlo.reshape_writes, StableHlo.binaryIndexed_writes, Finset.mem_singleton]
    repeat' apply And.intro
    all_goals exact StableHlo.devRef_ne_of_ne (by decide))))

/-! ## The arguments at the boundaries -/

theorem W1_keep (c : Dev nD) (b : Ref sig .tc)
    (h : StableHlo.after hostOps0 (W0 m ρ c) (Proc.devRef .tc b) = W0 m ρ c (Proc.devRef .tc b)) :
    W1 m ρ c (Proc.devRef .tc b) = m ((c : Thread nD τ).loc b) := h.trans rfl

theorem W2_keep (c : Dev nD) (b : Ref sig .tc) (h2 : ∀ w, Pipeline.arrRef spec0 w ≠ b)
    (h : StableHlo.after hostOps0 (W0 m ρ c) (Proc.devRef .tc b) = W0 m ρ c (Proc.devRef .tc b)) :
    W2 m ρ c (Proc.devRef .tc b) = m ((c : Thread nD τ).loc b) :=
  (W2_of_ne m ρ c b h2).trans (W1_keep m ρ c b h)

theorem W3_keep (c : Dev nD) (b : Ref sig .tc) (h2 : ∀ w, Pipeline.arrRef spec0 w ≠ b)
    (h : StableHlo.after hostOps0 (W0 m ρ c) (Proc.devRef .tc b) = W0 m ρ c (Proc.devRef .tc b))
    (h' : StableHlo.after hostOps1 (W2 m ρ c) (Proc.devRef .tc b) = W2 m ρ c (Proc.devRef .tc b)) :
    W3 m ρ c (Proc.devRef .tc b) = m ((c : Thread nD τ).loc b) :=
  h'.trans (W2_keep m ρ c b h2 h)

theorem W4_keep (c : Dev nD) (b : Ref sig .tc) (h2 : ∀ w, Pipeline.arrRef spec0 w ≠ b) (h4 : ∀ w, Pipeline.arrRef spec1 w ≠ b)
    (h : StableHlo.after hostOps0 (W0 m ρ c) (Proc.devRef .tc b) = W0 m ρ c (Proc.devRef .tc b))
    (h' : StableHlo.after hostOps1 (W2 m ρ c) (Proc.devRef .tc b) = W2 m ρ c (Proc.devRef .tc b)) :
    W4 m ρ c (Proc.devRef .tc b) = m ((c : Thread nD τ).loc b) :=
  (W4_of_ne m ρ c b h4).trans (W3_keep m ρ c b h2 h h')

theorem W2_arg0 (c : Dev nD) : W2 m ρ c (Proc.devRef .tc main_arg0) = m ((c : Thread nD τ).loc main_arg0) :=
  W2_keep m ρ c main_arg0 (by decide) (by host_keeps hostOps0)
theorem W2_arg1 (c : Dev nD) : W2 m ρ c (Proc.devRef .tc main_arg1) = m ((c : Thread nD τ).loc main_arg1) :=
  W2_keep m ρ c main_arg1 (by decide) (by host_keeps hostOps0)
theorem W2_arg2 (c : Dev nD) : W2 m ρ c (Proc.devRef .tc main_arg2) = m ((c : Thread nD τ).loc main_arg2) :=
  W2_keep m ρ c main_arg2 (by decide) (by host_keeps hostOps0)
theorem W2_arg8 (c : Dev nD) : W2 m ρ c (Proc.devRef .tc main_arg8) = m ((c : Thread nD τ).loc main_arg8) :=
  W2_keep m ρ c main_arg8 (by decide) (by host_keeps hostOps0)
theorem W2_arg9 (c : Dev nD) : W2 m ρ c (Proc.devRef .tc main_arg9) = m ((c : Thread nD τ).loc main_arg9) :=
  W2_keep m ρ c main_arg9 (by decide) (by host_keeps hostOps0)
theorem W2_arg10 (c : Dev nD) : W2 m ρ c (Proc.devRef .tc main_arg10) = m ((c : Thread nD τ).loc main_arg10) :=
  W2_keep m ρ c main_arg10 (by decide) (by host_keeps hostOps0)
theorem W3_arg6 (c : Dev nD) : W3 m ρ c (Proc.devRef .tc main_arg6) = m ((c : Thread nD τ).loc main_arg6) :=
  W3_keep m ρ c main_arg6 (by decide) (by host_keeps hostOps0) (by host_keeps hostOps1)
theorem W4_arg3 (c : Dev nD) : W4 m ρ c (Proc.devRef .tc main_arg3) = m ((c : Thread nD τ).loc main_arg3) :=
  W4_keep m ρ c main_arg3 (by decide) (by decide) (by host_keeps hostOps0) (by host_keeps hostOps1)
theorem W4_arg4 (c : Dev nD) : W4 m ρ c (Proc.devRef .tc main_arg4) = m ((c : Thread nD τ).loc main_arg4) :=
  W4_keep m ρ c main_arg4 (by decide) (by decide) (by host_keeps hostOps0) (by host_keeps hostOps1)
theorem W4_arg5 (c : Dev nD) : W4 m ρ c (Proc.devRef .tc main_arg5) = m ((c : Thread nD τ).loc main_arg5) :=
  W4_keep m ρ c main_arg5 (by decide) (by decide) (by host_keeps hostOps0) (by host_keeps hostOps1)
theorem W4_arg11 (c : Dev nD) : W4 m ρ c (Proc.devRef .tc main_arg11) = m ((c : Thread nD τ).loc main_arg11) :=
  W4_keep m ρ c main_arg11 (by decide) (by decide) (by host_keeps hostOps0) (by host_keeps hostOps1)
theorem W4_arg12 (c : Dev nD) : W4 m ρ c (Proc.devRef .tc main_arg12) = m ((c : Thread nD τ).loc main_arg12) :=
  W4_keep m ρ c main_arg12 (by decide) (by decide) (by host_keeps hostOps0) (by host_keeps hostOps1)
theorem W4_arg13 (c : Dev nD) : W4 m ρ c (Proc.devRef .tc main_arg13) = m ((c : Thread nD τ).loc main_arg13) :=
  W4_keep m ρ c main_arg13 (by decide) (by decide) (by host_keeps hostOps0) (by host_keeps hostOps1)
theorem W4_arg14 (c : Dev nD) : W4 m ρ c (Proc.devRef .tc main_arg14) = m ((c : Thread nD τ).loc main_arg14) :=
  W4_keep m ρ c main_arg14 (by decide) (by decide) (by host_keeps hostOps0) (by host_keeps hostOps1)

/-! ## Region 0's inputs -/

theorem W1_v12 (c : Dev nD) : W1 m ρ c (Proc.devRef .tc main_v12)
    = Cert.Chains.spmmA (m ((c : Thread nD τ).loc main_arg0)) (m ((c : Thread nD τ).loc main_arg1))
        (m ((c : Thread nD τ).loc main_arg2)) (m ((c : Thread nD τ).loc main_arg6)) := by
  unfold Cert.Chains.spmmA Cert.Chains.wrapA
  show StableHlo.after hostOps0 (W0 m ρ c) (Proc.devRef .tc main_v12) = _
  after_results_simp <;> rfl

theorem W1_v13 (c : Dev nD) : W1 m ρ c (Proc.devRef .tc main_v13) = Cert.Chains.tr256 (m ((c : Thread nD τ).loc main_arg7)) := by
  unfold Cert.Chains.tr256
  show StableHlo.after hostOps0 (W0 m ρ c) (Proc.devRef .tc main_v13) = _
  after_results_simp <;> rfl

/-! ## Region 1's inputs -/

theorem W3_v27 (c : Dev nD) : W3 m ρ c (Proc.devRef .tc main_v27)
    = Cert.Chains.spmmA (m ((c : Thread nD τ).loc main_arg0)) (m ((c : Thread nD τ).loc main_arg1))
        (m ((c : Thread nD τ).loc main_arg2)) (W2 m ρ c (Proc.devRef .tc main_v14)) := by
  rw [← W2_arg0 m ρ c, ← W2_arg1 m ρ c, ← W2_arg2 m ρ c]
  unfold Cert.Chains.spmmA Cert.Chains.wrapA
  show StableHlo.after hostOps1 (W2 m ρ c) (Proc.devRef .tc main_v27) = _
  after_results_simp <;> rfl

theorem W3_v28 (c : Dev nD) : W3 m ρ c (Proc.devRef .tc main_v28) = Cert.Chains.tr256 (m ((c : Thread nD τ).loc main_arg8)) := by
  rw [← W2_arg8 m ρ c]
  unfold Cert.Chains.tr256
  show StableHlo.after hostOps1 (W2 m ρ c) (Proc.devRef .tc main_v28) = _
  after_results_simp <;> rfl

theorem W3_v29 (c : Dev nD) (q : Fin 256) :
    W3 m ρ c (Proc.devRef .tc main_v29) (ix2 (0 : Fin 1) q) = m ((c : Thread nD τ).loc main_arg9) (ix1 q) := by
  rw [← W2_arg9 m ρ c]
  have e : W3 m ρ c (Proc.devRef .tc main_v29)
      = shapeCast S1x256 (W2 m ρ c (Proc.devRef .tc main_arg9)) Facts₀.shapeCasts_S256_S1x256 := by
    show StableHlo.after hostOps1 (W2 m ρ c) (Proc.devRef .tc main_v29) = _
    after_results_simp <;> rfl
  rw [e]
  exact shapeCast_a_1a_apply _ _ (0 : Fin 1) q

theorem W3_v30 (c : Dev nD) (q : Fin 256) :
    W3 m ρ c (Proc.devRef .tc main_v30) (ix2 (0 : Fin 1) q) = m ((c : Thread nD τ).loc main_arg10) (ix1 q) := by
  rw [← W2_arg10 m ρ c]
  have e : W3 m ρ c (Proc.devRef .tc main_v30)
      = shapeCast S1x256 (W2 m ρ c (Proc.devRef .tc main_arg10)) Facts₀.shapeCasts_S256_S1x256 := by
    show StableHlo.after hostOps1 (W2 m ρ c) (Proc.devRef .tc main_v30) = _
    after_results_simp <;> rfl
  rw [e]
  exact shapeCast_a_1a_apply _ _ (0 : Fin 1) q

/-! ## Region 2's inputs -/

theorem W5_v44 (c : Dev nD) : W5 m ρ c (Proc.devRef .tc main_v44)
    = Cert.Chains.spmmX (m ((c : Thread nD τ).loc main_arg3)) (m ((c : Thread nD τ).loc main_arg4))
        (m ((c : Thread nD τ).loc main_arg5)) (W4 m ρ c (Proc.devRef .tc main_v31)) := by
  rw [← W4_arg3 m ρ c, ← W4_arg4 m ρ c, ← W4_arg5 m ρ c]
  unfold Cert.Chains.spmmX Cert.Chains.wrapX
  show StableHlo.after hostOps2 (W4 m ρ c) (Proc.devRef .tc main_v44) = _
  after_results_simp <;> rfl

theorem W5_v45 (c : Dev nD) : W5 m ρ c (Proc.devRef .tc main_v45) = Cert.Chains.tr256 (m ((c : Thread nD τ).loc main_arg11)) := by
  rw [← W4_arg11 m ρ c]
  unfold Cert.Chains.tr256
  show StableHlo.after hostOps2 (W4 m ρ c) (Proc.devRef .tc main_v45) = _
  after_results_simp <;> rfl

theorem W5_v46 (c : Dev nD) : W5 m ρ c (Proc.devRef .tc main_v46) = Cert.Chains.tr2 (m ((c : Thread nD τ).loc main_arg13)) := by
  rw [← W4_arg13 m ρ c]
  unfold Cert.Chains.tr2
  show StableHlo.after hostOps2 (W4 m ρ c) (Proc.devRef .tc main_v46) = _
  after_results_simp <;> rfl

theorem W5_v47 (c : Dev nD) (q : Fin 256) :
    W5 m ρ c (Proc.devRef .tc main_v47) (ix2 (0 : Fin 1) q) = m ((c : Thread nD τ).loc main_arg12) (ix1 q) := by
  rw [← W4_arg12 m ρ c]
  have e : W5 m ρ c (Proc.devRef .tc main_v47)
      = shapeCast S1x256 (W4 m ρ c (Proc.devRef .tc main_arg12)) Facts₀.shapeCasts_S256_S1x256 := by
    show StableHlo.after hostOps2 (W4 m ρ c) (Proc.devRef .tc main_v47) = _
    after_results_simp <;> rfl
  rw [e]
  exact shapeCast_a_1a_apply _ _ (0 : Fin 1) q

theorem W5_v48 (c : Dev nD) (j : Fin 2) :
    W5 m ρ c (Proc.devRef .tc main_v48) (ix2 (0 : Fin 1) j) = m ((c : Thread nD τ).loc main_arg14) (ix1 j) := by
  rw [← W4_arg14 m ρ c]
  have e : W5 m ρ c (Proc.devRef .tc main_v48)
      = shapeCast S1x2 (W4 m ρ c (Proc.devRef .tc main_arg14)) Facts₀.shapeCasts_S2_S1x2 := by
    show StableHlo.after hostOps2 (W4 m ρ c) (Proc.devRef .tc main_v48) = _
    after_results_simp <;> rfl
  rw [e]
  exact shapeCast_a_1a_apply _ _ (0 : Fin 1) j

end Cert.KernelIdeal.KValue

end
-- ==== Proof.LibMatmulAt.lean ====
/-
  A matrix product with one contracted axis, read at one entry.

  For dimension numbers that contract the left operand's second axis with the right operand's first — the left
  operand [a, n], the right operand [n, b], the result [a, b], no batch axes — the entry (p, q) of the product is
  the sum over k of left (p, k) times right (k, q). The dimension numbers enter only through four facts about where
  the two operand indices sit (the left one reads the result's row and the contraction position, the right one the
  contraction position and the result's column); a caller proves those four facts for its own record, each by unfolding
  the record's two membership tests.

  `contr_sum_ix2`      the contraction's sum re-indexed by the one contracted coordinate;
  `matmul_zero_ix2`    a `tpu.matmul` into the zero accumulator at the ideal instance;
  `dotGeneral_ix2`     the host's `dot_general` at the ideal instance.
-/
import Idealize.ShloMosaic.PureOps.Ideal.Laws
import Idealize.ShloMosaic.Lib.ValueIdx

noncomputable section

open scoped BigOperators

namespace Idealize.ShloMosaic.MatmulAt

open Idealize.ShloMosaic Idealize.ShloMosaic.ValueIdx

variable {a n b : ℕ}

/-- The sum over the contraction positions of a one-axis contraction is the sum over the contracted coordinate
    `k : Fin n`, the left operand read at `(p, k)` and the right one at `(k, q)`. -/
theorem contr_sum_ix2 (D : DotDims ⟨2, ![a, n]⟩ ⟨2, ![n, b]⟩ ⟨2, ![a, b]⟩) (hr : D.contr.rank = 1)
    (hs : D.contr.size ⟨0, by omega⟩ = n)
    (hl0 : ∀ i q, (D.lhsIdx i q (0 : Fin 2)).val = (i (0 : Fin 2)).val)
    (hl1 : ∀ i q, (D.lhsIdx i q (1 : Fin 2)).val = (q ⟨0, by omega⟩).val)
    (hr0 : ∀ i q, (D.rhsIdx i q (0 : Fin 2)).val = (q ⟨0, by omega⟩).val)
    (hr1 : ∀ i q, (D.rhsIdx i q (1 : Fin 2)).val = (i (1 : Fin 2)).val)
    (l : (⟨2, ![a, n]⟩ : Shape).Idx → EReal) (r : (⟨2, ![n, b]⟩ : Shape).Idx → EReal) (p : Fin a) (q : Fin b) :
    ∑ k : D.contr.Idx, l (D.lhsIdx (ix2 p q) k) * r (D.rhsIdx (ix2 p q) k) = ∑ k : Fin n, l (ix2 p k) * r (ix2 k q) := by
  rw [← Equiv.sum_comp (contrEquiv1 D n hr hs).symm]
  refine Finset.sum_congr rfl fun k _ => ?_
  have hk := contrEquiv1_symm_val D n hr hs k
  have el : D.lhsIdx (ix2 p q) ((contrEquiv1 D n hr hs).symm k) = ix2 p k := funext fun ax => Fin.ext (by
    match ax with
    | ⟨0, _⟩ => exact hl0 _ _
    | ⟨1, _⟩ => exact (hl1 _ _).trans hk)
  have er : D.rhsIdx (ix2 p q) ((contrEquiv1 D n hr hs).symm k) = ix2 k q := funext fun ax => Fin.ext (by
    match ax with
    | ⟨0, _⟩ => exact (hr0 _ _).trans hk
    | ⟨1, _⟩ => exact hr1 _ _)
  rw [el, er]

/-- A `tpu.matmul` of an [a, n] by an [n, b] operand into the zero accumulator, at the ideal instance, read at
    `(p, q)`: the sum over `k` of left `(p, k)` times right `(k, q)`. -/
theorem matmul_zero_ix2 {φ₁ φ₂ : FTy} (D : DotDims ⟨2, ![a, n]⟩ ⟨2, ![n, b]⟩ ⟨2, ![a, b]⟩) (hr : D.contr.rank = 1)
    (hs : D.contr.size ⟨0, by omega⟩ = n)
    (hl0 : ∀ i q, (D.lhsIdx i q (0 : Fin 2)).val = (i (0 : Fin 2)).val)
    (hl1 : ∀ i q, (D.lhsIdx i q (1 : Fin 2)).val = (q ⟨0, by omega⟩).val)
    (hr0 : ∀ i q, (D.rhsIdx i q (0 : Fin 2)).val = (q ⟨0, by omega⟩).val)
    (hr1 : ∀ i q, (D.rhsIdx i q (1 : Fin 2)).val = (i (1 : Fin 2)).val)
    (prec : Option ContractPrecision) (l : FVec Ideal ⟨2, ![a, n]⟩ φ₁) (r : FVec Ideal ⟨2, ![n, b]⟩ φ₂)
    (p : Fin a) (q : Fin b) :
    matmul D prec l r (constant ⟨2, ![a, b]⟩ .f32 0x00000000#32) (ix2 p q) = ∑ k : Fin n, l (ix2 p k) * r (ix2 k q) :=
  (Ideal.matmul_constant_zero_apply D prec l r (ix2 p q)).trans (contr_sum_ix2 D hr hs hl0 hl1 hr0 hr1 l r p q)

/-- The host's `dot_general` of an [a, n] by an [n, b] operand, at the ideal instance, read at `(p, q)`: the same sum. -/
theorem dotGeneral_ix2 {φ₁ φ₂ : FTy} (D : DotDims ⟨2, ![a, n]⟩ ⟨2, ![n, b]⟩ ⟨2, ![a, b]⟩) (hr : D.contr.rank = 1)
    (hs : D.contr.size ⟨0, by omega⟩ = n)
    (hl0 : ∀ i q, (D.lhsIdx i q (0 : Fin 2)).val = (i (0 : Fin 2)).val)
    (hl1 : ∀ i q, (D.lhsIdx i q (1 : Fin 2)).val = (q ⟨0, by omega⟩).val)
    (hr0 : ∀ i q, (D.rhsIdx i q (0 : Fin 2)).val = (q ⟨0, by omega⟩).val)
    (hr1 : ∀ i q, (D.rhsIdx i q (1 : Fin 2)).val = (i (1 : Fin 2)).val)
    (prec : Option ContractPrecision) (l : FVec Ideal ⟨2, ![a, n]⟩ φ₁) (r : FVec Ideal ⟨2, ![n, b]⟩ φ₂)
    (p : Fin a) (q : Fin b) :
    Host.dotGeneral D prec l r (ix2 p q) = ∑ k : Fin n, l (ix2 p k) * r (ix2 k q) :=
  (Ideal.dotGeneral_apply D prec .single l r (ix2 p q)).trans (contr_sum_ix2 D hr hs hl0 hl1 hr0 hr1 l r p q)

end Idealize.ShloMosaic.MatmulAt

end
-- ==== Proof.LibRowSum.lean ====
/-
  Row sums read at a row.

  A sum along the columns of an `[a, b]` array, read at row `p`, is the sum over `k : Fin b` of the entries `(p, k)`:
  for a kernel's lane reduction `vector.multi_reduction <add>` over axis 1 started from the zero word (`laneSum_row`),
  and for the host's `reduce` with `add` over axis 1, which puts its initial value in front (`hostSum_row`).
  Both at the ideal instance, where a float sum is the exact sum of extended reals in any order.
  `lift_row` is the index fact under both: over row `p`, the index with column `k` put back in is `(p, k)`.
-/
import Idealize.ShloMosaic.Lib.IdealHost

namespace Cert.LibRowSum

open Idealize.ShloMosaic Idealize.ShloMosaic.ValueIdx

/-- Over row `p` of an `[a, b]` array, the index whose dropped (column) coordinate is `k` is `(p, k)`. -/
theorem lift_row {a b : ℕ} (h : (⟨2, ![a, b]⟩ : Shape).Reduces [1] ⟨1, ![a]⟩) (p : Fin a) (k : Fin b) :
    h.lift (ix1 p) k = ix2 p k := by
  funext c
  match c with
  | ⟨0, _⟩ => exact Fin.ext rfl
  | ⟨1, _⟩ => exact Fin.ext rfl

/-- A kernel's f32 lane sum over the columns, started from the zero word, read at row `p`: the sum of the row. -/
theorem laneSum_row {a b : ℕ} (v : FVec Ideal ⟨2, ![a, b]⟩ .f32) (h : (⟨2, ![a, b]⟩ : Shape).Reduces [1] ⟨1, ![a]⟩)
    (hφ : FKind.Formats .f32) (hacc : (0x00000000#32 : BitVec 32) = 0x00000000#32) (p : Fin a) :
    multiReduction .add [1] ⟨1, ![a]⟩ v 0x00000000#32 h hφ hacc (ix1 p) = ∑ k : Fin b, v (ix2 p k) :=
  (Ideal.multiReduction_add_single v 0x00000000#32 h hφ hacc (ix1 p)).trans
    (Finset.sum_congr rfl fun k _ => congrArg v (lift_row h p k))

/-- The host's float sum over the columns from the initial array `init`, read at row `p`: the initial value plus
    the sum of the row. -/
theorem hostSum_row {a b : ℕ} {u : Shape} {φ : FTy} (x : FVec Ideal ⟨2, ![a, b]⟩ φ) (init : u.Idx → Ideal φ)
    (h' : (⟨2, ![a, b]⟩ : Shape).ReducesTo [1] ⟨1, ![a]⟩) (hu : 0 < u.numel) (p : Fin a) :
    Host.reduceAdd x init h' hu (ix1 p) = init (Shape.Idx.first hu) + ∑ k : Fin b, x (ix2 p k) := by
  have h : (⟨2, ![a, b]⟩ : Shape).Reduces [1] ⟨1, ![a]⟩ := ⟨h'.1, Nat.one_pos, h'.2⟩
  refine (hostReduceAdd_apply x init h' hu (ix1 p)).trans ((Ideal.hostReduceAdd_single h' h x _ (ix1 p)).trans ?_)
  exact congrArg (init (Shape.Idx.first hu) + ·) (Finset.sum_congr rfl fun k _ => congrArg x (lift_row h p k))

end Cert.LibRowSum
-- ==== Proof.LibColumnCast.lean ====
/-
  A vector stood up as one column: the companion of the library's `shapeCast_a_1a_apply` (a vector laid down as one row).
-/
import Idealize.ShloMosaic.Lib.Pipeline.Value
import Idealize.ShloMosaic.Lib.ValueIdx

namespace Cert.LibColumnCast

open Idealize.ShloMosaic Idealize.ShloMosaic.ValueIdx

variable {α : Type}

/-- An `[a]` array cast to `[a, 1]` reads, at `(i, u)`, the operand at `i`, whatever the unit coordinate `u`:
    row-major, position `i · 1 + u` of the column is position `i` of the vector. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

end Cert.LibColumnCast
-- ==== Proof.LibColBroadcast.lean ====
/-
  One column broadcast over many: the companion of the library's row form `broadcastTo_1b_ab_apply`.
-/
import Idealize.ShloMosaic.Lib.Pipeline.Value
import Idealize.ShloMosaic.Lib.ValueIdx

namespace Cert.LibColBroadcast

open Idealize.ShloMosaic Idealize.ShloMosaic.ValueIdx

variable {α : Type}

/-- An `[a, 1]` array broadcast to `[a, b]` reads, at `(p, c)`, the operand's one column at row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.LibColBroadcast
-- ==== Proof.Payloads.lean ====
/-
  The three kernel bodies' arithmetic, read at one entry.

  Each kernel body computes one array from the arrays it loads. Read at an entry (row, column), over the
  extended reals:
  * the first body is max (Σ_k A(r,k)·Wt(k,q), 0);
  * the second is the layer-normalised residual mix plus the embedding: with h(r,k) = c₃·E(r,k) + c₇·max (Σ_l A(r,l)·Wt(l,k), 0),
    mean μ(r) = (Σ_k h(r,k)) / 256 and variance σ²(r) = (Σ_k (h(r,k) − μ(r))²) / 256, the entry is
    (h(r,q) − μ(r)) · rsqrt (σ²(r) + ε) · g(q) + b(q) + E(r,q);
  * the third is Σ_k max (Σ_l D(d,l)·Mt(l,k) + mb(k), 0) · Ct(k,j) + cb(j).
  Every step is the pointwise reading of one vector operation; a matrix product into the zero accumulator is the
  sum over the contracted coordinate, a lane sum from the zero word is the sum of the row, a column stood up from a
  vector and broadcast over the lanes reads the vector at the row, and a one-row array broadcast over the rows
  reads the row at the column.
-/
import proofs.«161495_j41652592836980_2_alg».proof.Proof.Gen.KernelIdeal.Skeleton
import proofs.«161495_j41652592836980_2_alg».proof.Proof.Spec
import proofs.«161495_j41652592836980_2_alg».proof.Proof.LibMatmulAt
import Idealize.ShloMosaic.Lib.ValueLayout
import Idealize.ShloMosaic.Lib.Pipeline.Value
import proofs.«161495_j41652592836980_2_alg».proof.Proof.LibRowSum
import proofs.«161495_j41652592836980_2_alg».proof.Proof.LibColumnCast
import proofs.«161495_j41652592836980_2_alg».proof.Proof.LibColBroadcast

noncomputable section

open scoped BigOperators

namespace Cert.Payloads

open Idealize.ShloMosaic Idealize.ShloMosaic.ValueIdx Cert.KernelIdeal Cert.KernelIdeal.Gen

/-! ## The three products' operand indices

Each product contracts the left operand's second axis with the right operand's first: the left index reads the
result's row and the contraction position, the right index the contraction position and the result's column. -/

/-- The [5000,256] by [256,256] product: one contracted axis of 256 positions. -/
abbrev Dw := dot_S5000x256_S256x256_S5000x256_1_0_0_1_n_n
/-- The [4096,256] by [256,256] product. -/
abbrev Dh := dot_S4096x256_S256x256_S4096x256_1_0_0_1_n_n
/-- The [4096,256] by [256,2] product. -/
abbrev Dc := dot_S4096x256_S256x2_S4096x2_1_0_0_1_n_n

theorem Dw_rank : Dw.contr.rank = 1 := rfl
theorem Dw_size : Dw.contr.size ⟨0, by decide⟩ = 256 := rfl
theorem Dw_l0 (i : S5000x256.Idx) (k : Dw.contr.Idx) : (Dw.lhsIdx i k (0 : Fin 2)).val = (i (0 : Fin 2)).val := by
  simp [DotDims.lhsIdx, Dw, dot_S5000x256_S256x256_S5000x256_1_0_0_1_n_n]; rfl
theorem Dw_l1 (i : S5000x256.Idx) (k : Dw.contr.Idx) : (Dw.lhsIdx i k (1 : Fin 2)).val = (k ⟨0, by decide⟩).val := by
  simp [DotDims.lhsIdx, Dw, dot_S5000x256_S256x256_S5000x256_1_0_0_1_n_n]; rfl
theorem Dw_r0 (i : S5000x256.Idx) (k : Dw.contr.Idx) : (Dw.rhsIdx i k (0 : Fin 2)).val = (k ⟨0, by decide⟩).val := by
  simp [DotDims.rhsIdx, Dw, dot_S5000x256_S256x256_S5000x256_1_0_0_1_n_n]; rfl
theorem Dw_r1 (i : S5000x256.Idx) (k : Dw.contr.Idx) : (Dw.rhsIdx i k (1 : Fin 2)).val = (i (1 : Fin 2)).val := by
  simp [DotDims.rhsIdx, Dw, dot_S5000x256_S256x256_S5000x256_1_0_0_1_n_n]; rfl

theorem Dh_rank : Dh.contr.rank = 1 := rfl
theorem Dh_size : Dh.contr.size ⟨0, by decide⟩ = 256 := rfl
theorem Dh_l0 (i : S4096x256.Idx) (k : Dh.contr.Idx) : (Dh.lhsIdx i k (0 : Fin 2)).val = (i (0 : Fin 2)).val := by
  simp [DotDims.lhsIdx, Dh, dot_S4096x256_S256x256_S4096x256_1_0_0_1_n_n]; rfl
theorem Dh_l1 (i : S4096x256.Idx) (k : Dh.contr.Idx) : (Dh.lhsIdx i k (1 : Fin 2)).val = (k ⟨0, by decide⟩).val := by
  simp [DotDims.lhsIdx, Dh, dot_S4096x256_S256x256_S4096x256_1_0_0_1_n_n]; rfl
theorem Dh_r0 (i : S4096x256.Idx) (k : Dh.contr.Idx) : (Dh.rhsIdx i k (0 : Fin 2)).val = (k ⟨0, by decide⟩).val := by
  simp [DotDims.rhsIdx, Dh, dot_S4096x256_S256x256_S4096x256_1_0_0_1_n_n]; rfl
theorem Dh_r1 (i : S4096x256.Idx) (k : Dh.contr.Idx) : (Dh.rhsIdx i k (1 : Fin 2)).val = (i (1 : Fin 2)).val := by
  simp [DotDims.rhsIdx, Dh, dot_S4096x256_S256x256_S4096x256_1_0_0_1_n_n]; rfl

theorem Dc_rank : Dc.contr.rank = 1 := rfl
theorem Dc_size : Dc.contr.size ⟨0, by decide⟩ = 256 := rfl
theorem Dc_l0 (i : S4096x2.Idx) (k : Dc.contr.Idx) : (Dc.lhsIdx i k (0 : Fin 2)).val = (i (0 : Fin 2)).val := by
  simp [DotDims.lhsIdx, Dc, dot_S4096x256_S256x2_S4096x2_1_0_0_1_n_n]; rfl
theorem Dc_l1 (i : S4096x2.Idx) (k : Dc.contr.Idx) : (Dc.lhsIdx i k (1 : Fin 2)).val = (k ⟨0, by decide⟩).val := by
  simp [DotDims.lhsIdx, Dc, dot_S4096x256_S256x2_S4096x2_1_0_0_1_n_n]; rfl
theorem Dc_r0 (i : S4096x2.Idx) (k : Dc.contr.Idx) : (Dc.rhsIdx i k (0 : Fin 2)).val = (k ⟨0, by decide⟩).val := by
  simp [DotDims.rhsIdx, Dc, dot_S4096x256_S256x2_S4096x2_1_0_0_1_n_n]; rfl
theorem Dc_r1 (i : S4096x2.Idx) (k : Dc.contr.Idx) : (Dc.rhsIdx i k (1 : Fin 2)).val = (i (1 : Fin 2)).val := by
  simp [DotDims.rhsIdx, Dc, dot_S4096x256_S256x2_S4096x2_1_0_0_1_n_n]; rfl

/-- The [5000,256] by [256,256] product into the zero accumulator, read at (r, q). -/
theorem prodW_at (l : FVec Ideal S5000x256 .f32) (w : FVec Ideal S256x256 .f32) (r : Fin 5000) (q : Fin 256) :
    matmul Dw (some .fp32) l w (constant S5000x256 .f32 0x00000000#32) (ix2 r q) = ∑ k : Fin 256, l (ix2 r k) * w (ix2 k q) :=
  MatmulAt.matmul_zero_ix2 Dw Dw_rank Dw_size Dw_l0 Dw_l1 Dw_r0 Dw_r1 (some .fp32) l w r q

/-- The [4096,256] by [256,256] product into the zero accumulator, read at (d, k). -/
theorem prodH_at (l : FVec Ideal S4096x256 .f32) (w : FVec Ideal S256x256 .f32) (d : Fin 4096) (k : Fin 256) :
    matmul Dh (some .fp32) l w (constant S4096x256 .f32 0x00000000#32) (ix2 d k) = ∑ i : Fin 256, l (ix2 d i) * w (ix2 i k) :=
  MatmulAt.matmul_zero_ix2 Dh Dh_rank Dh_size Dh_l0 Dh_l1 Dh_r0 Dh_r1 (some .fp32) l w d k

/-- The [4096,256] by [256,2] product into the zero accumulator, read at (d, j). -/
theorem prodC_at (l : FVec Ideal S4096x256 .f32) (w : FVec Ideal S256x2 .f32) (d : Fin 4096) (j : Fin 2) :
    matmul Dc (some .fp32) l w (constant S4096x2 .f32 0x00000000#32) (ix2 d j) = ∑ k : Fin 256, l (ix2 d k) * w (ix2 k j) :=
  MatmulAt.matmul_zero_ix2 Dc Dc_rank Dc_size Dc_l0 Dc_l1 Dc_r0 Dc_r1 (some .fp32) l w d j

/-! ## The first body: the relu of a product -/

theorem pay0_at (x0 : Vec Ideal S5000x256 .f32) (x1 : Vec Ideal S256x256 .f32) (r : Fin 5000) (q : Fin 256) :
    k0_pay1 (F := Ideal) x0 x1 (ix2 r q) = Cert.Spec.linReluAt (n := 5000) x0 x1 r q := by
  unfold k0_pay1 Cert.Spec.linReluAt
  rw [shapeCast_self, shapeCast_self]
  exact congrArg (fun s => max s (Ideal.ofBits .f32 0x00000000#32)) (prodW_at x0 x1 r q)

/-! ## The third body: a hidden relu layer and the classifier's product -/

/-- The hidden layer of the third body, as an array: the relu of the first product plus the bias row. -/
def hidVec (x0 : FVec Ideal S4096x256 .f32) (x2 : FVec Ideal S256x256 .f32) (x5 : FVec Ideal S1x256 .f32) : FVec Ideal S4096x256 .f32 :=
  maximumf (addf (matmul Dh (some .fp32) x0 x2 (constant S4096x256 .f32 0x00000000#32)) (broadcastTo S4096x256 x5 broadcasts_S1x256_S4096x256))
    (broadcast S4096x256 (Scalar.ofBits .f32 0x00000000#32))

/-- The hidden layer read at (d, k). -/
theorem hidVec_at (x0 : FVec Ideal S4096x256 .f32) (x2 : FVec Ideal S256x256 .f32) (x5 : FVec Ideal S1x256 .f32) (d : Fin 4096) (k : Fin 256) :
    hidVec x0 x2 x5 (ix2 d k) = Cert.Spec.hidAt (n := 4096) x0 x2 (x5 (ix2 (0 : Fin 1) k)) d k := by
  unfold Cert.Spec.hidAt
  show max (matmul Dh (some .fp32) x0 x2 (constant S4096x256 .f32 0x00000000#32) (ix2 d k)
        + broadcastTo S4096x256 x5 broadcasts_S1x256_S4096x256 (ix2 d k)) (Ideal.ofBits .f32 0x00000000#32) = _
  rw [prodH_at, broadcastTo_1b_ab_apply]

theorem pay2_at (x0 : Vec Ideal S4096x256 .f32) (x2 : Vec Ideal S256x256 .f32) (x5 : Vec Ideal S1x256 .f32) (x11 : Vec Ideal S256x2 .f32)
    (x14 : Vec Ideal S1x2 .f32) (d : Fin 4096) (j : Fin 2) :
    k2_pay1 (F := Ideal) x0 x2 x5 x11 x14 (ix2 d j)
      = Cert.Spec.clsAt (fun k => Cert.Spec.hidAt (n := 4096) x0 x2 (x5 (ix2 (0 : Fin 1) k)) d k) x11 (x14 (ix2 (0 : Fin 1) j)) j := by
  unfold k2_pay1 Cert.Spec.clsAt
  rw [shapeCast_self, shapeCast_self, shapeCast_self, shapeCast_self, shapeCast_self]
  show matmul Dc (some .fp32) (hidVec x0 x2 x5) x11 (constant S4096x2 .f32 0x00000000#32) (ix2 d j)
        + broadcastTo S4096x2 x14 broadcasts_S1x2_S4096x2 (ix2 d j) = _
  rw [prodC_at, broadcastTo_1b_ab_apply]
  exact congrArg (fun s => s + x14 (ix2 (0 : Fin 1) j))
    (Finset.sum_congr rfl fun k _ => congrArg (fun t => t * x11 (ix2 k j)) (hidVec_at x0 x2 x5 d k))

/-! ## The second body: the layer-normalised residual mix

The steps after the residual mix are stated over an arbitrary [5000,256] array `v` in the mix's place: the mean
column, the centred array, the reciprocal standard deviation's column, and the scaled and shifted result plus the
embedding. Each is read at an entry; the body is then those readings at the mix. -/

/-- The residual mix as an array: c₃ times the embedding plus c₇ times the relu of the product. -/
def mixVec (x0 : FVec Ideal S5000x256 .f32) (x2 : FVec Ideal S256x256 .f32) (x7 : FVec Ideal S5000x256 .f32) : FVec Ideal S5000x256 .f32 :=
  addf (mulf (broadcast S5000x256 (Scalar.ofBits .f32 0x3E99999A#32)) x7)
    (mulf (broadcast S5000x256 (Scalar.ofBits .f32 0x3F333333#32)) (k0_pay1 x0 x2))

/-- The residual mix read at (r, k). -/
theorem mixVec_at (x0 : FVec Ideal S5000x256 .f32) (x2 : FVec Ideal S256x256 .f32) (x7 : FVec Ideal S5000x256 .f32) (r : Fin 5000) (k : Fin 256) :
    mixVec x0 x2 x7 (ix2 r k) = Cert.Spec.hres (n := 5000) x0 x7 x2 r k := by
  unfold Cert.Spec.hres
  show Ideal.ofBits .f32 0x3E99999A#32 * x7 (ix2 r k) + Ideal.ofBits .f32 0x3F333333#32 * k0_pay1 (F := Ideal) x0 x2 (ix2 r k) = _
  rw [pay0_at]

/-- The column of row means of `v`: the lane sum stood up as a column, divided by 256. -/
def meanCol (v : FVec Ideal S5000x256 .f32) : FVec Ideal S5000x1 .f32 :=
  divf (shapeCast S5000x1 (multiReduction .add [1] S5000 v 0x00000000#32 reduces_S5000x256_S5000 (.inl rfl) rfl) shapeCasts_S5000_S5000x1)
    (broadcast S5000x1 (Scalar.ofBits .f32 0x43800000#32))

/-- The mean column at row r: the row's sum divided by 256. -/
theorem meanCol_at (v : FVec Ideal S5000x256 .f32) (r : Fin 5000) (u : Fin 1) :
    meanCol v (ix2 r u) = Ideal.div (∑ k : Fin 256, v (ix2 r k)) (Ideal.ofBits .f32 0x43800000#32) := by
  show Ideal.div (shapeCast S5000x1 (multiReduction .add [1] S5000 v 0x00000000#32 reduces_S5000x256_S5000 (.inl rfl) rfl)
      shapeCasts_S5000_S5000x1 (ix2 r u)) (Ideal.ofBits .f32 0x43800000#32) = _
  rw [Cert.LibColumnCast.shapeCast_a_a1_apply, Cert.LibRowSum.laneSum_row]

/-- `v` minus its row means broadcast over the lanes. -/
def centred (v : FVec Ideal S5000x256 .f32) : FVec Ideal S5000x256 .f32 :=
  subf v (broadcastTo S5000x256 (meanCol v) broadcasts_S5000x1_S5000x256)

theorem centred_at (v : FVec Ideal S5000x256 .f32) (r : Fin 5000) (q : Fin 256) :
    centred v (ix2 r q) = v (ix2 r q) - Ideal.div (∑ k : Fin 256, v (ix2 r k)) (Ideal.ofBits .f32 0x43800000#32) := by
  show v (ix2 r q) - broadcastTo S5000x256 (meanCol v) broadcasts_S5000x1_S5000x256 (ix2 r q) = _
  rw [Cert.LibColBroadcast.broadcastTo_a1_ab_apply, meanCol_at]

/-- The column of reciprocal standard deviations: rsqrt of the mean of the centred squares plus ε. -/
def rstdCol (v : FVec Ideal S5000x256 .f32) : FVec Ideal S5000x1 .f32 :=
  rsqrt (addf (meanCol (mulf (centred v) (centred v))) (broadcast S5000x1 (Scalar.ofBits .f32 0x3727C5AC#32)))

theorem rstdCol_at (v : FVec Ideal S5000x256 .f32) (r : Fin 5000) (u : Fin 1) :
    rstdCol v (ix2 r u)
      = Ideal.rsqrt (Ideal.div (∑ k : Fin 256, centred v (ix2 r k) * centred v (ix2 r k)) (Ideal.ofBits .f32 0x43800000#32)
          + Ideal.ofBits .f32 0x3727C5AC#32) := by
  show Ideal.rsqrt (meanCol (mulf (centred v) (centred v)) (ix2 r u) + Ideal.ofBits .f32 0x3727C5AC#32) = _
  rw [meanCol_at]
  rfl

/-- The body's last steps over `v`: centred times the reciprocal standard deviation, times the scale row, plus the
    shift row, plus the embedding. -/
def lnTail (v x7 : FVec Ideal S5000x256 .f32) (x31 x35 : FVec Ideal S1x256 .f32) : FVec Ideal S5000x256 .f32 :=
  addf (addf (mulf (mulf (centred v) (broadcastTo S5000x256 (rstdCol v) broadcasts_S5000x1_S5000x256))
      (broadcastTo S5000x256 (shapeCast S1x256 x31 shapeCasts_S1x256_S1x256) broadcasts_S1x256_S5000x256))
    (broadcastTo S5000x256 (shapeCast S1x256 x35 shapeCasts_S1x256_S1x256) broadcasts_S1x256_S5000x256)) x7

theorem lnTail_at (v x7 : FVec Ideal S5000x256 .f32) (x31 x35 : FVec Ideal S1x256 .f32) (r : Fin 5000) (q : Fin 256) :
    lnTail v x7 x31 x35 (ix2 r q)
      = centred v (ix2 r q) * rstdCol v (ix2 r (0 : Fin 1)) * x31 (ix2 (0 : Fin 1) q) + x35 (ix2 (0 : Fin 1) q) + x7 (ix2 r q) := by
  show centred v (ix2 r q) * broadcastTo S5000x256 (rstdCol v) broadcasts_S5000x1_S5000x256 (ix2 r q)
        * broadcastTo S5000x256 (shapeCast S1x256 x31 shapeCasts_S1x256_S1x256) broadcasts_S1x256_S5000x256 (ix2 r q)
      + broadcastTo S5000x256 (shapeCast S1x256 x35 shapeCasts_S1x256_S1x256) broadcasts_S1x256_S5000x256 (ix2 r q)
      + x7 (ix2 r q) = _
  rw [shapeCast_self, shapeCast_self, Cert.LibColBroadcast.broadcastTo_a1_ab_apply, broadcastTo_1b_ab_apply, broadcastTo_1b_ab_apply]

/-- The second body is its last steps at the residual mix. -/
theorem k1_pay1_eq (x0 : Vec Ideal S5000x256 .f32) (x2 : Vec Ideal S256x256 .f32) (x7 : Vec Ideal S5000x256 .f32) (x31 x35 : Vec Ideal S1x256 .f32) :
    k1_pay1 (F := Ideal) x0 x2 x7 x31 x35 = lnTail (mixVec x0 x2 x7) x7 x31 x35 := by
  unfold k1_pay1 lnTail rstdCol centred meanCol mixVec k0_pay1
  rfl

theorem pay1_at (x0 : Vec Ideal S5000x256 .f32) (x2 : Vec Ideal S256x256 .f32) (x7 : Vec Ideal S5000x256 .f32) (x31 x35 : Vec Ideal S1x256 .f32)
    (r : Fin 5000) (q : Fin 256) :
    k1_pay1 (F := Ideal) x0 x2 x7 x31 x35 (ix2 r q)
      = Cert.Spec.lnAt (n := 5000) x0 x7 x2 (x31 (ix2 (0 : Fin 1) q)) (x35 (ix2 (0 : Fin 1) q)) r q + x7 (ix2 r q) := by
  rw [k1_pay1_eq, lnTail_at, rstdCol_at]
  simp only [centred_at, mixVec_at]
  rfl

end Cert.Payloads

end
-- ==== Proof.KOut.lean ====
/-
  The kernel program's result as one function of the arguments.

  The result array is what region 2's write-backs leave; region 2 is entered with the document pooling of region 1's
  result, which is entered with the word graph's sparse product of region 0's result, which is entered with the sparse
  product of the embeddings. Each region's result is its function of the arrays it is entered with (the block-to-array
  lemmas), each host stretch is a sparse product, a transpose or a bias laid down as a row; composing them gives
  `Cert.Chains.kerOut` of the launch memory's argument arrays.
-/
import proofs.«161495_j41652592836980_2_alg».proof.Proof.Region0
import proofs.«161495_j41652592836980_2_alg».proof.Proof.Region1
import proofs.«161495_j41652592836980_2_alg».proof.Proof.Region2
import proofs.«161495_j41652592836980_2_alg».proof.Proof.Stretch
import proofs.«161495_j41652592836980_2_alg».proof.Proof.Payloads

noncomputable section

namespace Cert.KernelIdeal.KValue

open Idealize.ShloMosaic Idealize.ShloMosaic.TcCoe Idealize.ShloMosaic.ValueIdx Idealize.SL.Sem
open Cert.KernelIdeal Cert.KernelIdeal.Gen

variable (m : (ℓ : Loc nD τ sig) → Buf (Elt Ideal) ℓ) (ρ : Dev nD → PrngReg)

/-- Region 0's result: the relu product of the sparse product of the embeddings with the first weight's transpose. -/
theorem v14_eq (c : Dev nD) :
    W2 m ρ c (Proc.devRef .tc main_v14)
      = Cert.Spec.linRelu (Cert.Chains.spmmA (m ((c : Thread nD τ).loc main_arg0)) (m ((c : Thread nD τ).loc main_arg1))
          (m ((c : Thread nD τ).loc main_arg2)) (m ((c : Thread nD τ).loc main_arg6))) (Cert.Chains.tr256 (m ((c : Thread nD τ).loc main_arg7))) := by
  refine (W2_arr m ρ c 2).trans ?_
  refine (final0 (V1 m ρ) Cert.Payloads.pay0_at c).trans ?_
  show Cert.Spec.linRelu (W1 m ρ c (Proc.devRef .tc main_v12)) (W1 m ρ c (Proc.devRef .tc main_v13)) = _
  rw [W1_v12, W1_v13]

/-- Region 1's result: the layer-normalised word features plus the embeddings. -/
theorem v31_eq (c : Dev nD) :
    W4 m ρ c (Proc.devRef .tc main_v31)
      = addf (Cert.Chains.wordH (m ((c : Thread nD τ).loc main_arg0)) (m ((c : Thread nD τ).loc main_arg1))
          (m ((c : Thread nD τ).loc main_arg2)) (m ((c : Thread nD τ).loc main_arg6)) (m ((c : Thread nD τ).loc main_arg7))
          (m ((c : Thread nD τ).loc main_arg8)) (m ((c : Thread nD τ).loc main_arg9)) (m ((c : Thread nD τ).loc main_arg10)))
        (m ((c : Thread nD τ).loc main_arg6)) := by
  refine (W4_arr m ρ c 5).trans ?_
  refine (final1 (V3 m ρ) Cert.Payloads.pay1_at c).trans ?_
  show G1 (W3 m ρ c (Proc.devRef .tc main_v27)) (W3 m ρ c (Proc.devRef .tc main_arg6)) (W3 m ρ c (Proc.devRef .tc main_v28))
      (W3 m ρ c (Proc.devRef .tc main_v29)) (W3 m ρ c (Proc.devRef .tc main_v30)) = _
  rw [W3_v27, W3_arg6, W3_v28, v14_eq]
  funext i
  obtain ⟨p, q, rfl⟩ : ∃ (p : Fin 50000) (q : Fin 256), i = ix2 p q := ⟨i 0, i 1, eq_ix2 i⟩
  unfold Cert.Chains.wordH
  show Cert.Spec.lnAt _ _ _ (W3 m ρ c (Proc.devRef .tc main_v29) (ix2 (0 : Fin 1) q)) (W3 m ρ c (Proc.devRef .tc main_v30) (ix2 (0 : Fin 1) q)) p q + _
      = Cert.Spec.lnAt _ _ _ (m ((c : Thread nD τ).loc main_arg9) (ix1 q)) (m ((c : Thread nD τ).loc main_arg10) (ix1 q)) p q + _
  rw [W3_v29 m ρ c q, W3_v30 m ρ c q]

/-- The kernel program's result array. -/
theorem v49_eq (c : Dev nD) :
    W6 m ρ c (Proc.devRef .tc main_v49)
      = Cert.Chains.kerOut (m ((c : Thread nD τ).loc main_arg0)) (m ((c : Thread nD τ).loc main_arg1))
          (m ((c : Thread nD τ).loc main_arg2)) (m ((c : Thread nD τ).loc main_arg3)) (m ((c : Thread nD τ).loc main_arg4))
          (m ((c : Thread nD τ).loc main_arg5)) (m ((c : Thread nD τ).loc main_arg6)) (m ((c : Thread nD τ).loc main_arg7))
          (m ((c : Thread nD τ).loc main_arg8)) (m ((c : Thread nD τ).loc main_arg9)) (m ((c : Thread nD τ).loc main_arg10))
          (m ((c : Thread nD τ).loc main_arg11)) (m ((c : Thread nD τ).loc main_arg12)) (m ((c : Thread nD τ).loc main_arg13))
          (m ((c : Thread nD τ).loc main_arg14)) := by
  refine (W6_arr m ρ c 5).trans ?_
  refine (final2 (V5 m ρ) Cert.Payloads.pay2_at c).trans ?_
  show G2 (W5 m ρ c (Proc.devRef .tc main_v44)) (W5 m ρ c (Proc.devRef .tc main_v45)) (W5 m ρ c (Proc.devRef .tc main_v47))
      (W5 m ρ c (Proc.devRef .tc main_v46)) (W5 m ρ c (Proc.devRef .tc main_v48)) = _
  rw [W5_v44, W5_v45, W5_v46, v31_eq]
  funext i
  obtain ⟨d, j, rfl⟩ : ∃ (d : Fin 16384) (j : Fin 2), i = ix2 d j := ⟨i 0, i 1, eq_ix2 i⟩
  unfold Cert.Chains.kerOut
  show Cert.Spec.clsAt (fun k => Cert.Spec.hidAt _ _ (W5 m ρ c (Proc.devRef .tc main_v47) (ix2 (0 : Fin 1) k)) d k) _
        (W5 m ρ c (Proc.devRef .tc main_v48) (ix2 (0 : Fin 1) j)) j
      = Cert.Spec.clsAt (fun k => Cert.Spec.hidAt _ _ (m ((c : Thread nD τ).loc main_arg12) (ix1 k)) d k) _
        (m ((c : Thread nD τ).loc main_arg14) (ix1 j)) j
  rw [W5_v48 m ρ c j]
  exact congrArg (fun f => Cert.Spec.clsAt f _ _ j) (funext fun k => by rw [W5_v47 m ρ c k])

end Cert.KernelIdeal.KValue

end
-- ==== Proof.LibBcastRowCol.lean ====
/-
  Rows and columns repeated by `broadcast_in_dim`, read at an entry.

  The host lays a vector down as one row (`dims = [1]`) or stands it up as one column (`dims = [0]`) and then repeats the
  row down the rows or the column along the lanes (`dims = [0, 1]`). Read at (p, q):
  * `vecRow_apply`     an [n] vector as a [1, n] row reads, at (0, k), the vector at k;
  * `vecRows_apply`    that row repeated to [m, n] reads, at (p, k), the vector at k;
  * `vecCol_apply`     an [m] vector as an [m, 1] column reads, at (p, 0), the vector at p;
  * `colSpread_apply`  an [m, 1] column repeated to [m, n] reads, at (p, q), the column at (p, 0).
  Companions of the library's `broadcastInDim_oneRow_apply` (a [1, n] row repeated to [m, n]).
-/
import Idealize.ShloMosaic.Lib.Pipeline.Value
import Idealize.ShloMosaic.Lib.ValueIdx
import Idealize.ShloMosaic.Lib.KernelVsHost

namespace Cert.LibBcastRowCol

open Idealize.ShloMosaic Idealize.ShloMosaic.ValueIdx

variable {α : Type}

/-- A vector laid down as one row reads, at (0, k), the vector at k. -/
theorem vecRow_apply {n : ℕ} (h : (⟨1, ![n]⟩ : Shape).BroadcastsInDim ⟨2, ![1, n]⟩ ![1])
    (b : (⟨1, ![n]⟩ : Shape).Idx → α) (k : Fin n) : broadcastInDim ⟨2, ![1, n]⟩ ![1] h b (ix2 (0 : Fin 1) k) = b (ix1 k) := by
  refine broadcastInDim_apply ![1] h b (ix2 (0 : Fin 1) k) (ix1 k) ?_
  intro a
  fin_cases a
  show k.val = if n = 1 then 0 else k.val
  split_ifs with hn
  · have := k.isLt; omega
  · rfl

/-- A vector repeated down the rows reads, at (p, k), the vector at k. -/
theorem vecRows_apply {m n : ℕ} (h : (⟨1, ![n]⟩ : Shape).BroadcastsInDim ⟨2, ![1, n]⟩ ![1])
    (h' : (⟨2, ![1, n]⟩ : Shape).BroadcastsInDim ⟨2, ![m, n]⟩ ![0, 1]) (b : (⟨1, ![n]⟩ : Shape).Idx → α) (p : Fin m) (k : Fin n) :
    broadcastInDim ⟨2, ![m, n]⟩ ![0, 1] h' (broadcastInDim ⟨2, ![1, n]⟩ ![1] h b) (ix2 p k) = b (ix1 k) := by
  rw [broadcastInDim_oneRow_apply, vecRow_apply]

/-- A per-row value stood up as a column reads, at (p, 0), the value of row p. -/
theorem vecCol_apply {m : ℕ} (h : (⟨1, ![m]⟩ : Shape).BroadcastsInDim ⟨2, ![m, 1]⟩ ![0])
    (u : (⟨1, ![m]⟩ : Shape).Idx → α) (p : Fin m) : broadcastInDim ⟨2, ![m, 1]⟩ ![0] h u (ix2 p (0 : Fin 1)) = u (ix1 p) := by
  refine broadcastInDim_apply ![0] h u (ix2 p (0 : Fin 1)) (ix1 p) ?_
  intro a
  fin_cases a
  show p.val = if m = 1 then 0 else p.val
  split_ifs with hm
  · have := p.isLt; omega
  · rfl

/-- A column repeated along the rows reads, at (p, q), the column at row p. -/
theorem colSpread_apply {m n : ℕ} (h : (⟨2, ![m, 1]⟩ : Shape).BroadcastsInDim ⟨2, ![m, n]⟩ ![0, 1])
    (v : (⟨2, ![m, 1]⟩ : Shape).Idx → α) (p : Fin m) (q : Fin n) :
    broadcastInDim ⟨2, ![m, n]⟩ ![0, 1] h v (ix2 p q) = v (ix2 p (0 : Fin 1)) := by
  refine broadcastInDim_apply ![0, 1] h v (ix2 p q) (ix2 p (0 : Fin 1)) ?_
  intro a
  fin_cases a
  · show p.val = if m = 1 then 0 else p.val
    split_ifs with hm
    · have := p.isLt; omega
    · rfl
  · show (0 : ℕ) = if (1 : ℕ) = 1 then 0 else _
    simp

end Cert.LibBcastRowCol
-- ==== Proof.RefSide.lean ====
/-
  The reference program's result as the specification's function of its fifteen arguments.

  The reference is a chain of whole-array host operations. Read at an entry, its dense stages are the
  specification's: a matrix product followed by a maximum with zero is `linRelu`; the residual mix followed by the
  row mean, the row variance, the reciprocal square root and the affine map is `ln`; the two-layer head is `mlpCls`.
  Its sparse products are the host chains `spmmA` and `spmmX` verbatim, and its transposes are `tr256` and `tr2`.
  Stage by stage the value of each operation, as a function of the argument arrays, is rewritten into these, down to
  the result: `refOut` of the fifteen arguments (`ref_value`).
-/
import proofs.«161495_j41652592836980_2_alg».proof.Proof.Gen.ReferenceIdeal
import proofs.«161495_j41652592836980_2_alg».proof.Proof.Gen.ReferenceIdeal.Read
import proofs.«161495_j41652592836980_2_alg».proof.Proof.Spec
import proofs.«161495_j41652592836980_2_alg».proof.Proof.Chains
import proofs.«161495_j41652592836980_2_alg».proof.Proof.LibMatmulAt
import proofs.«161495_j41652592836980_2_alg».proof.Proof.LibRowSum
import proofs.«161495_j41652592836980_2_alg».proof.Proof.LibBcastRowCol
import Idealize.ShloMosaic.Lib.IdealHost

noncomputable section

open scoped BigOperators

namespace Cert.RefSide

open Idealize.ShloMosaic Idealize.ShloMosaic.ValueIdx Idealize.ShloMosaic.MatmulAt
open Cert.ReferenceIdeal Cert.ReferenceIdeal.Gen

/-! ## Where the operand indices of the three matrix products sit -/

section DotFacts

theorem dotW_l0 (i : S50000x256.Idx) (q : dot_S50000x256_S256x256_S50000x256_1_0_0_1_n_n.contr.Idx) :
    (dot_S50000x256_S256x256_S50000x256_1_0_0_1_n_n.lhsIdx i q (0 : Fin 2)).val = (i (0 : Fin 2)).val := by
  unfold DotDims.lhsIdx
  rw [dif_neg (show ¬(0 : Fin S50000x256.rank) ∈ dot_S50000x256_S256x256_S50000x256_1_0_0_1_n_n.lhsBatch by decide),
    dif_pos (show (0 : Fin S50000x256.rank) ∈ dot_S50000x256_S256x256_S50000x256_1_0_0_1_n_n.lhsNonContracting by decide)]
  rfl
theorem dotW_l1 (i : S50000x256.Idx) (q : dot_S50000x256_S256x256_S50000x256_1_0_0_1_n_n.contr.Idx) :
    (dot_S50000x256_S256x256_S50000x256_1_0_0_1_n_n.lhsIdx i q (1 : Fin 2)).val = (q ⟨0, by decide⟩).val :=
  dot_S50000x256_S256x256_S50000x256_1_0_0_1_n_n.lhsIdx_val_of_single rfl i q
theorem dotW_r0 (i : S50000x256.Idx) (q : dot_S50000x256_S256x256_S50000x256_1_0_0_1_n_n.contr.Idx) :
    (dot_S50000x256_S256x256_S50000x256_1_0_0_1_n_n.rhsIdx i q (0 : Fin 2)).val = (q ⟨0, by decide⟩).val :=
  dot_S50000x256_S256x256_S50000x256_1_0_0_1_n_n.rhsIdx_val_of_single rfl i q
theorem dotW_r1 (i : S50000x256.Idx) (q : dot_S50000x256_S256x256_S50000x256_1_0_0_1_n_n.contr.Idx) :
    (dot_S50000x256_S256x256_S50000x256_1_0_0_1_n_n.rhsIdx i q (1 : Fin 2)).val = (i (1 : Fin 2)).val := by
  unfold DotDims.rhsIdx
  rw [dif_neg (show ¬(1 : Fin S256x256.rank) ∈ dot_S50000x256_S256x256_S50000x256_1_0_0_1_n_n.rhsBatch by decide),
    dif_pos (show (1 : Fin S256x256.rank) ∈ dot_S50000x256_S256x256_S50000x256_1_0_0_1_n_n.rhsNonContracting by decide)]
  rfl

end DotFacts

/-! ## The relu of a matrix product -/

/-- A scalar constant broadcast to a whole array reads the constant's value everywhere. -/
theorem zeros_apply {T : Shape} (h : S_.BroadcastsInDim T ![]) (w : BitVec 32) (j : T.Idx) :
    broadcastInDim T ![] h (constant (F := Ideal) S_ .f32 w) j = Ideal.ofBits .f32 w :=
  broadcastInDim_scalar_apply h _ j

/-- The host's product of A with Wt followed by the maximum with zero is the specification's `linRelu`. -/
theorem linRelu_eq (A : FVec Ideal S50000x256 .f32) (Wt : FVec Ideal S256x256 .f32) :
    maximumf (Host.dotGeneral (F := Ideal) dot_S50000x256_S256x256_S50000x256_1_0_0_1_n_n none A Wt)
      (broadcastInDim S50000x256 ![] bcast_S_S50000x256 (constant (F := Ideal) S_ .f32 0x00000000#32))
    = Cert.Spec.linRelu A Wt := by
  funext i
  obtain ⟨p, q, rfl⟩ : ∃ p q, i = ix2 p q := ⟨i 0, i 1, eq_ix2 i⟩
  rw [maximumf_apply, zeros_apply, Cert.Spec.linRelu_ix2]
  unfold Cert.Spec.linReluAt
  exact congrArg (fun s => max s _)
    (dotGeneral_ix2 dot_S50000x256_S256x256_S50000x256_1_0_0_1_n_n rfl rfl dotW_l0 dotW_l1 dotW_r0 dotW_r1 none A Wt p q)

/-! ## The layer normalisation -/

/-- The residual mix as the reference's host chain: the embeddings scaled by c₃ plus the hidden array scaled by c₇. -/
def mixChain (H E : FVec Ideal S50000x256 .f32) : FVec Ideal S50000x256 .f32 :=
  addf (mulf (broadcastInDim S50000x256 ![] bcast_S_S50000x256 (constant (F := Ideal) S_ .f32 0x3E99999A#32)) E)
    (mulf (broadcastInDim S50000x256 ![] bcast_S_S50000x256 (constant (F := Ideal) S_ .f32 0x3F333333#32)) H)

/-- The row sums of X from zero, stood up as a column, divided by 256. -/
def rowMean (X : FVec Ideal S50000x256 .f32) : FVec Ideal S50000x1 .f32 :=
  Host.divf
    (broadcastInDim S50000x1 ![0] bcast_S50000_S50000x1_0
      (Host.reduceAdd X (constant (F := Ideal) S_ .f32 0x00000000#32) reducesTo_S50000x256_S50000_d1 h_S_))
    (broadcastInDim S50000x1 ![] bcast_S_S50000x1 (constant (F := Ideal) S_ .f32 0x43800000#32))

/-- X minus its row means. -/
def centred (X : FVec Ideal S50000x256 .f32) : FVec Ideal S50000x256 .f32 :=
  subf X (broadcastInDim S50000x256 ![0, 1] bcast_S50000x1_S50000x256_0_1 (rowMean X))

/-- The layer normalisation as the reference's host chain. -/
def lnChain (X : FVec Ideal S50000x256 .f32) (g b : FVec Ideal S256 .f32) :
    FVec Ideal S50000x256 .f32 :=
  addf
    (mulf
      (mulf (centred X)
        (broadcastInDim S50000x256 ![0, 1] bcast_S50000x1_S50000x256_0_1
          (Host.rsqrt (addf (rowMean (mulf (centred X) (centred X)))
            (broadcastInDim S50000x1 ![] bcast_S_S50000x1 (constant (F := Ideal) S_ .f32 0x3727C5AC#32))))))
      (broadcastInDim S50000x256 ![0, 1] bcast_S1x256_S50000x256_0_1 (broadcastInDim S1x256 ![1] bcast_S256_S1x256_1 g)))
    (broadcastInDim S50000x256 ![0, 1] bcast_S1x256_S50000x256_0_1 (broadcastInDim S1x256 ![1] bcast_S256_S1x256_1 b))

theorem mixChain_apply (H E : FVec Ideal S50000x256 .f32) (p : Fin 50000) (q : Fin 256) :
    mixChain H E (ix2 p q)
      = Ideal.ofBits .f32 0x3E99999A#32 * E (ix2 p q) + Ideal.ofBits .f32 0x3F333333#32 * H (ix2 p q) := by
  unfold mixChain
  rw [addf_apply, mulf_apply, mulf_apply, zeros_apply, zeros_apply]

theorem rowMean_apply (X : FVec Ideal S50000x256 .f32) (p : Fin 50000) :
    rowMean X (ix2 p (0 : Fin 1)) = Ideal.div (∑ k : Fin 256, X (ix2 p k)) (Ideal.ofBits .f32 0x43800000#32) := by
  unfold rowMean
  rw [hostDivf_apply, Cert.LibBcastRowCol.vecCol_apply, Cert.LibRowSum.hostSum_row, zeros_apply, constant_apply,
    Ideal.ofBits_zero_f32, zero_add]

theorem centred_apply (X : FVec Ideal S50000x256 .f32) (p : Fin 50000) (q : Fin 256) :
    centred X (ix2 p q)
      = X (ix2 p q) - Ideal.div (∑ k : Fin 256, X (ix2 p k)) (Ideal.ofBits .f32 0x43800000#32) := by
  unfold centred
  rw [subf_apply, Cert.LibBcastRowCol.colSpread_apply, rowMean_apply]

theorem lnChain_apply (X : FVec Ideal S50000x256 .f32) (g b : FVec Ideal S256 .f32)
    (p : Fin 50000) (q : Fin 256) :
    lnChain X g b (ix2 p q)
      = (X (ix2 p q) - Ideal.div (∑ k : Fin 256, X (ix2 p k)) (Ideal.ofBits .f32 0x43800000#32))
          * Ideal.rsqrt (Ideal.div (∑ k : Fin 256,
                (X (ix2 p k) - Ideal.div (∑ l : Fin 256, X (ix2 p l)) (Ideal.ofBits .f32 0x43800000#32))
                * (X (ix2 p k) - Ideal.div (∑ l : Fin 256, X (ix2 p l)) (Ideal.ofBits .f32 0x43800000#32)))
              (Ideal.ofBits .f32 0x43800000#32) + Ideal.ofBits .f32 0x3727C5AC#32)
          * g (ix1 q) + b (ix1 q) := by
  unfold lnChain
  rw [addf_apply, mulf_apply, mulf_apply, centred_apply, Cert.LibBcastRowCol.colSpread_apply,
    Cert.LibBcastRowCol.vecRows_apply, Cert.LibBcastRowCol.vecRows_apply]
  have hr : ∀ v : FVec Ideal S50000x1 .f32, Host.rsqrt v (ix2 p (0 : Fin 1)) = Ideal.rsqrt (v (ix2 p (0 : Fin 1))) :=
    fun _ => rfl
  rw [hr, addf_apply, rowMean_apply, zeros_apply]
  have hs : ∀ k : Fin 256, mulf (centred X) (centred X) (ix2 p k)
      = (X (ix2 p k) - Ideal.div (∑ l : Fin 256, X (ix2 p l)) (Ideal.ofBits .f32 0x43800000#32))
        * (X (ix2 p k) - Ideal.div (∑ l : Fin 256, X (ix2 p l)) (Ideal.ofBits .f32 0x43800000#32)) := fun k => by
    rw [mulf_apply, centred_apply]
  rw [Finset.sum_congr rfl fun k _ => hs k]

/-- The reference's layer-normalisation chain over the residual mix of the relu product and the embeddings is the
    specification's `ln`. -/
theorem ln_eq (A E : FVec Ideal S50000x256 .f32) (Wt : FVec Ideal S256x256 .f32)
    (g b : FVec Ideal S256 .f32) :
    lnChain (mixChain (Cert.Spec.linRelu A Wt) E) g b = Cert.Spec.ln A E Wt g b := by
  funext i
  obtain ⟨p, q, rfl⟩ : ∃ p q, i = ix2 p q := ⟨i 0, i 1, eq_ix2 i⟩
  have hx : ∀ k : Fin 256, mixChain (Cert.Spec.linRelu A Wt) E (ix2 p k) = Cert.Spec.hres A E Wt p k := fun k =>
    mixChain_apply _ _ p k
  rw [lnChain_apply, Cert.Spec.ln_ix2]
  unfold Cert.Spec.lnAt Cert.Spec.var Cert.Spec.mu
  simp only [hx]

/-! ## The document head -/

section HeadFacts

theorem dotM_l0 (i : S16384x256.Idx) (q : dot_S16384x256_S256x256_S16384x256_1_0_0_1_n_n.contr.Idx) :
    (dot_S16384x256_S256x256_S16384x256_1_0_0_1_n_n.lhsIdx i q (0 : Fin 2)).val = (i (0 : Fin 2)).val := by
  unfold DotDims.lhsIdx
  rw [dif_neg (show ¬(0 : Fin S16384x256.rank) ∈ dot_S16384x256_S256x256_S16384x256_1_0_0_1_n_n.lhsBatch by decide),
    dif_pos (show (0 : Fin S16384x256.rank) ∈ dot_S16384x256_S256x256_S16384x256_1_0_0_1_n_n.lhsNonContracting by decide)]
  rfl
theorem dotM_l1 (i : S16384x256.Idx) (q : dot_S16384x256_S256x256_S16384x256_1_0_0_1_n_n.contr.Idx) :
    (dot_S16384x256_S256x256_S16384x256_1_0_0_1_n_n.lhsIdx i q (1 : Fin 2)).val = (q ⟨0, by decide⟩).val :=
  dot_S16384x256_S256x256_S16384x256_1_0_0_1_n_n.lhsIdx_val_of_single rfl i q
theorem dotM_r0 (i : S16384x256.Idx) (q : dot_S16384x256_S256x256_S16384x256_1_0_0_1_n_n.contr.Idx) :
    (dot_S16384x256_S256x256_S16384x256_1_0_0_1_n_n.rhsIdx i q (0 : Fin 2)).val = (q ⟨0, by decide⟩).val :=
  dot_S16384x256_S256x256_S16384x256_1_0_0_1_n_n.rhsIdx_val_of_single rfl i q
theorem dotM_r1 (i : S16384x256.Idx) (q : dot_S16384x256_S256x256_S16384x256_1_0_0_1_n_n.contr.Idx) :
    (dot_S16384x256_S256x256_S16384x256_1_0_0_1_n_n.rhsIdx i q (1 : Fin 2)).val = (i (1 : Fin 2)).val := by
  unfold DotDims.rhsIdx
  rw [dif_neg (show ¬(1 : Fin S256x256.rank) ∈ dot_S16384x256_S256x256_S16384x256_1_0_0_1_n_n.rhsBatch by decide),
    dif_pos (show (1 : Fin S256x256.rank) ∈ dot_S16384x256_S256x256_S16384x256_1_0_0_1_n_n.rhsNonContracting by decide)]
  rfl

theorem dotC_l0 (i : S16384x2.Idx) (q : dot_S16384x256_S256x2_S16384x2_1_0_0_1_n_n.contr.Idx) :
    (dot_S16384x256_S256x2_S16384x2_1_0_0_1_n_n.lhsIdx i q (0 : Fin 2)).val = (i (0 : Fin 2)).val := by
  unfold DotDims.lhsIdx
  rw [dif_neg (show ¬(0 : Fin S16384x256.rank) ∈ dot_S16384x256_S256x2_S16384x2_1_0_0_1_n_n.lhsBatch by decide),
    dif_pos (show (0 : Fin S16384x256.rank) ∈ dot_S16384x256_S256x2_S16384x2_1_0_0_1_n_n.lhsNonContracting by decide)]
  rfl
theorem dotC_l1 (i : S16384x2.Idx) (q : dot_S16384x256_S256x2_S16384x2_1_0_0_1_n_n.contr.Idx) :
    (dot_S16384x256_S256x2_S16384x2_1_0_0_1_n_n.lhsIdx i q (1 : Fin 2)).val = (q ⟨0, by decide⟩).val :=
  dot_S16384x256_S256x2_S16384x2_1_0_0_1_n_n.lhsIdx_val_of_single rfl i q
theorem dotC_r0 (i : S16384x2.Idx) (q : dot_S16384x256_S256x2_S16384x2_1_0_0_1_n_n.contr.Idx) :
    (dot_S16384x256_S256x2_S16384x2_1_0_0_1_n_n.rhsIdx i q (0 : Fin 2)).val = (q ⟨0, by decide⟩).val :=
  dot_S16384x256_S256x2_S16384x2_1_0_0_1_n_n.rhsIdx_val_of_single rfl i q
theorem dotC_r1 (i : S16384x2.Idx) (q : dot_S16384x256_S256x2_S16384x2_1_0_0_1_n_n.contr.Idx) :
    (dot_S16384x256_S256x2_S16384x2_1_0_0_1_n_n.rhsIdx i q (1 : Fin 2)).val = (i (1 : Fin 2)).val := by
  unfold DotDims.rhsIdx
  rw [dif_neg (show ¬(1 : Fin S256x2.rank) ∈ dot_S16384x256_S256x2_S16384x2_1_0_0_1_n_n.rhsBatch by decide),
    dif_pos (show (1 : Fin S256x2.rank) ∈ dot_S16384x256_S256x2_S16384x2_1_0_0_1_n_n.rhsNonContracting by decide)]
  rfl

end HeadFacts

/-- The hidden layer of the head as the reference's host chain. -/
def hidChain (D : FVec Ideal S16384x256 .f32) (Mt : FVec Ideal S256x256 .f32)
    (mb : FVec Ideal S256 .f32) : FVec Ideal S16384x256 .f32 :=
  maximumf
    (addf (Host.dotGeneral (F := Ideal) dot_S16384x256_S256x256_S16384x256_1_0_0_1_n_n none D Mt)
      (broadcastInDim S16384x256 ![0, 1] bcast_S1x256_S16384x256_0_1 (broadcastInDim S1x256 ![1] bcast_S256_S1x256_1 mb)))
    (broadcastInDim S16384x256 ![] bcast_S_S16384x256 (constant (F := Ideal) S_ .f32 0x00000000#32))

theorem hidChain_apply (D : FVec Ideal S16384x256 .f32) (Mt : FVec Ideal S256x256 .f32)
    (mb : FVec Ideal S256 .f32) (d : Fin 16384) (k : Fin 256) :
    hidChain D Mt mb (ix2 d k) = Cert.Spec.hidAt D Mt (mb (ix1 k)) d k := by
  unfold hidChain Cert.Spec.hidAt
  rw [maximumf_apply, addf_apply, zeros_apply, Cert.LibBcastRowCol.vecRows_apply,
    dotGeneral_ix2 dot_S16384x256_S256x256_S16384x256_1_0_0_1_n_n rfl rfl dotM_l0 dotM_l1 dotM_r0 dotM_r1 none D Mt d k]

/-- The reference's head — product, bias, maximum with zero, product, bias — is the specification's `mlpCls`. -/
theorem mlpCls_eq (D : FVec Ideal S16384x256 .f32) (Mt : FVec Ideal S256x256 .f32)
    (mb : FVec Ideal S256 .f32) (Ct : FVec Ideal S256x2 .f32)
    (cb : FVec Ideal S2 .f32) :
    addf (Host.dotGeneral (F := Ideal) dot_S16384x256_S256x2_S16384x2_1_0_0_1_n_n none (hidChain D Mt mb) Ct)
      (broadcastInDim S16384x2 ![0, 1] bcast_S1x2_S16384x2_0_1 (broadcastInDim S1x2 ![1] bcast_S2_S1x2_1 cb))
    = Cert.Spec.mlpCls D Mt mb Ct cb := by
  funext i
  obtain ⟨d, j, rfl⟩ : ∃ d j, i = ix2 d j := ⟨i 0, i 1, eq_ix2 i⟩
  rw [addf_apply, Cert.LibBcastRowCol.vecRows_apply, Cert.Spec.mlpCls_ix2,
    dotGeneral_ix2 dot_S16384x256_S256x2_S16384x2_1_0_0_1_n_n rfl rfl dotC_l0 dotC_l1 dotC_r0 dotC_r1 none (hidChain D Mt mb) Ct d j]
  unfold Cert.Spec.clsAt
  simp only [hidChain_apply]

/-! ## The sparse products and the transposes

The reference applies the same host operations as `Chains.spmmA` / `Chains.spmmX`, with its own copies of the shape
records: the copies have the same fields, so the chains are the same functions. -/

theorem gatherA_eq : Cert.ReferenceIdeal.gather_S50000x256_S800000x1_S800000x256_1_0_n_n_0_1_1256
    = Cert.KernelIdeal.gather_S50000x256_S800000x1_S800000x256_1_0_n_n_0_1_1256 := rfl
theorem scatterA_eq : Cert.ReferenceIdeal.scatter_S50000x256_S800000x1_S800000x256_1_0_0_1
    = Cert.KernelIdeal.scatter_S50000x256_S800000x1_S800000x256_1_0_0_1 := rfl
theorem gatherX_eq : Cert.ReferenceIdeal.gather_S50000x256_S524288x1_S524288x256_1_0_n_n_0_1_1256
    = Cert.KernelIdeal.gather_S50000x256_S524288x1_S524288x256_1_0_n_n_0_1_1256 := rfl
theorem scatterX_eq : Cert.ReferenceIdeal.scatter_S16384x256_S524288x1_S524288x256_1_0_0_1
    = Cert.KernelIdeal.scatter_S16384x256_S524288x1_S524288x256_1_0_0_1 := rfl

/-- The reference's word-graph product chain. -/
def refSpmmA (rows cols : IVec S800000 32) (vals : FVec Ideal S800000 .f32)
    (H : FVec Ideal S50000x256 .f32) : FVec Ideal S50000x256 .f32 :=
  Host.scatterAdd (F := Ideal) scatter_S50000x256_S800000x1_S800000x256_1_0_0_1
    (broadcastInDim S50000x256 ![] bcast_S_S50000x256 (constant (F := Ideal) S_ .f32 0x00000000#32))
    (broadcastInDim S800000x1 ![0] bcast_S800000_S800000x1_0 rows)
    (mulf (broadcastInDim S800000x256 ![0, 1] bcast_S800000x1_S800000x256_0_1 (broadcastInDim S800000x1 ![0] bcast_S800000_S800000x1_0 vals))
      (Host.gather gather_S50000x256_S800000x1_S800000x256_1_0_n_n_0_1_1256 H
        (broadcastInDim S800000x1 ![0] bcast_S800000_S800000x1_0
          (select (cmpi .slt cols (broadcastInDim S800000 ![] bcast_S_S800000 (constantI S_ 32 0#32)))
            (addi cols (broadcastInDim S800000 ![] bcast_S_S800000 (constantI S_ 32 50000#32))) cols))))

/-- The reference's document/word product chain. -/
def refSpmmX (rows cols : IVec S524288 32) (vals : FVec Ideal S524288 .f32)
    (H : FVec Ideal S50000x256 .f32) : FVec Ideal S16384x256 .f32 :=
  Host.scatterAdd (F := Ideal) scatter_S16384x256_S524288x1_S524288x256_1_0_0_1
    (broadcastInDim S16384x256 ![] bcast_S_S16384x256 (constant (F := Ideal) S_ .f32 0x00000000#32))
    (broadcastInDim S524288x1 ![0] bcast_S524288_S524288x1_0 rows)
    (mulf (broadcastInDim S524288x256 ![0, 1] bcast_S524288x1_S524288x256_0_1 (broadcastInDim S524288x1 ![0] bcast_S524288_S524288x1_0 vals))
      (Host.gather gather_S50000x256_S524288x1_S524288x256_1_0_n_n_0_1_1256 H
        (broadcastInDim S524288x1 ![0] bcast_S524288_S524288x1_0
          (select (cmpi .slt cols (broadcastInDim S524288 ![] bcast_S_S524288 (constantI S_ 32 0#32)))
            (addi cols (broadcastInDim S524288 ![] bcast_S_S524288 (constantI S_ 32 50000#32))) cols))))

/-- The reference's word-graph product chain is `Chains.spmmA`. -/
theorem refSpmmA_eq (rows cols : IVec S800000 32) (vals : FVec Ideal S800000 .f32)
    (H : FVec Ideal S50000x256 .f32) : refSpmmA rows cols vals H = Cert.Chains.spmmA rows cols vals H := rfl

/-- The reference's document/word product chain is `Chains.spmmX`. -/
theorem refSpmmX_eq (rows cols : IVec S524288 32) (vals : FVec Ideal S524288 .f32)
    (H : FVec Ideal S50000x256 .f32) : refSpmmX rows cols vals H = Cert.Chains.spmmX rows cols vals H := rfl

/-- The reference's transposes are `Chains.tr256` and `Chains.tr2`. -/
theorem tr256_eq (W : FVec Ideal S256x256 .f32) :
    transpose S256x256 [1, 0] W transposes_S256x256_S256x256_1_0 = Cert.Chains.tr256 W := rfl
theorem tr2_eq (W : FVec Ideal S2x256 .f32) :
    transpose S256x2 [1, 0] W transposes_S2x256_S256x2_1_0 = Cert.Chains.tr2 W := rfl

/-! ## The reference's result -/

section Result

open Cert.ReferenceIdeal.Read Idealize.ShloMosaic.TcCoe Idealize.SL.Sem

variable (x0 x1 : IVec S800000 32) (x2 : FVec Ideal S800000 .f32) (x3 x4 : IVec S524288 32) (x5 : FVec Ideal S524288 .f32)
  (x6 : FVec Ideal S50000x256 .f32) (x7 x8 : FVec Ideal S256x256 .f32) (x9 x10 : FVec Ideal S256 .f32)
  (x11 : FVec Ideal S256x256 .f32) (x12 : FVec Ideal S256 .f32) (x13 : FVec Ideal S2x256 .f32) (x14 : FVec Ideal S2 .f32)

/-- %12: the word-graph product of the embeddings. -/
theorem v12_eq : val_main_v12 (F := Ideal) x0 x1 x2 x6 = Cert.Chains.spmmA x0 x1 x2 x6 := rfl

/-- %15: the first relu product. -/
theorem v15_eq : val_main_v15 (F := Ideal) x0 x1 x2 x6 x7
    = Cert.Spec.linRelu (Cert.Chains.spmmA x0 x1 x2 x6) (Cert.Chains.tr256 x7) :=
  linRelu_eq (Cert.Chains.spmmA x0 x1 x2 x6) (Cert.Chains.tr256 x7)

/-- %28: the word-graph product of the first layer. -/
theorem v28_eq : val_main_v28 (F := Ideal) x0 x1 x2 x6 x7
    = Cert.Chains.spmmA x0 x1 x2 (val_main_v15 (F := Ideal) x0 x1 x2 x6 x7) := rfl

/-- %31: the second relu product. -/
theorem v31_eq : val_main_v31 (F := Ideal) x0 x1 x2 x6 x7 x8
    = Cert.Spec.linRelu (val_main_v28 (F := Ideal) x0 x1 x2 x6 x7) (Cert.Chains.tr256 x8) :=
  linRelu_eq (val_main_v28 (F := Ideal) x0 x1 x2 x6 x7) (Cert.Chains.tr256 x8)

/-- %60 is the layer-normalisation chain over the residual mix of %31 and the embeddings. -/
theorem v60_chain : val_main_v60 (F := Ideal) x0 x1 x2 x6 x7 x8 x9 x10
    = lnChain (mixChain (val_main_v31 (F := Ideal) x0 x1 x2 x6 x7 x8) x6) x9 x10 := rfl

/-- %60: the layer-normalised word features. -/
theorem v60_eq : val_main_v60 (F := Ideal) x0 x1 x2 x6 x7 x8 x9 x10 = Cert.Chains.wordH x0 x1 x2 x6 x7 x8 x9 x10 := by
  rw [v60_chain, v31_eq, ln_eq, v28_eq, v15_eq]
  rfl

/-- %73: the pooling of the word features. -/
theorem v73_eq : val_main_v73 (F := Ideal) x0 x1 x2 x3 x4 x5 x6 x7 x8 x9 x10
    = Cert.Chains.spmmX x3 x4 x5 (val_main_v60 (F := Ideal) x0 x1 x2 x6 x7 x8 x9 x10) := rfl

/-- %86: the pooling of the embeddings. -/
theorem v86_eq : val_main_v86 (F := Ideal) x3 x4 x5 x6 = Cert.Chains.spmmX x3 x4 x5 x6 := rfl

/-- %98 is the head's chain over the sum of the two poolings. -/
theorem v98_chain : val_main_v98 (F := Ideal) x0 x1 x2 x3 x4 x5 x6 x7 x8 x9 x10 x11 x12 x13 x14
    = addf (Host.dotGeneral (F := Ideal) dot_S16384x256_S256x2_S16384x2_1_0_0_1_n_n none
        (hidChain (addf (val_main_v73 (F := Ideal) x0 x1 x2 x3 x4 x5 x6 x7 x8 x9 x10) (val_main_v86 (F := Ideal) x3 x4 x5 x6))
          (Cert.Chains.tr256 x11) x12) (Cert.Chains.tr2 x13))
      (broadcastInDim S16384x2 ![0, 1] bcast_S1x2_S16384x2_0_1 (broadcastInDim S1x2 ![1] bcast_S2_S1x2_1 x14)) := rfl

/-- %98: the reference's result as a function of its fifteen arguments. -/
theorem v98_eq : val_main_v98 (F := Ideal) x0 x1 x2 x3 x4 x5 x6 x7 x8 x9 x10 x11 x12 x13 x14
    = Cert.Chains.refOut x0 x1 x2 x3 x4 x5 x6 x7 x8 x9 x10 x11 x12 x13 x14 := by
  rw [v98_chain, mlpCls_eq, v73_eq, v86_eq, v60_eq]
  rfl

/-- The reference's run ends with its result buffer holding the specification's function `refOut` of the fifteen
    argument buffers. -/
theorem ref_value (m : (ℓ : Loc Cert.ReferenceIdeal.nD Cert.ReferenceIdeal.τ Cert.ReferenceIdeal.sig) → Buf (Elt Ideal) ℓ)
    (c : Dev Cert.ReferenceIdeal.nD) :
    Cert.ReferenceIdeal.Value.res_main_v98 (F := Ideal) m c
      = Cert.Chains.refOut (m ((c.tc : Thread Cert.ReferenceIdeal.nD Cert.ReferenceIdeal.τ).loc Cert.ReferenceIdeal.main_arg0))
          (m ((c.tc : Thread Cert.ReferenceIdeal.nD Cert.ReferenceIdeal.τ).loc Cert.ReferenceIdeal.main_arg1))
          (m ((c.tc : Thread Cert.ReferenceIdeal.nD Cert.ReferenceIdeal.τ).loc Cert.ReferenceIdeal.main_arg2))
          (m ((c.tc : Thread Cert.ReferenceIdeal.nD Cert.ReferenceIdeal.τ).loc Cert.ReferenceIdeal.main_arg3))
          (m ((c.tc : Thread Cert.ReferenceIdeal.nD Cert.ReferenceIdeal.τ).loc Cert.ReferenceIdeal.main_arg4))
          (m ((c.tc : Thread Cert.ReferenceIdeal.nD Cert.ReferenceIdeal.τ).loc Cert.ReferenceIdeal.main_arg5))
          (m ((c.tc : Thread Cert.ReferenceIdeal.nD Cert.ReferenceIdeal.τ).loc Cert.ReferenceIdeal.main_arg6))
          (m ((c.tc : Thread Cert.ReferenceIdeal.nD Cert.ReferenceIdeal.τ).loc Cert.ReferenceIdeal.main_arg7))
          (m ((c.tc : Thread Cert.ReferenceIdeal.nD Cert.ReferenceIdeal.τ).loc Cert.ReferenceIdeal.main_arg8))
          (m ((c.tc : Thread Cert.ReferenceIdeal.nD Cert.ReferenceIdeal.τ).loc Cert.ReferenceIdeal.main_arg9))
          (m ((c.tc : Thread Cert.ReferenceIdeal.nD Cert.ReferenceIdeal.τ).loc Cert.ReferenceIdeal.main_arg10))
          (m ((c.tc : Thread Cert.ReferenceIdeal.nD Cert.ReferenceIdeal.τ).loc Cert.ReferenceIdeal.main_arg11))
          (m ((c.tc : Thread Cert.ReferenceIdeal.nD Cert.ReferenceIdeal.τ).loc Cert.ReferenceIdeal.main_arg12))
          (m ((c.tc : Thread Cert.ReferenceIdeal.nD Cert.ReferenceIdeal.τ).loc Cert.ReferenceIdeal.main_arg13))
          (m ((c.tc : Thread Cert.ReferenceIdeal.nD Cert.ReferenceIdeal.τ).loc Cert.ReferenceIdeal.main_arg14)) :=
  (Cert.ReferenceIdeal.Read.val_main_v98_eq (F := Ideal) m c).trans (v98_eq _ _ _ _ _ _ _ _ _ _ _ _ _ _ _)

end Result

end Cert.RefSide

end
-- ==== Proof.LibScatterAddReindex.lean ====
/-
  The accumulating scatter on the extended reals, read at an index and carried across a re-indexing of the updates.

  At the ideal instance the host's scatter with an `add` body gives, at operand index `i`, the operand's element plus
  the sum of the update elements whose result index is `i` (start index plus window coordinate on every axis, when that
  is inside the operand). Two such scatters over ONE index array, with different layouts of operand and updates (for
  instance one the transpose of the other), agree at a pair of operand indices `i`, `i'` as soon as the operands agree
  there and a bijection of the update indices carries the updates landing on `i` onto the updates landing on `i'`, with
  equal update elements: the two sums are one sum, re-indexed.
-/
import Idealize.ShloMosaic.PureOps.Ideal
import Idealize.ShloMosaic.PureOps.Contract

namespace Cert.Lib

open Idealize.ShloMosaic

variable {w : Nat} {s si u : Shape}

/-- An update index lands at `i` exactly when its start plus window coordinate is, on every operand axis, the
    coordinate of `i`. -/
theorem resultIdx?_eq_some_iff (d : ScatterDims s si u) (j : u.Idx) (idx : IVec si w) (i : s.Idx) :
    d.resultIdx? j idx = some i ↔ ∀ a, d.start j idx a + (d.window j a : Int) = ((i a).val : Int) := by
  unfold ScatterDims.resultIdx?
  split
  · next h =>
    constructor
    · intro e a
      have e' := congrFun (Option.some.inj e) a
      have hv : (d.start j idx a + (d.window j a : Int)).toNat = (i a).val := congrArg Fin.val e'
      rw [← hv]; exact (Int.toNat_of_nonneg (h a).1).symm
    · intro e
      congr 1
      funext a
      apply Fin.ext
      show (d.start j idx a + (d.window j a : Int)).toNat = (i a).val
      rw [e a]; exact Int.toNat_natCast _
  · next h =>
    constructor
    · intro e; cases e
    · intro e
      exact absurd (fun a => by rw [e a]; exact ⟨Int.natCast_nonneg _, by exact_mod_cast (i a).isLt⟩) h

/-- The host's accumulating scatter at the ideal instance is the exact sum. -/
theorem hostScatterAdd_ideal {φ : FTy} (d : ScatterDims s si u) (x : FVec Ideal s φ) (idx : IVec si w) (upd : FVec Ideal u φ) :
    Host.scatterAdd (F := Ideal) d x idx upd = Ideal.hostScatterAdd d x idx upd := rfl

/-- TWO LAYOUTS OF ONE ACCUMULATION. Operands that agree at `i` / `i'`, and a bijection `e` of the update indices under
    which landing on `i` is landing on `i'` and the update elements correspond: the two scatters agree at `i` / `i'`. -/
theorem hostScatterAdd_reindex {s' u' : Shape} (d : ScatterDims s si u) (d' : ScatterDims s' si u')
    (x : s.Idx → EReal) (x' : s'.Idx → EReal) (idx : IVec si w) (upd : u.Idx → EReal) (upd' : u'.Idx → EReal)
    (e : u.Idx ≃ u'.Idx) (i : s.Idx) (i' : s'.Idx)
    (hx : x i = x' i') (hupd : ∀ j, upd j = upd' (e j))
    (hres : ∀ j, d.resultIdx? j idx = some i ↔ d'.resultIdx? (e j) idx = some i') :
    Ideal.hostScatterAdd d x idx upd i = Ideal.hostScatterAdd d' x' idx upd' i' := by
  unfold Ideal.hostScatterAdd
  rw [hx]
  congr 1
  exact Finset.sum_equiv e
    (fun j => by simp only [Finset.mem_filter, Finset.mem_univ, true_and]; exact hres j) (fun j _ => hupd j)

end Cert.Lib
-- ==== Proof.LibScatterRowsCols.lean ====
/-
  Where an update lands, for the two layouts of a scatter along one axis of a matrix.

  ROWS: operand [N, C], M scalar indices given as an [M, 1] array, updates [M, C]: update (r, c) lands at (idx r, c).
  COLUMNS: operand [C, N], the same indices, updates [C, M]: update (c, r) lands at (c, idx r).
  In both the index word is read signed and is not clamped: an update whose index is negative or at least N is dropped.
  So the accumulating scatter by rows, read at (p, c), and by columns, read at (c, p), of updates that are transposes
  of each other onto operands that agree there, are the same number on the extended reals.
-/
import Idealize.ShloMosaic.Lib.ValueIdx
import proofs.«161495_j41652592836980_2_alg».proof.Proof.LibScatterAddReindex

namespace Cert.Lib

open Idealize.ShloMosaic Idealize.ShloMosaic.ValueIdx

variable {N M C w : Nat}

/-- The dimension numbers of a scatter of whole rows: the update's axis 1 is the window, the operand's axis 0 is
    inserted and is the one the index names, the index vector lies along axis 1 of the index array. -/
structure IsRowScatter (d : ScatterDims ⟨2, ![N, C]⟩ ⟨2, ![M, 1]⟩ ⟨2, ![M, C]⟩) : Prop where
  uw : d.updateWindowDims = [1]
  iw : d.insertedWindowDims = [0]
  sd : d.scatterDimsToOperandDims = [0]
  iv : d.indexVectorDim = 1

/-- The dimension numbers of a scatter of whole columns: the update's axis 0 is the window, the operand's axis 1 is
    inserted and is the one the index names. -/
structure IsColScatter (d : ScatterDims ⟨2, ![C, N]⟩ ⟨2, ![M, 1]⟩ ⟨2, ![C, M]⟩) : Prop where
  uw : d.updateWindowDims = [0]
  iw : d.insertedWindowDims = [1]
  sd : d.scatterDimsToOperandDims = [1]
  iv : d.indexVectorDim = 1

private theorem mem00 : (0 : Fin 2) ∈ ([0] : List (Fin 2)) := by decide
private theorem mem10 : (1 : Fin 2) ∉ ([0] : List (Fin 2)) := by decide
private theorem mem11 : (1 : Fin 2) ∈ ([1] : List (Fin 2)) := by decide
private theorem mem01 : (0 : Fin 2) ∉ ([1] : List (Fin 2)) := by decide
private theorem kept0_1 : (1 : Fin 2) ∈ (List.finRange 2).filter (· ∉ ([0] : List (Fin 2))) := by decide
private theorem kept0_0 : (0 : Fin 2) ∉ (List.finRange 2).filter (· ∉ ([0] : List (Fin 2))) := by decide
private theorem kept1_0 : (0 : Fin 2) ∈ (List.finRange 2).filter (· ∉ ([1] : List (Fin 2))) := by decide
private theorem kept1_1 : (1 : Fin 2) ∉ (List.finRange 2).filter (· ∉ ([1] : List (Fin 2))) := by decide

/-- On the axis the index names, the window starts at the index word of the update's row, read signed. -/
theorem row_start_scat (d : ScatterDims ⟨2, ![N, C]⟩ ⟨2, ![M, 1]⟩ ⟨2, ![M, C]⟩) (hd : IsRowScatter d)
    (j : (⟨2, ![M, C]⟩ : Shape).Idx) (idx : IVec ⟨2, ![M, 1]⟩ w) :
    d.start j idx 0 = (idx (ix2 (j 0) (0 : Fin 1))).toInt := by
  obtain ⟨uw, iw, sd, iv, wf⟩ := d
  obtain ⟨h1, h2, h3, h4⟩ := hd
  dsimp only at h1 h2 h3 h4
  subst h1 h2 h3 h4
  unfold ScatterDims.start
  split
  · congr 2
    funext b
    match b with
    | ⟨0, _⟩ => rfl
    | ⟨1, _⟩ => rfl
  · next ha => exact absurd mem00 ha

/-- On the other axis it starts at zero. -/
theorem row_start_win (d : ScatterDims ⟨2, ![N, C]⟩ ⟨2, ![M, 1]⟩ ⟨2, ![M, C]⟩) (hd : IsRowScatter d)
    (j : (⟨2, ![M, C]⟩ : Shape).Idx) (idx : IVec ⟨2, ![M, 1]⟩ w) :
    d.start j idx 1 = 0 := by
  obtain ⟨uw, iw, sd, iv, wf⟩ := d
  obtain ⟨h1, h2, h3, h4⟩ := hd
  dsimp only at h1 h2 h3 h4
  subst h1 h2 h3 h4
  unfold ScatterDims.start
  split
  · next ha => exact absurd ha mem10
  · rfl

/-- The window has no extent along the axis the index names. -/
theorem row_window_scat (d : ScatterDims ⟨2, ![N, C]⟩ ⟨2, ![M, 1]⟩ ⟨2, ![M, C]⟩) (hd : IsRowScatter d)
    (j : (⟨2, ![M, C]⟩ : Shape).Idx) : d.window j 0 = 0 := by
  obtain ⟨uw, iw, sd, iv, wf⟩ := d
  obtain ⟨h1, h2, h3, h4⟩ := hd
  dsimp only at h1 h2 h3 h4
  subst h1 h2 h3 h4
  unfold ScatterDims.window
  split
  · next ha => exact absurd ha kept0_0
  · rfl

/-- Along the other axis the window coordinate is the update's. -/
theorem row_window_win (d : ScatterDims ⟨2, ![N, C]⟩ ⟨2, ![M, 1]⟩ ⟨2, ![M, C]⟩) (hd : IsRowScatter d)
    (j : (⟨2, ![M, C]⟩ : Shape).Idx) : d.window j 1 = (j 1).val := by
  obtain ⟨uw, iw, sd, iv, wf⟩ := d
  obtain ⟨h1, h2, h3, h4⟩ := hd
  dsimp only at h1 h2 h3 h4
  subst h1 h2 h3 h4
  unfold ScatterDims.window
  split
  · rfl
  · next ha => exact absurd kept0_1 ha

/-- Update (r, c) of a row scatter lands at (idx r, c). -/
theorem row_resultIdx? (d : ScatterDims ⟨2, ![N, C]⟩ ⟨2, ![M, 1]⟩ ⟨2, ![M, C]⟩) (hd : IsRowScatter d)
    (j : (⟨2, ![M, C]⟩ : Shape).Idx) (idx : IVec ⟨2, ![M, 1]⟩ w) (i : (⟨2, ![N, C]⟩ : Shape).Idx) :
    d.resultIdx? j idx = some i ↔
      (idx (ix2 (j 0) (0 : Fin 1))).toInt = ((i 0).val : Int) ∧ (j 1).val = (i 1).val := by
  rw [resultIdx?_eq_some_iff]
  constructor
  · intro H
    have Ha := H 0
    have Hb := H 1
    rw [row_start_scat d hd, row_window_scat d hd] at Ha
    rw [row_start_win d hd, row_window_win d hd] at Hb
    exact ⟨by simpa using Ha, by exact_mod_cast (by simpa using Hb : ((j 1).val : Int) = ((i 1).val : Int))⟩
  · rintro ⟨Ha, Hb⟩ x
    have ea : d.start j idx 0 + (d.window j 0 : Int) = ((i 0).val : Int) := by
      rw [row_start_scat d hd, row_window_scat d hd, Ha]; simp
    have eb : d.start j idx 1 + (d.window j 1 : Int) = ((i 1).val : Int) := by
      rw [row_start_win d hd, row_window_win d hd, Hb]; simp
    match x with
    | ⟨0, _⟩ => exact ea
    | ⟨1, _⟩ => exact eb

/-- On the axis the index names, the window starts at the index word of the update's column, read signed. -/
theorem col_start_scat (d : ScatterDims ⟨2, ![C, N]⟩ ⟨2, ![M, 1]⟩ ⟨2, ![C, M]⟩) (hd : IsColScatter d)
    (j : (⟨2, ![C, M]⟩ : Shape).Idx) (idx : IVec ⟨2, ![M, 1]⟩ w) :
    d.start j idx 1 = (idx (ix2 (j 1) (0 : Fin 1))).toInt := by
  obtain ⟨uw, iw, sd, iv, wf⟩ := d
  obtain ⟨h1, h2, h3, h4⟩ := hd
  dsimp only at h1 h2 h3 h4
  subst h1 h2 h3 h4
  unfold ScatterDims.start
  split
  · congr 2
    funext b
    match b with
    | ⟨0, _⟩ => rfl
    | ⟨1, _⟩ => rfl
  · next ha => exact absurd mem11 ha

/-- On the other axis it starts at zero. -/
theorem col_start_win (d : ScatterDims ⟨2, ![C, N]⟩ ⟨2, ![M, 1]⟩ ⟨2, ![C, M]⟩) (hd : IsColScatter d)
    (j : (⟨2, ![C, M]⟩ : Shape).Idx) (idx : IVec ⟨2, ![M, 1]⟩ w) :
    d.start j idx 0 = 0 := by
  obtain ⟨uw, iw, sd, iv, wf⟩ := d
  obtain ⟨h1, h2, h3, h4⟩ := hd
  dsimp only at h1 h2 h3 h4
  subst h1 h2 h3 h4
  unfold ScatterDims.start
  split
  · next ha => exact absurd ha mem01
  · rfl

/-- The window has no extent along the axis the index names. -/
theorem col_window_scat (d : ScatterDims ⟨2, ![C, N]⟩ ⟨2, ![M, 1]⟩ ⟨2, ![C, M]⟩) (hd : IsColScatter d)
    (j : (⟨2, ![C, M]⟩ : Shape).Idx) : d.window j 1 = 0 := by
  obtain ⟨uw, iw, sd, iv, wf⟩ := d
  obtain ⟨h1, h2, h3, h4⟩ := hd
  dsimp only at h1 h2 h3 h4
  subst h1 h2 h3 h4
  unfold ScatterDims.window
  split
  · next ha => exact absurd ha kept1_1
  · rfl

/-- Along the other axis the window coordinate is the update's. -/
theorem col_window_win (d : ScatterDims ⟨2, ![C, N]⟩ ⟨2, ![M, 1]⟩ ⟨2, ![C, M]⟩) (hd : IsColScatter d)
    (j : (⟨2, ![C, M]⟩ : Shape).Idx) : d.window j 0 = (j 0).val := by
  obtain ⟨uw, iw, sd, iv, wf⟩ := d
  obtain ⟨h1, h2, h3, h4⟩ := hd
  dsimp only at h1 h2 h3 h4
  subst h1 h2 h3 h4
  unfold ScatterDims.window
  split
  · rfl
  · next ha => exact absurd kept1_0 ha

/-- Update (c, r) of a column scatter lands at (c, idx r). -/
theorem col_resultIdx? (d : ScatterDims ⟨2, ![C, N]⟩ ⟨2, ![M, 1]⟩ ⟨2, ![C, M]⟩) (hd : IsColScatter d)
    (j : (⟨2, ![C, M]⟩ : Shape).Idx) (idx : IVec ⟨2, ![M, 1]⟩ w) (i : (⟨2, ![C, N]⟩ : Shape).Idx) :
    d.resultIdx? j idx = some i ↔
      (idx (ix2 (j 1) (0 : Fin 1))).toInt = ((i 1).val : Int) ∧ (j 0).val = (i 0).val := by
  rw [resultIdx?_eq_some_iff]
  constructor
  · intro H
    have Ha := H 1
    have Hb := H 0
    rw [col_start_scat d hd, col_window_scat d hd] at Ha
    rw [col_start_win d hd, col_window_win d hd] at Hb
    exact ⟨by simpa using Ha, by exact_mod_cast (by simpa using Hb : ((j 0).val : Int) = ((i 0).val : Int))⟩
  · rintro ⟨Ha, Hb⟩ x
    have ea : d.start j idx 1 + (d.window j 1 : Int) = ((i 1).val : Int) := by
      rw [col_start_scat d hd, col_window_scat d hd, Ha]; simp
    have eb : d.start j idx 0 + (d.window j 0 : Int) = ((i 0).val : Int) := by
      rw [col_start_win d hd, col_window_win d hd, Hb]; simp
    match x with
    | ⟨1, _⟩ => exact ea
    | ⟨0, _⟩ => exact eb

/-- The transposition of update indices, [A, B] ↔ [B, A]. -/
def swapIdx (A B : Nat) : (⟨2, ![A, B]⟩ : Shape).Idx ≃ (⟨2, ![B, A]⟩ : Shape).Idx where
  toFun j := ix2 (j 1) (j 0)
  invFun j := ix2 (j 1) (j 0)
  left_inv j := (eq_ix2 j).symm
  right_inv j := (eq_ix2 j).symm

/-- ROWS AGAINST COLUMNS: the accumulating scatter of the rows `upd` read at (p, c) is the accumulating scatter of the
    columns `upd'` read at (c, p), the updates transposes of each other and the operands equal there. -/
theorem scatterAdd_rows_eq_cols (d : ScatterDims ⟨2, ![N, C]⟩ ⟨2, ![M, 1]⟩ ⟨2, ![M, C]⟩) (hd : IsRowScatter d)
    (d' : ScatterDims ⟨2, ![C, N]⟩ ⟨2, ![M, 1]⟩ ⟨2, ![C, M]⟩) (hd' : IsColScatter d')
    (x : (⟨2, ![N, C]⟩ : Shape).Idx → EReal) (x' : (⟨2, ![C, N]⟩ : Shape).Idx → EReal) (idx : IVec ⟨2, ![M, 1]⟩ w)
    (upd : (⟨2, ![M, C]⟩ : Shape).Idx → EReal) (upd' : (⟨2, ![C, M]⟩ : Shape).Idx → EReal)
    (p : Fin N) (c : Fin C) (hx : x (ix2 p c) = x' (ix2 c p))
    (hupd : ∀ (r : Fin M) (c : Fin C), upd (ix2 r c) = upd' (ix2 c r)) :
    Ideal.hostScatterAdd d x idx upd (ix2 p c) = Ideal.hostScatterAdd d' x' idx upd' (ix2 c p) := by
  refine hostScatterAdd_reindex d d' x x' idx upd upd' (swapIdx M C) (ix2 p c) (ix2 c p) hx ?_ ?_
  · intro j
    rw [eq_ix2 j]
    exact hupd (j 0) (j 1)
  · intro j
    rw [row_resultIdx? d hd, col_resultIdx? d' hd']
    exact Iff.rfl

end Cert.Lib
-- ==== Proof.LibScatterVec.lean ====
/-
  Where an update lands, for a scatter of scalars into a vector.

  Operand [N], M scalar indices given as an [M, 1] array, updates [M]: update r lands at idx r. The index word is read
  signed and is not clamped: an update whose index is negative or at least N is dropped.
-/
import Idealize.ShloMosaic.Lib.ValueIdx
import proofs.«161495_j41652592836980_2_alg».proof.Proof.LibScatterAddReindex

namespace Cert.Lib

open Idealize.ShloMosaic Idealize.ShloMosaic.ValueIdx

variable {N M w : Nat}

/-- The dimension numbers of a scatter of scalars into a vector: no window axis in the updates, the operand's one axis
    inserted and named by the index, the index vector along axis 1 of the index array. -/
structure IsVecScatter (d : ScatterDims ⟨1, ![N]⟩ ⟨2, ![M, 1]⟩ ⟨1, ![M]⟩) : Prop where
  uw : d.updateWindowDims = []
  iw : d.insertedWindowDims = [0]
  sd : d.scatterDimsToOperandDims = [0]
  iv : d.indexVectorDim = 1

private theorem vmem00 : (0 : Fin 1) ∈ ([0] : List (Fin 1)) := by decide
private theorem vkept0 : (0 : Fin 1) ∉ (List.finRange 1).filter (· ∉ ([0] : List (Fin 1))) := by decide

/-- The window starts at the index word of the update, read signed. -/
theorem vec_start (d : ScatterDims ⟨1, ![N]⟩ ⟨2, ![M, 1]⟩ ⟨1, ![M]⟩) (hd : IsVecScatter d)
    (j : (⟨1, ![M]⟩ : Shape).Idx) (idx : IVec ⟨2, ![M, 1]⟩ w) :
    d.start j idx 0 = (idx (ix2 (j 0) (0 : Fin 1))).toInt := by
  obtain ⟨uw, iw, sd, iv, wf⟩ := d
  obtain ⟨h1, h2, h3, h4⟩ := hd
  dsimp only at h1 h2 h3 h4
  subst h1 h2 h3 h4
  unfold ScatterDims.start
  split
  · congr 2
    funext b
    match b with
    | ⟨0, _⟩ => rfl
    | ⟨1, _⟩ => rfl
  · next ha => exact absurd vmem00 ha

/-- The window has no extent. -/
theorem vec_window (d : ScatterDims ⟨1, ![N]⟩ ⟨2, ![M, 1]⟩ ⟨1, ![M]⟩) (hd : IsVecScatter d)
    (j : (⟨1, ![M]⟩ : Shape).Idx) : d.window j 0 = 0 := by
  obtain ⟨uw, iw, sd, iv, wf⟩ := d
  obtain ⟨h1, h2, h3, h4⟩ := hd
  dsimp only at h1 h2 h3 h4
  subst h1 h2 h3 h4
  unfold ScatterDims.window
  split
  · next ha => exact absurd ha vkept0
  · rfl

/-- Update r of a scatter of scalars lands at idx r. -/
theorem vec_resultIdx? (d : ScatterDims ⟨1, ![N]⟩ ⟨2, ![M, 1]⟩ ⟨1, ![M]⟩) (hd : IsVecScatter d)
    (j : (⟨1, ![M]⟩ : Shape).Idx) (idx : IVec ⟨2, ![M, 1]⟩ w) (i : (⟨1, ![N]⟩ : Shape).Idx) :
    d.resultIdx? j idx = some i ↔ (idx (ix2 (j 0) (0 : Fin 1))).toInt = ((i 0).val : Int) := by
  rw [resultIdx?_eq_some_iff]
  constructor
  · intro H
    have Ha := H 0
    rw [vec_start d hd, vec_window d hd] at Ha
    simpa using Ha
  · intro Ha x
    have ea : d.start j idx 0 + (d.window j 0 : Int) = ((i 0).val : Int) := by
      rw [vec_start d hd, vec_window d hd, Ha]; simp
    match x with
    | ⟨0, _⟩ => exact ea

end Cert.Lib
-- ==== Proof.LibScatterSum.lean ====
/-
  The accumulating scatter of whole rows, and of scalars into a vector, read at an entry as a sum over the update rows.

  For an index array with one index per update row, the entry (p, q) of a row scatter-add is the operand's entry plus
  the sum, over the update rows whose index word read signed is p, of the update's entry in column q; the entry p of a
  scatter-add of scalars is the operand's entry plus the sum of the updates whose index word is p. Rows whose index is
  negative or past the operand's last row match no p and contribute nothing.
-/
import proofs.«161495_j41652592836980_2_alg».proof.Proof.LibScatterRowsCols
import proofs.«161495_j41652592836980_2_alg».proof.Proof.LibScatterVec

namespace Cert.Lib

open Idealize.ShloMosaic Idealize.ShloMosaic.ValueIdx Finset

variable {N M C w : Nat}

/-- The row and the column of an entry of an [M, C] array, as numbers below M and C. -/
def rowOf (j : (⟨2, ![M, C]⟩ : Shape).Idx) : Fin M := j 0
def colOf (j : (⟨2, ![M, C]⟩ : Shape).Idx) : Fin C := j 1
/-- The position of an entry of an [M] array, as a number below M. -/
def posOf (j : (⟨1, ![M]⟩ : Shape).Idx) : Fin M := j 0

/-- A sum over the entries of an [M, C] array that lie in column q and whose row satisfies P is the sum over those rows. -/
theorem sum_rows_filter {A : Type*} [AddCommMonoid A] (P : Fin M → Prop) [DecidablePred P] (q : Fin C)
    (f : (⟨2, ![M, C]⟩ : Shape).Idx → A) :
    ∑ j ∈ univ.filter (fun j : (⟨2, ![M, C]⟩ : Shape).Idx => P (rowOf j) ∧ (colOf j).val = q.val), f j
      = ∑ r ∈ univ.filter P, f (ix2 r q) := by
  symm
  refine Finset.sum_bij' (fun r _ => ix2 r q) (fun j _ => rowOf j) ?_ ?_ ?_ ?_ ?_
  · intro r hr
    simp only [mem_filter, mem_univ, true_and] at hr ⊢
    exact ⟨hr, rfl⟩
  · intro j hj
    simp only [mem_filter, mem_univ, true_and] at hj ⊢
    exact hj.1
  · intro r _; rfl
  · intro j hj
    simp only [mem_filter, mem_univ, true_and] at hj
    have e : colOf j = q := Fin.ext hj.2
    rw [← e]
    exact (eq_ix2 j).symm
  · intro r _; rfl

/-- A sum over the entries of an [M] array whose position satisfies P is the sum over those positions. -/
theorem sum_entries_filter {A : Type*} [AddCommMonoid A] (P : Fin M → Prop) [DecidablePred P]
    (f : (⟨1, ![M]⟩ : Shape).Idx → A) :
    ∑ j ∈ univ.filter (fun j : (⟨1, ![M]⟩ : Shape).Idx => P (posOf j)), f j = ∑ r ∈ univ.filter P, f (ix1 r) := by
  symm
  refine Finset.sum_bij' (fun r _ => ix1 r) (fun j _ => posOf j) ?_ ?_ ?_ ?_ ?_
  · intro r hr
    simp only [mem_filter, mem_univ, true_and] at hr ⊢
    exact hr
  · intro j hj
    simp only [mem_filter, mem_univ, true_and] at hj ⊢
    exact hj
  · intro r _; rfl
  · intro j _; exact (eq_ix1 j).symm
  · intro r _; rfl

/-- A row scatter-add at the ideal instance, read at (p, q). -/
theorem rowScatterAdd_apply {φ : FTy} (d : ScatterDims ⟨2, ![N, C]⟩ ⟨2, ![M, 1]⟩ ⟨2, ![M, C]⟩) (hd : IsRowScatter d)
    (x : FVec Ideal ⟨2, ![N, C]⟩ φ) (idx : IVec ⟨2, ![M, 1]⟩ w) (upd : FVec Ideal ⟨2, ![M, C]⟩ φ) (p : Fin N) (q : Fin C) :
    Host.scatterAdd (F := Ideal) d x idx upd (ix2 p q)
      = x (ix2 p q) + ∑ r ∈ univ.filter (fun r : Fin M => (idx (ix2 r (0 : Fin 1))).toInt = (p.val : Int)), upd (ix2 r q) := by
  rw [hostScatterAdd_ideal]
  unfold Ideal.hostScatterAdd
  congr 1
  rw [← sum_rows_filter (fun r : Fin M => (idx (ix2 r (0 : Fin 1))).toInt = (p.val : Int)) q upd]
  refine Finset.sum_congr ?_ (fun _ _ => rfl)
  ext j
  simp only [mem_filter, mem_univ, true_and]
  exact row_resultIdx? d hd j idx (ix2 p q)

/-- A scatter-add of scalars into a vector at the ideal instance, read at p. -/
theorem vecScatterAdd_apply {φ : FTy} (d : ScatterDims ⟨1, ![N]⟩ ⟨2, ![M, 1]⟩ ⟨1, ![M]⟩) (hd : IsVecScatter d)
    (x : FVec Ideal ⟨1, ![N]⟩ φ) (idx : IVec ⟨2, ![M, 1]⟩ w) (upd : FVec Ideal ⟨1, ![M]⟩ φ) (p : Fin N) :
    Host.scatterAdd (F := Ideal) d x idx upd (ix1 p)
      = x (ix1 p) + ∑ r ∈ univ.filter (fun r : Fin M => (idx (ix2 r (0 : Fin 1))).toInt = (p.val : Int)), upd (ix1 r) := by
  rw [hostScatterAdd_ideal]
  unfold Ideal.hostScatterAdd
  congr 1
  rw [← sum_entries_filter (fun r : Fin M => (idx (ix2 r (0 : Fin 1))).toInt = (p.val : Int)) upd]
  refine Finset.sum_congr ?_ (fun _ _ => rfl)
  ext j
  simp only [mem_filter, mem_univ, true_and]
  exact vec_resultIdx? d hd j idx (ix1 p)

end Cert.Lib
-- ==== Proof.LibGatherRows.lean ====
/-
  A gather of whole rows of a matrix, and of entries of a vector, by one index per row of an [M, 1] index array,
  read at an index.

  ROWS: operand [N, C], indices [M, 1], result [M, C]: entry (e, j) is the operand at (clamp (idx e), j).
  ENTRIES: operand [N], the same indices, result [M]: entry e is the operand at clamp (idx e).
  In both the index word is read signed and clamped into [0, N − 1] (a negative word to 0), the same clamp for the
  two layouts: a row gathered from a matrix and an entry gathered from a vector by one index array come from one row.
-/
import Idealize.ShloMosaic.Lib.ValueIdx

namespace Cert.Lib

open Idealize.ShloMosaic Idealize.ShloMosaic.ValueIdx

variable {N M C w : Nat} {α : Type}

/-- The row the index word of entry `e` names, read signed and clamped into the operand. -/
def clampRow (N : Nat) (hN : 0 < N) (idx : IVec ⟨2, ![M, 1]⟩ w) (e : Fin M) : Fin N :=
  ⟨min (idx (ix2 e (0 : Fin 1))).toInt.toNat (N - 1), by omega⟩

/-- A word that is a row number, read signed, clamps to that row. -/
theorem clampRow_of_toInt (hN : 0 < N) (idx : IVec ⟨2, ![M, 1]⟩ w) (e : Fin M) (p : Fin N)
    (h : (idx (ix2 e (0 : Fin 1))).toInt = (p.val : Int)) : clampRow N hN idx e = p := by
  apply Fin.ext
  show min (idx (ix2 e (0 : Fin 1))).toInt.toNat (N - 1) = p.val
  rw [h, Int.toNat_natCast]
  have := p.isLt
  omega

/-- The clamped row depends only on the index words. -/
theorem clampRow_congr (hN : 0 < N) (idx idx' : IVec ⟨2, ![M, 1]⟩ w) (e : Fin M)
    (h : idx (ix2 e (0 : Fin 1)) = idx' (ix2 e (0 : Fin 1))) : clampRow N hN idx e = clampRow N hN idx' e := by
  apply Fin.ext
  show min (idx (ix2 e (0 : Fin 1))).toInt.toNat (N - 1) = min (idx' (ix2 e (0 : Fin 1))).toInt.toNat (N - 1)
  rw [h]

/-- The dimension numbers of a gather of whole rows, as a record over given sizes. -/
abbrev rowDims (N M C : Nat) (wf : GatherDims.WF ⟨2, ![N, C]⟩ ⟨2, ![M, 1]⟩ ⟨2, ![M, C]⟩ [1] [0] [] [0] [] 1 ![1, C]) :
    GatherDims ⟨2, ![N, C]⟩ ⟨2, ![M, 1]⟩ ⟨2, ![M, C]⟩ where
  offsetDims := [1]
  collapsedSliceDims := [0]
  operandBatchingDims := []
  startIndicesBatchingDims := []
  startIndexMap := [0]
  indexVectorDim := 1
  sliceSizes := ![1, C]
  wf := wf

/-- The dimension numbers of a gather of entries of a vector. -/
abbrev vecDims (N M : Nat) (wf : GatherDims.WF ⟨1, ![N]⟩ ⟨2, ![M, 1]⟩ ⟨1, ![M]⟩ [] [0] [] [0] [] 1 ![1]) :
    GatherDims ⟨1, ![N]⟩ ⟨2, ![M, 1]⟩ ⟨1, ![M]⟩ where
  offsetDims := []
  collapsedSliceDims := [0]
  operandBatchingDims := []
  startIndicesBatchingDims := []
  startIndexMap := [0]
  indexVectorDim := 1
  sliceSizes := ![1]
  wf := wf

theorem rowDims_gather_apply (hN : 0 < N) (wf : GatherDims.WF ⟨2, ![N, C]⟩ ⟨2, ![M, 1]⟩ ⟨2, ![M, C]⟩ [1] [0] [] [0] [] 1 ![1, C])
    (x : (⟨2, ![N, C]⟩ : Shape).Idx → α) (idx : IVec ⟨2, ![M, 1]⟩ w) (e : Fin M) (j : Fin C) :
    Host.gather (rowDims N M C wf) x idx (ix2 e j) = x (ix2 (clampRow N hN idx e) j) := by
  unfold Host.gather
  congr 1
  funext a
  refine Fin.ext ?_
  match a with
  | ⟨0, _⟩ =>
    show (rowDims N M C wf).start (ix2 e j) idx 0 + (rowDims N M C wf).batchCoord (ix2 e j) 0 + (rowDims N M C wf).offCoord (ix2 e j) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowDims N M C wf).startIndexMap from List.mem_singleton.mpr rfl)]
    have hsi : (rowDims N M C wf).siIdx (ix2 e j) ⟨List.idxOf (0 : Fin 2) (rowDims N M C wf).startIndexMap,
        List.idxOf_lt_length_iff.2 (List.mem_singleton.mpr rfl)⟩ = ix2 e (0 : Fin 1) := by
      funext b; refine Fin.ext ?_
      match b with
      | ⟨0, _⟩ => rfl
      | ⟨1, _⟩ => rfl
    rw [hsi]
    rfl
  | ⟨1, _⟩ =>
    show (rowDims N M C wf).start (ix2 e j) idx 1 + (rowDims N M C wf).batchCoord (ix2 e j) 1 + (rowDims N M C wf).offCoord (ix2 e j) 1 = j.val
    rw [GatherDims.batchCoord_eq_zero _ _ _ List.not_mem_nil]
    unfold GatherDims.start GatherDims.offCoord
    rw [dif_neg (show ¬ (1 : Fin 2) ∈ (rowDims N M C wf).startIndexMap from (by decide : ¬ (1 : Fin 2) ∈ ([0] : List (Fin 2)))),
      dif_pos (show (1 : Fin 2) ∈ (rowDims N M C wf).sKept from
        (by decide : (1 : Fin 2) ∈ (List.finRange 2).filter (· ∉ (([0] : List (Fin 2)) ++ []))))]
    simp only [Nat.zero_add, Nat.add_zero]
    rfl

theorem vecDims_gather_apply (hN : 0 < N) (wf : GatherDims.WF ⟨1, ![N]⟩ ⟨2, ![M, 1]⟩ ⟨1, ![M]⟩ [] [0] [] [0] [] 1 ![1])
    (x : (⟨1, ![N]⟩ : Shape).Idx → α) (idx : IVec ⟨2, ![M, 1]⟩ w) (e : Fin M) :
    Host.gather (vecDims N M wf) x idx (ix1 e) = x (ix1 (clampRow N hN idx e)) := by
  unfold Host.gather
  congr 1
  funext a
  refine Fin.ext ?_
  match a with
  | ⟨0, _⟩ =>
    show (vecDims N M wf).start (ix1 e) idx 0 + (vecDims N M wf).batchCoord (ix1 e) 0 + (vecDims N M wf).offCoord (ix1 e) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 1) ∈ (vecDims N M wf).startIndexMap from List.mem_singleton.mpr rfl)]
    have hsi : (vecDims N M wf).siIdx (ix1 e) ⟨List.idxOf (0 : Fin 1) (vecDims N M wf).startIndexMap,
        List.idxOf_lt_length_iff.2 (List.mem_singleton.mpr rfl)⟩ = ix2 e (0 : Fin 1) := by
      funext b; refine Fin.ext ?_
      match b with
      | ⟨0, _⟩ => rfl
      | ⟨1, _⟩ => rfl
    rw [hsi]
    rfl

/-- The dimension numbers of a gather of whole rows. -/
structure IsRowGather (d : GatherDims ⟨2, ![N, C]⟩ ⟨2, ![M, 1]⟩ ⟨2, ![M, C]⟩) : Prop where
  od : d.offsetDims = [1]
  cs : d.collapsedSliceDims = [0]
  ob : d.operandBatchingDims = []
  sb : d.startIndicesBatchingDims = []
  sm : d.startIndexMap = [0]
  iv : d.indexVectorDim = 1
  ss : d.sliceSizes = ![1, C]

/-- The dimension numbers of a gather of entries of a vector. -/
structure IsVecGather (d : GatherDims ⟨1, ![N]⟩ ⟨2, ![M, 1]⟩ ⟨1, ![M]⟩) : Prop where
  od : d.offsetDims = []
  cs : d.collapsedSliceDims = [0]
  ob : d.operandBatchingDims = []
  sb : d.startIndicesBatchingDims = []
  sm : d.startIndexMap = [0]
  iv : d.indexVectorDim = 1
  ss : d.sliceSizes = ![1]

/-- A gather of rows read at (e, j): the operand at (the clamped row idx e, j). -/
theorem row_gather_apply (hN : 0 < N) (d : GatherDims ⟨2, ![N, C]⟩ ⟨2, ![M, 1]⟩ ⟨2, ![M, C]⟩) (hd : IsRowGather d)
    (x : (⟨2, ![N, C]⟩ : Shape).Idx → α) (idx : IVec ⟨2, ![M, 1]⟩ w) (e : Fin M) (j : Fin C) :
    Host.gather d x idx (ix2 e j) = x (ix2 (clampRow N hN idx e) j) := by
  obtain ⟨od, cs, ob, sb, sm, iv, ss, wf⟩ := d
  obtain ⟨h1, h2, h3, h4, h5, h6, h7⟩ := hd
  dsimp only at h1 h2 h3 h4 h5 h6 h7
  subst h1 h2 h3 h4 h5 h6 h7
  exact rowDims_gather_apply hN wf x idx e j

/-- A gather of entries read at e: the operand at the clamped index idx e. -/
theorem vec_gather_apply (hN : 0 < N) (d : GatherDims ⟨1, ![N]⟩ ⟨2, ![M, 1]⟩ ⟨1, ![M]⟩) (hd : IsVecGather d)
    (x : (⟨1, ![N]⟩ : Shape).Idx → α) (idx : IVec ⟨2, ![M, 1]⟩ w) (e : Fin M) :
    Host.gather d x idx (ix1 e) = x (ix1 (clampRow N hN idx e)) := by
  obtain ⟨od, cs, ob, sb, sm, iv, ss, wf⟩ := d
  obtain ⟨h1, h2, h3, h4, h5, h6, h7⟩ := hd
  dsimp only at h1 h2 h3 h4 h5 h6 h7
  subst h1 h2 h3 h4 h5 h6 h7
  exact vecDims_gather_apply hN wf x idx e

end Cert.Lib
-- ==== Proof.LibPoolSplit.lean ====
/-
  A row scatter-add of weighted gathered rows distributes over a sum of two gathered arrays.

  `real_mul_add`: on the extended reals a REAL factor distributes over a sum whose second term is real, whatever the
  first term is: x · (a + b) = x · a + x · b for real x, b and any extended real a (at a = ±∞ both sides are the same
  infinity, or 0 when x = 0). `scatter_mul_gather_add`: at the ideal instance, for an [M,1] index array, a row
  scatter-add onto an all-zero [N,C] array of V · gather(A + B) is the sum of the scatter-adds of V · gather A and
  V · gather B, entry by entry, when V and B are real: a sparse matrix applied to a sum of two dense arrays is the sum of
  the two products (segment_sum(vals[:,None] * (A + B)[cols], rows) = the same of A plus the same of B). Over
  LibScatterSum's rowScatterAdd_apply and LibGatherRows' row_gather_apply; any sizes N, M, C, K and index width.
-/
import proofs.«161495_j41652592836980_2_alg».proof.Proof.LibScatterSum
import proofs.«161495_j41652592836980_2_alg».proof.Proof.LibGatherRows

namespace Cert.LibPoolSplit

open Idealize.ShloMosaic Idealize.ShloMosaic.ValueIdx Cert.Lib Finset

/-- A real factor distributes over a sum whose second term is real, whatever the first term is. -/
theorem real_mul_add (x b : ℝ) (a : EReal) : (x : EReal) * (a + (b : EReal)) = (x : EReal) * a + (x : EReal) * (b : EReal) := by
  induction a using EReal.rec with
  | bot =>
    rw [EReal.bot_add]
    rcases lt_trichotomy x 0 with hx | hx | hx
    · rw [EReal.coe_mul_bot_of_neg hx, ← EReal.coe_mul, EReal.top_add_coe]
    · subst hx
      simp
    · rw [EReal.coe_mul_bot_of_pos hx, EReal.bot_add]
  | coe a =>
    rw [← EReal.coe_add, ← EReal.coe_mul, ← EReal.coe_mul, ← EReal.coe_mul, ← EReal.coe_add, mul_add]
  | top =>
    rw [EReal.top_add_coe]
    rcases lt_trichotomy x 0 with hx | hx | hx
    · rw [EReal.coe_mul_top_of_neg hx, EReal.bot_add]
    · subst hx
      simp
    · rw [EReal.coe_mul_top_of_pos hx, ← EReal.coe_mul, EReal.top_add_coe]

variable {N M C K w : Nat}

/-- A row scatter-add onto zeros of (values · gathered rows) splits over a sum of two gathered arrays, the values and the
    second array real. -/
theorem scatter_mul_gather_add (d : ScatterDims ⟨2, ![N, C]⟩ ⟨2, ![M, 1]⟩ ⟨2, ![M, C]⟩) (hd : IsRowScatter d)
    (g : GatherDims ⟨2, ![K, C]⟩ ⟨2, ![M, 1]⟩ ⟨2, ![M, C]⟩) (hg : IsRowGather g) (hK : 0 < K)
    (Z : FVec Ideal ⟨2, ![N, C]⟩ .f32) (hZ : ∀ i, Z i = 0) (ridx cidx : IVec ⟨2, ![M, 1]⟩ w)
    (V : FVec Ideal ⟨2, ![M, C]⟩ .f32) (hV : ∀ i, ∃ r : ℝ, V i = (r : EReal))
    (A B : FVec Ideal ⟨2, ![K, C]⟩ .f32) (hB : ∀ i, ∃ r : ℝ, B i = (r : EReal)) :
    Host.scatterAdd (F := Ideal) d Z ridx (mulf V (Host.gather g (addf A B) cidx))
      = addf (Host.scatterAdd (F := Ideal) d Z ridx (mulf V (Host.gather g A cidx)))
          (Host.scatterAdd (F := Ideal) d Z ridx (mulf V (Host.gather g B cidx))) := by
  funext j
  obtain ⟨p, q, rfl⟩ : ∃ (p : Fin N) (q : Fin C), j = ix2 p q := ⟨j 0, j 1, eq_ix2 j⟩
  rw [addf_apply, rowScatterAdd_apply d hd, rowScatterAdd_apply d hd, rowScatterAdd_apply d hd, hZ, zero_add, zero_add,
    zero_add, ← Finset.sum_add_distrib]
  refine Finset.sum_congr rfl (fun r _ => ?_)
  rw [mulf_apply, mulf_apply, mulf_apply, row_gather_apply hK g hg, row_gather_apply hK g hg, row_gather_apply hK g hg,
    addf_apply]
  obtain ⟨x, hx⟩ := hV (ix2 r q)
  obtain ⟨b, hb⟩ := hB (ix2 (clampRow K hK cidx r) q)
  rw [hx, hb]
  exact real_mul_add x b _

end Cert.LibPoolSplit
-- ==== Proof.Pooling.lean ====
/-
  The one algebraic law: pooling a sum of two feature arrays with the sparse document matrix is the sum of the poolings.

  Entry (d, j) of the sparse product is 0 plus the sum, over the matrix's entries e whose row word is d, of
  vals(e) · H(col(e), j), the column clamped into the array. On the extended reals x · (a + b) = x · a + x · b when x and b
  are real (a arbitrary), so with real matrix values and a real second summand the products split entry by entry, and
  a finite sum of sums is the sum of the sums.
-/
import proofs.«161495_j41652592836980_2_alg».proof.Proof.Chains
import proofs.«161495_j41652592836980_2_alg».proof.Proof.LibScatterSum
import proofs.«161495_j41652592836980_2_alg».proof.Proof.LibGatherRows
import proofs.«161495_j41652592836980_2_alg».proof.Proof.LibBcastRowCol
import proofs.«161495_j41652592836980_2_alg».proof.Proof.LibPoolSplit

namespace Cert.Pooling

open Idealize.ShloMosaic Idealize.ShloMosaic.ValueIdx Cert.KernelIdeal Cert.Lib Cert.LibPoolSplit Finset

/-- Pooling (word features + embeddings) with the document matrix is pooling each and adding. -/
theorem spmmX_add (rows cols : IVec S524288 32) (vals : FVec Ideal S524288 .f32)
    (Wd E : FVec Ideal S50000x256 .f32) (hv : ∀ i, ∃ r : ℝ, vals i = (r : EReal))
    (hE : ∀ i, ∃ r : ℝ, E i = (r : EReal)) :
    Cert.Chains.spmmX rows cols vals (addf Wd E)
      = addf (Cert.Chains.spmmX rows cols vals Wd) (Cert.Chains.spmmX rows cols vals E) := by
  unfold Cert.Chains.spmmX
  refine scatter_mul_gather_add _ ⟨rfl, rfl, rfl, rfl⟩ _ ⟨rfl, rfl, rfl, rfl, rfl, rfl, rfl⟩ (by norm_num) _ ?_ _ _ _ ?_ Wd E hE
  · intro i
    refine (broadcastInDim_apply _ _ _ i ix0 (fun a => a.elim0)).trans ?_
    exact Ideal.ofBits_zero_f32
  · intro i
    obtain ⟨r, c, rfl⟩ : ∃ (r : Fin 524288) (c : Fin 256), i = ix2 r c := ⟨i 0, i 1, eq_ix2 i⟩
    rw [Cert.LibBcastRowCol.colSpread_apply, Cert.LibBcastRowCol.vecCol_apply]
    exact hv _

end Cert.Pooling
-- ==== Proof.Bridge.lean ====
/-
  The two programs compute one function: the kernel pools (word features + embeddings) once, the reference pools each
  and adds, and the pooling distributes over the sum when the pooling weights and the embeddings are real numbers.
-/
import proofs.«161495_j41652592836980_2_alg».proof.Proof.Chains
import proofs.«161495_j41652592836980_2_alg».proof.Proof.Pooling

noncomputable section

namespace Cert.Bridge

open Idealize.ShloMosaic Cert.KernelIdeal

/-- With real pooling weights `a5` and real embeddings `a6` the kernel program's result is the reference's. -/
theorem kerOut_eq_refOut (a0 a1 : IVec S800000 32) (a2 : FVec Ideal S800000 .f32) (a3 a4 : IVec S524288 32)
    (a5 : FVec Ideal S524288 .f32) (a6 : FVec Ideal S50000x256 .f32) (a7 a8 : FVec Ideal S256x256 .f32)
    (a9 a10 : FVec Ideal S256 .f32) (a11 : FVec Ideal S256x256 .f32) (a12 : FVec Ideal S256 .f32)
    (a13 : FVec Ideal S2x256 .f32) (a14 : FVec Ideal S2 .f32)
    (h5 : ∀ i, ∃ r : ℝ, a5 i = (r : EReal)) (h6 : ∀ i, ∃ r : ℝ, a6 i = (r : EReal)) :
    Cert.Chains.kerOut a0 a1 a2 a3 a4 a5 a6 a7 a8 a9 a10 a11 a12 a13 a14
      = Cert.Chains.refOut a0 a1 a2 a3 a4 a5 a6 a7 a8 a9 a10 a11 a12 a13 a14 := by
  unfold Cert.Chains.kerOut Cert.Chains.refOut
  rw [Cert.Pooling.spmmX_add a3 a4 a5 _ a6 h5 h6]

end Cert.Bridge

end
-- ==== Proof.LibFinite.lean ====
/-
  GENERAL LEMMAS: a printed "is finite" test read back over the extended reals. At the ideal instance a float is an
  extended real, `|x|` is `max x (-x)`, a comparison is the linear order's, and the word 0x7F800000 denotes `+∞`. So the
  one-bit word of `|x| < +∞` being 1 says that `x` is a real number. Nothing here mentions a program.
-/
import Idealize.ShloMosaic.PureOps.Ideal

noncomputable section

namespace Cert.Lib.Finite

open Idealize.ShloMosaic

/-- The scalar shape has one index. -/
instance : Subsingleton (⟨0, ![]⟩ : Shape).Idx := ⟨fun a b => funext fun d => d.elim0⟩

/-- The word 0x7F800000 denotes `+∞`. -/
theorem ofBits_inf : Ideal.ofBits .f32 0x7F800000#32 = (⊤ : EReal) := by
  simp [Ideal.ofBits, Ideal.ieee]

/-- An extended real whose absolute value `max x (-x)` is below `+∞` is a real: `+∞` is its own absolute value, and
    `-∞`'s is `+∞` too. -/
theorem real_of_abs_lt_top (x : EReal) (h : max x (-x) < ⊤) : ∃ r : ℝ, x = (r : EReal) := by
  induction x using EReal.rec with
  | bot => simp at h
  | coe r => exact ⟨r, rfl⟩
  | top => simp at h

/-- The comparison `|x| < +∞` read back from its one-bit word: if it is 1, `x` is a real. -/
theorem real_of_cmp (x : EReal)
    (h : Ideal.cmp .olt (max x (-x)) (Ideal.ofBits .f32 0x7F800000#32) = 1#1) : ∃ r : ℝ, x = (r : EReal) := by
  refine real_of_abs_lt_top x ?_
  by_contra hn
  rw [ofBits_inf] at h
  simp [Ideal.cmp, hn] at h

end Cert.Lib.Finite

end
-- ==== Proof.LibAllFinite.lean ====
/-
  A printed "all entries finite" test read back over the extended reals.

  A program tests an array for finiteness by comparing the absolute value of every entry with `+∞` and folding the
  one-bit answers by `and` over all axes into one bit. At the ideal instance a float is an extended real, so if that
  bit is 1 every comparison is 1 and every entry is a real number. The array of `+∞` may be any array whose every
  entry is the word 0x7F800000 (a broadcast constant). Nothing here mentions a program.
-/
import proofs.«161495_j41652592836980_2_alg».proof.Proof.LibFinite
import Idealize.ShloMosaic.Lib.ReduceAll

noncomputable section

namespace Cert.Lib.AllFinite

open Idealize.ShloMosaic

/-- An array `A` of any shape is compared entry by entry, `|A i| < top i`, against an array `top` whose every entry is
    `+∞`, and the answers are folded by `and` over the reduced axes into a result of one index. If the fold is 1,
    every comparison is 1, so every entry of `A` is a real number. -/
theorem real_of_all_abs_lt_top {s t u : Shape} [Subsingleton t.Idx] {axes : List (Fin s.rank)}
    (A top : FVec Ideal s .f32) (htop : ∀ i, top i = Ideal.ofBits .f32 0x7F800000#32)
    (init : IVec u 1) (h : s.ReducesTo axes t) (hu : 0 < u.numel) (j : t.Idx)
    (e : Host.reduce IntOp.andi (cmpf .olt (Host.absf A) top) init h hu j = 1#1) :
    ∀ i, ∃ r : ℝ, A i = (r : EReal) := by
  intro i
  have hi : cmpf .olt (Host.absf A) top i = 1#1 := Host.reduce_andi_all _ init h hu j e i
  refine Cert.Lib.Finite.real_of_cmp (A i) ?_
  rw [← htop i]
  exact hi

end Cert.Lib.AllFinite

end
-- ==== Proof.Finite.lean ====
/-
  The precondition read back: the matrix values of the document matrix and the embeddings are real numbers.

  The precondition is one bit, the conjunction of eleven tests "every entry of this array has absolute value below +∞",
  one per float argument. If the bit is 1 every conjunct is 1, in particular the tests of the document matrix's values
  and of the embedding table; and a test that is 1 says that every entry of its array is a real number.
-/
import proofs.«161495_j41652592836980_2_alg».proof.Defs
import proofs.«161495_j41652592836980_2_alg».proof.Proof.Gen.Pre_finite_inputs
import proofs.«161495_j41652592836980_2_alg».proof.Proof.Gen.KernelIdeal
import proofs.«161495_j41652592836980_2_alg».proof.Proof.LibAllFinite
import Idealize.ShloMosaic.Lib.ValueIdx

namespace Cert.Finite

open Idealize.ShloMosaic Idealize.SL.Sem Cert.Pre_finite_inputs Cert.Pre_finite_inputs.Gen

/-- The conjunction over any fifteen argument arrays: if it is 1, the sixth and the seventh array are real. -/
theorem real_of_fn (a0 a1 : IVec S800000 32) (a2 : FVec Ideal S800000 .f32) (a3 a4 : IVec S524288 32)
    (a5 : FVec Ideal S524288 .f32) (a6 : FVec Ideal S50000x256 .f32) (a7 a8 : FVec Ideal S256x256 .f32)
    (a9 a10 : FVec Ideal S256 .f32) (a11 : FVec Ideal S256x256 .f32) (a12 : FVec Ideal S256 .f32)
    (a13 : FVec Ideal S2x256 .f32) (a14 : FVec Ideal S2 .f32)
    (h : Cert.Pre_finite_inputs.fn (F := Ideal) a0 a1 a2 a3 a4 a5 a6 a7 a8 a9 a10 a11 a12 a13 a14 ValueIdx.ix0 = 1#1) :
    (∀ i, ∃ r : ℝ, a5 i = (r : EReal)) ∧ (∀ i, ∃ r : ℝ, a6 i = (r : EReal)) := by
  unfold Cert.Pre_finite_inputs.fn Cert.Pre_finite_inputs.fn_part1 Cert.Pre_finite_inputs.fn_part2
    Cert.Pre_finite_inputs.fn_part3 at h
  dsimp only at h
  have h48 := (IntOp.andi_eq_one.1 h).1
  have h43 := (IntOp.andi_eq_one.1 h48).1
  have h38 := (IntOp.andi_eq_one.1 h43).1
  have h33 := (IntOp.andi_eq_one.1 h38).1
  have h28 := (IntOp.andi_eq_one.1 h33).1
  have h23 := (IntOp.andi_eq_one.1 h28).1
  have h18 := (IntOp.andi_eq_one.1 h23).1
  have h13 := (IntOp.andi_eq_one.1 h18).1
  obtain ⟨h8, h12⟩ := IntOp.andi_eq_one.1 h13
  have h7 := (IntOp.andi_eq_one.1 h8).2
  exact ⟨Cert.Lib.AllFinite.real_of_all_abs_lt_top a5 _ (fun _ => rfl) _ _ _ ValueIdx.ix0 h7,
    Cert.Lib.AllFinite.real_of_all_abs_lt_top a6 _ (fun _ => rfl) _ _ _ ValueIdx.ix0 h12⟩

/-- Under the precondition the document matrix's values and the embeddings are real, on every device. -/
theorem real_inputs (m : (ℓ : Loc Cert.KernelIdeal.nD Cert.KernelIdeal.τ Cert.KernelIdeal.sig) → Buf (Elt Ideal) ℓ)
    (hpre : Cert.Pre_KernelIdeal m) (c : Dev Cert.KernelIdeal.nD) :
    (∀ i, ∃ r : ℝ, m ((c.tc : Thread Cert.KernelIdeal.nD Cert.KernelIdeal.τ).loc Cert.KernelIdeal.main_arg5) i = (r : EReal))
      ∧ (∀ i, ∃ r : ℝ, m ((c.tc : Thread Cert.KernelIdeal.nD Cert.KernelIdeal.τ).loc Cert.KernelIdeal.main_arg6) i = (r : EReal)) :=
  real_of_fn _ _ _ _ _ _ _ _ _ _ _ _ _ _ _ (congrFun (hpre c) ValueIdx.ix0)

end Cert.Finite
-- ==== Proof.Claims.lean ====
/-
  The five claims.

  The three frames: the two kernel programs' are the generated frame certificates; the reference has no kernel, and its
  frame is its run with the result dropped. The idealization rewrote nothing, so `preserves` is trivial. The algebraic
  claim: the kernel program ends with its result array at `Cert.Chains.kerOut` of its arguments (the run with the result
  named, composed with the regions' and the host stretches' values), the reference with its result at
  `Cert.Chains.refOut` of its arguments; the arguments agree, and under the precondition the pooling weights and the
  embeddings are real numbers, so the one pooling of a sum is the sum of the two poolings and the two functions agree.
-/
import proofs.«161495_j41652592836980_2_alg».proof.Defs
import proofs.«161495_j41652592836980_2_alg».proof.Proof.Gen.Kernel.Frame
import proofs.«161495_j41652592836980_2_alg».proof.Proof.Gen.KernelIdeal.Frame
import proofs.«161495_j41652592836980_2_alg».proof.Proof.Gen.ReferenceIdeal.Run
import proofs.«161495_j41652592836980_2_alg».proof.Proof.Gen.Pre_finite_inputs
import proofs.«161495_j41652592836980_2_alg».proof.Proof.KRun
import proofs.«161495_j41652592836980_2_alg».proof.Proof.KOut
import proofs.«161495_j41652592836980_2_alg».proof.Proof.RefSide
import proofs.«161495_j41652592836980_2_alg».proof.Proof.Bridge
import proofs.«161495_j41652592836980_2_alg».proof.Proof.Finite

noncomputable section

namespace Cert.Proof.Claims

open Idealize.ShloMosaic Idealize.ShloMosaic.TcCoe Idealize.SL.Sem

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.Value.run (F := Ideal) m ρ)

/-- Both programs end with equal results: `kerOut` of the arguments, which under the precondition is `refOut` of them. -/
theorem algebraic : Cert.algebraic_KernelIdeal_ReferenceIdeal := by
  intro m ρ m' ρ' hpre hagree
  refine ⟨fun c => Cert.Chains.kerOut (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)), ?_, ?_⟩
  · exact (θ_run Cert.KernelIdeal.defs _ _).mono
      (fun r h c => ⟨(h c).1.trans (Cert.KernelIdeal.KValue.v49_eq m ρ c), (h c).2⟩)
      (Cert.KernelIdeal.KValue.run_main (F := Ideal) m ρ)
  · refine (θ_run Cert.ReferenceIdeal.defs _ _).mono (fun _ h c => ⟨(h c).1.trans ?_, (h c).2⟩)
      (Cert.ReferenceIdeal.Value.run (F := Ideal) m' ρ')
    rw [Cert.RefSide.ref_value m' c]
    obtain ⟨h0, h1, h2, h3, h4, h5, h6, h7, h8, h9, h10, h11, h12, h13, h14⟩ := hagree c
    rw [h0, h1, h2, h3, h4, h5, h6, h7, h8, h9, h10, h11, h12, h13, h14]
    exact (Cert.Bridge.kerOut_eq_refOut _ _ _ _ _ _ _ _ _ _ _ _ _ _ _
      (Cert.Finite.real_inputs m hpre c).1 (Cert.Finite.real_inputs m hpre c).2).symm

end Cert.Proof.Claims

end
-- ==== Proof.lean ====
/-
  The certificate of a three-kernel word-graph network against its jnp reference, over the extended reals.

  Both programs apply the word graph's sparse matrix to the embeddings, a linear layer with relu, the sparse matrix
  again, a second linear layer with relu mixed with the embeddings and layer-normalised, pool the word features into
  documents with the sparse document/word matrix, and finish with a two-layer head. The kernel program computes the
  three dense stages in row-blocked kernels and pools (word features + embeddings) ONCE; the reference pools the word
  features and the embeddings separately and adds. Entry by entry every dense stage is the same function on both sides
  (a matrix product is the sum over the contracted coordinate, a row mean is the row's sum divided by 256, whatever
  the tiling), and the sparse products are the same host operations; the one law that joins the two sides is that the
  pooling distributes over the sum, which holds on the extended reals because under the precondition the pooling
  weights and the embeddings are real numbers. The claims themselves are proved in Proof/Claims.lean; here they are
  put together under the witnesses of the programs' stated facts.
-/
import proofs.«161495_j41652592836980_2_alg».proof.Defs
import proofs.«161495_j41652592836980_2_alg».proof.Proof.Gen.Kernel
import proofs.«161495_j41652592836980_2_alg».proof.Proof.Gen.KernelIdeal
import proofs.«161495_j41652592836980_2_alg».proof.Proof.Gen.ReferenceIdeal
import proofs.«161495_j41652592836980_2_alg».proof.Proof.Gen.Pre_finite_inputs
import proofs.«161495_j41652592836980_2_alg».proof.Proof.Claims

noncomputable section

namespace Cert.Proof

theorem claim : Cert.Claim :=
  ⟨Cert.Kernel.Gen.facts, Cert.KernelIdeal.Gen.facts, Cert.ReferenceIdeal.Gen.facts, Cert.Pre_finite_inputs.Gen.facts,
    Claims.frame_k, Claims.frame_ki, Claims.frame_ri, trivial, Claims.algebraic⟩

end Cert.Proof

end
